-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S2080x128 : Shape := ⟨2, ![2080, 128]⟩
abbrev S2080 : Shape := ⟨1, ![2080]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2080x128 : S_.BroadcastsInDim S2080x128 (![] : Fin 0 → Fin S2080x128.rank)
  reducesTo_S2080x128_S_d0_1 : S2080x128.ReducesTo [0, 1] S_
  bcast_S_S2080 : S_.BroadcastsInDim S2080 (![] : Fin 0 → Fin S2080.rank)
  reducesTo_S2080_S_d0 : S2080.ReducesTo [0] S_

variable [Facts]

def fn_part1 {F : FTy → Type} [FloatOps F] (main_arg4 : FVec F S2080 .f32) (main_v13 : IVec S_ 1) (main_v16 : IVec S2080x128 1) : IVec S_ 1 :=
  let main_c_5 : IVec S_ 1 := constantI S_ 1 1#1
  let main_v17 : IVec S_ 1 := (fun x v => Host.reduce IntOp.andi x v reducesTo_S2080x128_S_d0_1 h_S_) main_v16 main_c_5
  let main_v18 : IVec S_ 1 := andi main_v13 main_v17
  let main_v19 : FVec F S2080 .f32 := Host.absf main_arg4
  let main_cst_6 : FVec F S_ .f32 := constant S_ .f32 0x7F800000#32
  let main_v20 : FVec F S2080 .f32 := broadcastInDim S2080 ![] bcast_S_S2080 main_cst_6
  let main_v21 : IVec S2080 1 := cmpf .olt main_v19 main_v20
  let main_c_7 : IVec S_ 1 := constantI S_ 1 1#1
  let main_v22 : IVec S_ 1 := (fun x v => Host.reduce IntOp.andi x v reducesTo_S2080_S_d0 h_S_) main_v21 main_c_7
  let main_v23 : IVec S_ 1 := andi main_v18 main_v22
  main_v23

def fn {F : FTy → Type} [FloatOps F] (main_arg0 : FVec F S16384x128 .f32) (main_arg1 : FVec F S128x128 .f32) (main_arg2 : FVec F S128 .f32) (main_arg3 : FVec F S2080x128 .f32) (main_arg4 : FVec F S2080 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2080x128 .f32 := Host.absf main_arg3
  let main_cst_4 : FVec F S_ .f32 := constant S_ .f32 0x7F800000#32
  let main_v15 : FVec F S2080x128 .f32 := broadcastInDim S2080x128 ![] bcast_S_S2080x128 main_cst_4
  let main_v16 : IVec S2080x128 1 := cmpf .olt main_v14 main_v15
  fn_part1 (F := F) main_arg4 main_v13 main_v16
-- ==== Kernel.lean ====
abbrev S16384x128 : Shape := ⟨2, ![16384, 128]⟩
abbrev S128x128 : Shape := ⟨2, ![128, 128]⟩
abbrev S128 : Shape := ⟨1, ![128]⟩
abbrev S2080x128 : Shape := ⟨2, ![2080, 128]⟩
abbrev S2080 : Shape := ⟨1, ![2080]⟩
abbrev S1x128 : Shape := ⟨2, ![1, 128]⟩
abbrev S_ : Shape := ⟨0, ![]⟩
abbrev S4096x128 : Shape := ⟨2, ![4096, 128]⟩
abbrev S2080x1 : Shape := ⟨2, ![2080, 1]⟩
abbrev S128x4096 : Shape := ⟨2, ![128, 4096]⟩
abbrev S4096 : Shape := ⟨1, ![4096]⟩
abbrev S1x4096 : Shape := ⟨2, ![1, 4096]⟩
abbrev S16384x4096 : Shape := ⟨2, ![16384, 4096]⟩
abbrev S256x128 : Shape := ⟨2, ![256, 128]⟩
abbrev S256x4096 : Shape := ⟨2, ![256, 4096]⟩
abbrev S256x64x64 : Shape := ⟨3, ![256, 64, 64]⟩
abbrev S64x64 : Shape := ⟨2, ![64, 64]⟩
abbrev S1x64x64 : Shape := ⟨3, ![1, 64, 64]⟩
abbrev S16384x64x64 : Shape := ⟨3, ![16384, 64, 64]⟩

abbrev nBuf : Space → Nat
  | .hbm => 32
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S2080x128, .f32⟩
  | .hbm, ⟨4, _⟩ => ⟨S2080, .f32⟩
  | .hbm, ⟨5, _⟩ => ⟨S2080, .i32⟩
  | .hbm, ⟨6, _⟩ => ⟨S2080, .i1⟩
  | .hbm, ⟨7, _⟩ => ⟨S2080, .i1⟩
  | .hbm, ⟨8, _⟩ => ⟨S128x128, .f32⟩
  | .hbm, ⟨9, _⟩ => ⟨S128x128, .bf16⟩
  | .hbm, ⟨10, _⟩ => ⟨S1x128, .f32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S2080, .i32⟩
  | .hbm, ⟨15, _⟩ => ⟨S2080, .i32⟩
  | .hbm, ⟨16, _⟩ => ⟨S2080, .i32⟩
  | .hbm, ⟨17, _⟩ => ⟨S2080x1, .i32⟩
  | .hbm, ⟨18, _⟩ => ⟨S4096x128, .f32⟩
  | .hbm, ⟨19, _⟩ => ⟨S128x4096, .f32⟩
  | .hbm, ⟨20, _⟩ => ⟨S128x4096, .bf16⟩
  | .hbm, ⟨21, _⟩ => ⟨S_, .f32⟩
  | .hbm, ⟨22, _⟩ => ⟨S4096, .f32⟩
  | .hbm, ⟨23, _⟩ => ⟨S_, .i32⟩
  | .hbm, ⟨24, _⟩ => ⟨S2080, .i32⟩
  | .hbm, ⟨25, _⟩ => ⟨S2080, .i32⟩
  | .hbm, ⟨26, _⟩ => ⟨S2080, .i32⟩
  | .hbm, ⟨27, _⟩ => ⟨S2080x1, .i32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x64x64, .f32⟩
  | .local _ .vmem, ⟨0, _⟩ => ⟨S256x128, .f32⟩
  | .local _ .vmem, ⟨1, _⟩ => ⟨S256x128, .f32⟩
  | .local _ .vmem, ⟨2, _⟩ => ⟨S128x128, .bf16⟩
  | .local _ .vmem, ⟨3, _⟩ => ⟨S1x128, .f32⟩
  | .local _ .vmem, ⟨4, _⟩ => ⟨S128x4096, .bf16⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  bcast_S_S4096x128 : S_.BroadcastsInDim S4096x128 (![] : Fin 0 → Fin S4096x128.rank)
  bcast_S_S2080 : S_.BroadcastsInDim S2080 (![] : Fin 0 → Fin S2080.rank)
  bcast_S2080_S2080x1_0 : S2080.BroadcastsInDim S2080x1 (![0] : Fin 1 → Fin S2080x1.rank)
  transposes_S4096x128_S128x4096_1_0 : S4096x128.Transposes [1, 0] S128x4096
  bcast_S_S4096 : S_.BroadcastsInDim S4096 (![] : Fin 0 → Fin S4096.rank)
  shapeCasts_S4096_S1x4096 : S4096.ShapeCasts S1x4096
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S256x4096_S256x64x64 : S256x4096.ShapeCasts S256x64x64
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  broadcasts_S1x64x64_S256x64x64 : S1x64x64.Broadcasts S256x64x64
  shapeCasts_S256x64x64_S256x4096 : S256x64x64.ShapeCasts S256x4096
  inb_S256x4096_S256x4096_0_0 : ∀ a, (![0, 0] : Fin 2 → Nat) a + S256x4096.size a ≤ S256x4096.size a
  h_S256x4096 : 0 < S256x4096.numel
  shapeCasts_S16384x4096_S16384x64x64 : S16384x4096.ShapeCasts S16384x64x64
  scatter_S4096x128_S2080x1_S2080x128_1_0_0_1_wf : ScatterDims.WF S4096x128 S2080x1 S2080x128 [1] [0] [0] 1
  scatter_S4096_S2080x1_S2080_n_0_0_1_wf : ScatterDims.WF S4096 S2080x1 S2080 [] [0] [0] 1
  dot_S256x128_S128x128_S256x128_1_0_0_1_n_n_wf : DotDims.WF S256x128 S128x128 S256x128 [1] [0] [0] [1] [] []
  dot_S256x128_S128x4096_S256x4096_1_0_0_1_n_n_wf : DotDims.WF S256x128 S128x4096 S256x4096 [1] [0] [0] [1] [] []
  dot_S256x64x64_S256x64x64_S256x64x64_2_2_1_1_0_0_wf : DotDims.WF S256x64x64 S256x64x64 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S16384x4096.size a
  hwx0_5 : ∀ i : grid0.Coords, EltTy.bits .f32 = 32 ∨ (Rect.block (s := S16384x4096) S256x4096.size (cc0_transform_5 i) (hinb0_5 i)).WholeWords (EltTy.packing .f32)

variable [Facts₀]

def scatter_S4096x128_S2080x1_S2080x128_1_0_0_1 : ScatterDims S4096x128 S2080x1 S2080x128 where
  updateWindowDims := [1]
  insertedWindowDims := [0]
  scatterDimsToOperandDims := [0]
  indexVectorDim := 1
  wf := scatter_S4096x128_S2080x1_S2080x128_1_0_0_1_wf
def scatter_S4096_S2080x1_S2080_n_0_0_1 : ScatterDims S4096 S2080x1 S2080 where
  updateWindowDims := []
  insertedWindowDims := [0]
  scatterDimsToOperandDims := [0]
  indexVectorDim := 1
  wf := scatter_S4096_S2080x1_S2080_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x64x64_S256x64x64_S256x64x64_2_2_1_1_0_0 : DotDims S256x64x64 S256x64x64 S256x64x64 where
  lhsContracting := [2]
  rhsContracting := [2]
  lhsNonContracting := [1]
  rhsNonContracting := [1]
  lhsBatch := [0]
  rhsBatch := [0]
  wf := dot_S256x64x64_S256x64x64_S256x64x64_2_2_1_1_0_0_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S2080x128 : Shape := ⟨2, ![2080, 128]⟩
abbrev S2080 : Shape := ⟨1, ![2080]⟩
abbrev S1x128 : Shape := ⟨2, ![1, 128]⟩
abbrev S_ : Shape := ⟨0, ![]⟩
abbrev S128x2080 : Shape := ⟨2, ![128, 2080]⟩
abbrev S16384x2080 : Shape := ⟨2, ![16384, 2080]⟩
abbrev S1x2080 : Shape := ⟨2, ![1, 2080]⟩
abbrev S64x64 : Shape := ⟨2, ![64, 64]⟩
abbrev S4096 : Shape := ⟨1, ![4096]⟩
abbrev S4096x1 : Shape := ⟨2, ![4096, 1]⟩
abbrev S16384x64x64 : Shape := ⟨3, ![16384, 64, 64]⟩
abbrev S2080x1 : Shape := ⟨2, ![2080, 1]⟩
abbrev S2080x2 : Shape := ⟨2, ![2080, 2]⟩
abbrev S1x64x64 : Shape := ⟨3, ![1, 64, 64]⟩

abbrev nBuf : Space → Nat
  | .hbm => 181
  | .vmem => 0
  | .smem => 0
  | _ => 0

abbrev hbmTy0_0 (i : Nat) : BufTy := match i % 128 with
  | 0 => ⟨S16384x128, .f32⟩
  | 1 => ⟨S128x128, .f32⟩
  | 2 => ⟨S128, .f32⟩
  | 3 => ⟨S2080x128, .f32⟩
  | 4 => ⟨S2080, .f32⟩
  | 5 => ⟨S128x128, .f32⟩
  | 6 => ⟨S16384x128, .f32⟩
  | 7 => ⟨S1x128, .f32⟩
  | 8 => ⟨S16384x128, .f32⟩
  | 9 => ⟨S16384x128, .f32⟩
  | 10 => ⟨S_, .f32⟩
  | 11 => ⟨S16384x128, .f32⟩
  | 12 => ⟨S16384x128, .f32⟩
  | 13 => ⟨S16384x128, .f32⟩
  | 14 => ⟨S16384x128, .f32⟩
  | 15 => ⟨S16384x128, .i1⟩
  | 16 => ⟨S16384x128, .f32⟩
  | 17 => ⟨S16384x128, .f32⟩
  | 18 => ⟨S16384x128, .f32⟩
  | 19 => ⟨S16384x128, .f32⟩
  | 20 => ⟨S16384x128, .f32⟩
  | 21 => ⟨S16384x128, .f32⟩
  | 22 => ⟨S16384x128, .f32⟩
  | 23 => ⟨S16384x128, .f32⟩
  | 24 => ⟨S128x2080, .f32⟩
  | 25 => ⟨S16384x2080, .f32⟩
  | 26 => ⟨S1x2080, .f32⟩
  | 27 => ⟨S16384x2080, .f32⟩
  | 28 => ⟨S16384x2080, .f32⟩
  | 29 => ⟨S_, .f32⟩
  | 30 => ⟨S64x64, .f32⟩
  | 31 => ⟨S64x64, .i32⟩
  | 32 => ⟨S_, .i32⟩
  | 33 => ⟨S64x64, .i32⟩
  | 34 => ⟨S64x64, .i32⟩
  | 35 => ⟨S64x64, .i32⟩
  | 36 => ⟨S64x64, .i1⟩
  | 37 => ⟨S_, .f32⟩
  | 38 => ⟨S64x64, .f32⟩
  | 39 => ⟨S64x64, .f32⟩
  | 40 => ⟨S_, .f32⟩
  | 41 => ⟨S64x64, .f32⟩
  | 42 => ⟨S64x64, .i1⟩
  | 43 => ⟨S4096, .i1⟩
  | 44 => ⟨S4096, .i32⟩
  | 45 => ⟨S_, .i32⟩
  | 46 => ⟨S_, .i32⟩
  | 47 => ⟨S4096, .i32⟩
  | 48 => ⟨S_, .i32⟩
  | 49 => ⟨S2080, .i32⟩
  | 50 => ⟨S_, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S_, .i32⟩
  | 63 => ⟨S4096, .i32⟩
  | 64 => ⟨S2080, .i32⟩
  | 65 => ⟨S_, .i32⟩
  | 66 => ⟨S_, .i32⟩
  | 67 => ⟨S2080, .i32⟩
  | 68 => ⟨S_, .i32⟩
  | 69 => ⟨S2080, .i32⟩
  | 70 => ⟨S2080, .i32⟩
  | 71 => ⟨S2080, .i32⟩
  | 72 => ⟨S_, .i32⟩
  | 73 => ⟨S2080, .i32⟩
  | 74 => ⟨S2080, .i1⟩
  | 75 => ⟨S2080, .i32⟩
  | 76 => ⟨S2080, .i32⟩
  | 77 => ⟨S_, .i32⟩
  | 78 => ⟨S2080, .i32⟩
  | 79 => ⟨S2080, .i1⟩
  | 80 => ⟨S2080, .i1⟩
  | 81 => ⟨S_, .i32⟩
  | 82 => ⟨S2080, .i32⟩
  | 83 => ⟨S2080, .i32⟩
  | 84 => ⟨S2080, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S2080, .i32⟩
  | 92 => ⟨S2080, .i32⟩
  | 93 => ⟨S_, .i32⟩
  | 94 => ⟨S2080, .i32⟩
  | 95 => ⟨S2080, .i1⟩
  | 96 => ⟨S_, .i32⟩
  | 97 => ⟨S2080, .i32⟩
  | 98 => ⟨S2080, .i1⟩
  | 99 => ⟨S_, .i32⟩
  | 100 => ⟨S_, .i1⟩
  | 101 => ⟨S2080, .i1⟩
  | 102 => ⟨S2080, .i1⟩
  | 103 => ⟨S2080, .i1⟩
  | 104 => ⟨S2080, .i32⟩
  | 105 => ⟨S2080, .i32⟩
  | 106 => ⟨S2080, .i32⟩
  | 107 => ⟨S_, .i32⟩
  | 108 => ⟨S2080, .i32⟩
  | 109 => ⟨S2080, .i32⟩
  | 110 => ⟨S2080, .i32⟩
  | 111 => ⟨S_, .i32⟩
  | 112 => ⟨S2080, .i32⟩
  | 113 => ⟨S2080, .i1⟩
  | 114 => ⟨S2080, .i32⟩
  | 115 => ⟨S2080, .i32⟩
  | 116 => ⟨S_, .i32⟩
  | 117 => ⟨S2080, .i32⟩
  | 118 => ⟨S2080, .i1⟩
  | 119 => ⟨S2080, .i1⟩
  | 120 => ⟨S_, .i32⟩
  | 121 => ⟨S2080, .i32⟩
  | 122 => ⟨S2080, .i32⟩
  | 123 => ⟨S2080, .i32⟩
  | 124 => ⟨S_, .i32⟩
  | 125 => ⟨S_, .i32⟩
  | 126 => ⟨S_, .i32⟩
  | 127 => ⟨S_, .i1⟩
  | _ => ⟨S16384x128, .f32⟩

abbrev hbmTy0_1 (i : Nat) : BufTy := match i % 128 with
  | 0 => ⟨S_, .i32⟩
  | 1 => ⟨S_, .i32⟩
  | 2 => ⟨S2080, .i32⟩
  | 3 => ⟨S2080, .i32⟩
  | 4 => ⟨S_, .i32⟩
  | 5 => ⟨S2080, .i32⟩
  | 6 => ⟨S2080, .i1⟩
  | 7 => ⟨S_, .i32⟩
  | 8 => ⟨S2080, .i32⟩
  | 9 => ⟨S2080, .i1⟩
  | 10 => ⟨S_, .i32⟩
  | 11 => ⟨S_, .i1⟩
  | 12 => ⟨S2080, .i1⟩
  | 13 => ⟨S2080, .i1⟩
  | 14 => ⟨S2080, .i1⟩
  | 15 => ⟨S2080, .i32⟩
  | 16 => ⟨S2080, .i32⟩
  | 17 => ⟨S2080, .i32⟩
  | 18 => ⟨S_, .f32⟩
  | 19 => ⟨S16384x64x64, .f32⟩
  | 20 => ⟨S_, .i32⟩
  | 21 => ⟨S2080, .i32⟩
  | 22 => ⟨S2080, .i1⟩
  | 23 => ⟨S_, .i32⟩
  | 24 => ⟨S2080, .i32⟩
  | 25 => ⟨S2080, .i32⟩
  | 26 => ⟨S2080, .i32⟩
  | 27 => ⟨S_, .i32⟩
  | 28 => ⟨S2080, .i32⟩
  | 29 => ⟨S2080, .i1⟩
  | 30 => ⟨S_, .i32⟩
  | 31 => ⟨S2080, .i32⟩
  | 32 => ⟨S2080, .i32⟩
  | 33 => ⟨S2080, .i32⟩
  | 34 => ⟨S2080x1, .i32⟩
  | 35 => ⟨S2080x1, .i32⟩
  | 36 => ⟨S2080x2, .i32⟩
  | 37 => ⟨S16384x64x64, .f32⟩
  | 38 => ⟨S16384x64x64, .f32⟩
  | 39 => ⟨S16384x64x64, .f32⟩
  | 40 => ⟨S64x64, .i32⟩
  | 41 => ⟨S64x64, .i32⟩
  | 42 => ⟨S_, .i32⟩
  | 43 => ⟨S64x64, .i32⟩
  | 44 => ⟨S64x64, .i32⟩
  | 45 => ⟨S64x64, .i1⟩
  | 46 => ⟨S64x64, .f32⟩
  | 47 => ⟨S_, .f32⟩
  | 48 => ⟨S64x64, .f32⟩
  | 49 => ⟨S64x64, .f32⟩
  | 50 => ⟨S1x64x64, .f32⟩
  | 51 => ⟨S16384x64x64, .f32⟩
  | 52 => ⟨S16384x64x64, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_cst : Ref sig .tc := ⟨.hbm, 37, rfl⟩
abbrev main_call1_v5 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_call2_v0 : Ref sig .tc := ⟨.hbm, 43, rfl⟩
abbrev main_call2_v1 : Ref sig .tc := ⟨.hbm, 44, rfl⟩
abbrev main_call2_call0_c : Ref sig .tc := ⟨.hbm, 45, rfl⟩
abbrev main_call2_call0_v0 : Ref sig .tc := ⟨.hbm, 46, rfl⟩
abbrev main_v15 : Ref sig .tc := ⟨.hbm, 47, rfl⟩
abbrev main_c : Ref sig .tc := ⟨.hbm, 48, rfl⟩
abbrev main_v16 : Ref sig .tc := ⟨.hbm, 49, rfl⟩
abbrev main_c_1 : Ref sig .tc := ⟨.hbm, 50, rfl⟩
abbrev main_call3_v0 : Ref sig .tc := ⟨.hbm, 51, rfl⟩
abbrev main_call3_v1 : Ref sig .tc := ⟨.hbm, 52, rfl⟩
abbrev main_v17 : Ref sig .tc := ⟨.hbm, 53, rfl⟩
abbrev main_c_2 : Ref sig .tc := ⟨.hbm, 54, rfl⟩
abbrev main_v18 : Ref sig .tc := ⟨.hbm, 55, rfl⟩
abbrev main_v19 : Ref sig .tc := ⟨.hbm, 56, rfl⟩
abbrev main_c_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_4 : Ref sig .tc := ⟨.hbm, 62, rfl⟩
abbrev main_v24 : Ref sig .tc := ⟨.hbm, 63, rfl⟩
abbrev main_v25 : Ref sig .tc := ⟨.hbm, 64, rfl⟩
abbrev main_call4_call0_c : Ref sig .tc := ⟨.hbm, 65, rfl⟩
abbrev main_call4_call0_v0 : Ref sig .tc := ⟨.hbm, 66, rfl⟩
abbrev main_v26 : Ref sig .tc := ⟨.hbm, 67, rfl⟩
abbrev main_c_5 : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_v5 : Ref sig .tc := ⟨.hbm, 74, rfl⟩
abbrev main_call5_v6 : Ref sig .tc := ⟨.hbm, 75, rfl⟩
abbrev main_call5_v7 : Ref sig .tc := ⟨.hbm, 76, rfl⟩
abbrev main_call5_c : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_c_0 : Ref sig .tc := ⟨.hbm, 81, rfl⟩
abbrev main_call5_v11 : Ref sig .tc := ⟨.hbm, 82, rfl⟩
abbrev main_call5_v12 : Ref sig .tc := ⟨.hbm, 83, rfl⟩
abbrev main_v27 : Ref sig .tc := ⟨.hbm, 84, rfl⟩
abbrev main_c_6 : Ref sig .tc := ⟨.hbm, 85, rfl⟩
abbrev main_call6_v0 : Ref sig .tc := ⟨.hbm, 86, rfl⟩
abbrev main_call6_c : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_c_1 : Ref sig .tc := ⟨.hbm, 93, rfl⟩
abbrev main_call6_v5 : Ref sig .tc := ⟨.hbm, 94, rfl⟩
abbrev main_call6_v6 : Ref sig .tc := ⟨.hbm, 95, rfl⟩
abbrev main_call6_c_2 : Ref sig .tc := ⟨.hbm, 96, rfl⟩
abbrev main_call6_v7 : Ref sig .tc := ⟨.hbm, 97, rfl⟩
abbrev main_call6_v8 : Ref sig .tc := ⟨.hbm, 98, rfl⟩
abbrev main_call6_c_3 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_v12 : Ref sig .tc := ⟨.hbm, 103, rfl⟩
abbrev main_call6_v13 : Ref sig .tc := ⟨.hbm, 104, rfl⟩
abbrev main_call6_v14 : Ref sig .tc := ⟨.hbm, 105, rfl⟩
abbrev main_v28 : Ref sig .tc := ⟨.hbm, 106, rfl⟩
abbrev main_c_7 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_call7_v5 : Ref sig .tc := ⟨.hbm, 113, rfl⟩
abbrev main_call7_v6 : Ref sig .tc := ⟨.hbm, 114, rfl⟩
abbrev main_call7_v7 : Ref sig .tc := ⟨.hbm, 115, rfl⟩
abbrev main_call7_c : Ref sig .tc := ⟨.hbm, 116, rfl⟩
abbrev main_call7_v8 : Ref sig .tc := ⟨.hbm, 117, rfl⟩
abbrev main_call7_v9 : Ref sig .tc := ⟨.hbm, 118, rfl⟩
abbrev main_call7_v10 : Ref sig .tc := ⟨.hbm, 119, rfl⟩
abbrev main_call7_c_0 : Ref sig .tc := ⟨.hbm, 120, rfl⟩
abbrev main_call7_v11 : Ref sig .tc := ⟨.hbm, 121, rfl⟩
abbrev main_call7_v12 : Ref sig .tc := ⟨.hbm, 122, rfl⟩
abbrev main_v29 : Ref sig .tc := ⟨.hbm, 123, rfl⟩
abbrev main_c_8 : Ref sig .tc := ⟨.hbm, 124, rfl⟩
abbrev main_call8_v0 : Ref sig .tc := ⟨.hbm, 125, rfl⟩
abbrev main_call8_c : Ref sig .tc := ⟨.hbm, 126, rfl⟩
abbrev main_call8_v1 : Ref sig .tc := ⟨.hbm, 127, rfl⟩
abbrev main_call8_c_0 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_c_1 : Ref sig .tc := ⟨.hbm, 132, rfl⟩
abbrev main_call8_v5 : Ref sig .tc := ⟨.hbm, 133, rfl⟩
abbrev main_call8_v6 : Ref sig .tc := ⟨.hbm, 134, rfl⟩
abbrev main_call8_c_2 : Ref sig .tc := ⟨.hbm, 135, rfl⟩
abbrev main_call8_v7 : Ref sig .tc := ⟨.hbm, 136, rfl⟩
abbrev main_call8_v8 : Ref sig .tc := ⟨.hbm, 137, rfl⟩
abbrev main_call8_c_3 : Ref sig .tc := ⟨.hbm, 138, rfl⟩
abbrev main_call8_v9 : Ref sig .tc := ⟨.hbm, 139, rfl⟩
abbrev main_call8_v10 : Ref sig .tc := ⟨.hbm, 140, rfl⟩
abbrev main_call8_v11 : Ref sig .tc := ⟨.hbm, 141, rfl⟩
abbrev main_call8_v12 : Ref sig .tc := ⟨.hbm, 142, rfl⟩
abbrev main_call8_v13 : Ref sig .tc := ⟨.hbm, 143, rfl⟩
abbrev main_call8_v14 : Ref sig .tc := ⟨.hbm, 144, rfl⟩
abbrev main_v30 : Ref sig .tc := ⟨.hbm, 145, rfl⟩
abbrev main_cst_9 : Ref sig .tc := ⟨.hbm, 146, rfl⟩
abbrev main_v31 : Ref sig .tc := ⟨.hbm, 147, rfl⟩
abbrev main_c_10 : Ref sig .tc := ⟨.hbm, 148, rfl⟩
abbrev main_v32 : Ref sig .tc := ⟨.hbm, 149, rfl⟩
abbrev main_v33 : Ref sig .tc := ⟨.hbm, 150, rfl⟩
abbrev main_c_11 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_c_12 : Ref sig .tc := ⟨.hbm, 155, rfl⟩
abbrev main_v37 : Ref sig .tc := ⟨.hbm, 156, rfl⟩
abbrev main_v38 : Ref sig .tc := ⟨.hbm, 157, rfl⟩
abbrev main_c_13 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_c_14 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_cst_15 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S2080x128_S128x2080_1_0 : S2080x128.Transposes [1, 0] S128x2080
  bcast_S2080_S1x2080_1 : S2080.BroadcastsInDim S1x2080 (![1] : Fin 1 → Fin S1x2080.rank)
  bcast_S1x2080_S16384x2080_0_1 : S1x2080.BroadcastsInDim S16384x2080 (![0, 1] : Fin 2 → Fin S16384x2080.rank)
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2080 : S_.BroadcastsInDim S2080 (![] : Fin 0 → Fin S2080.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2080_S2080_w2080s1p2079_0 : S2080.ReduceWindows (![2080] : Fin 1 → Nat) ![1] ![2079] ![0] S2080
  bcast_S_S16384x64x64 : S_.BroadcastsInDim S16384x64x64 (![] : Fin 0 → Fin S16384x64x64.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  transposes_S16384x64x64_S16384x64x64_0_2_1 : S16384x64x64.Transposes [0, 2, 1] S16384x64x64
  bcast_S64x64_S1x64x64_1_2 : S64x64.BroadcastsInDim S1x64x64 (![1, 2] : Fin 2 → Fin S1x64x64.rank)
  bcast_S1x64x64_S16384x64x64_0_1_2 : S1x64x64.BroadcastsInDim S16384x64x64 (![0, 1, 2] : Fin 3 → Fin S16384x64x64.rank)
  dot_S16384x128_S128x128_S16384x128_1_0_0_1_n_n_wf : DotDims.WF S16384x128 S128x128 S16384x128 [1] [0] [0] [1] [] []
  dot_S16384x128_S128x2080_S16384x2080_1_0_0_1_n_n_wf : DotDims.WF S16384x128 S128x2080 S16384x2080 [1] [0] [0] [1] [] []
  scatter_S2080_S4096x1_S4096_n_0_0_1_wf : ScatterDims.WF S2080 S4096x1 S4096 [] [0] [0] 1
  scatter_S16384x64x64_S2080x2_S16384x2080_0_12_12_1_wf : ScatterDims.WF S16384x64x64 S2080x2 S16384x2080 [0] [1, 2] [1, 2] 1
  dot_S16384x64x64_S16384x64x64_S16384x64x64_2_1_1_2_0_0_wf : DotDims.WF S16384x64x64 S16384x64x64 S16384x64x64 [2] [1] [1] [2] [0] [0]

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x2080_S16384x2080_1_0_0_1_n_n : DotDims S16384x128 S128x2080 S16384x2080 where
  lhsContracting := [1]
  rhsContracting := [0]
  lhsNonContracting := [0]
  rhsNonContracting := [1]
  lhsBatch := []
  rhsBatch := []
  wf := dot_S16384x128_S128x2080_S16384x2080_1_0_0_1_n_n_wf
def scatter_S2080_S4096x1_S4096_n_0_0_1 : ScatterDims S2080 S4096x1 S4096 where
  updateWindowDims := []
  insertedWindowDims := [0]
  scatterDimsToOperandDims := [0]
  indexVectorDim := 1
  wf := scatter_S2080_S4096x1_S4096_n_0_0_1_wf
def scatter_S16384x64x64_S2080x2_S16384x2080_0_12_12_1 : ScatterDims S16384x64x64 S2080x2 S16384x2080 where
  updateWindowDims := [0]
  insertedWindowDims := [1, 2]
  scatterDimsToOperandDims := [1, 2]
  indexVectorDim := 1
  wf := scatter_S16384x64x64_S2080x2_S16384x2080_0_12_12_1_wf
def dot_S16384x64x64_S16384x64x64_S16384x64x64_2_1_1_2_0_0 : DotDims S16384x64x64 S16384x64x64 S16384x64x64 where
  lhsContracting := [2]
  rhsContracting := [1]
  lhsNonContracting := [1]
  rhsNonContracting := [2]
  lhsBatch := [0]
  rhsBatch := [0]
  wf := dot_S16384x64x64_S16384x64x64_S16384x64x64_2_1_1_2_0_0_wf

class Facts : Prop extends Facts₀ where

variable [Facts]
-- ==== Proof.TrilIndex.lean ====
/-
  The lower-triangular positions of an n × n matrix in row-major order, for n = 64.

  Position number `k` (0 ≤ k < 2080 = 64·65/2) is the entry (row, column) = (trow k, tcol k) with
  tcol k ≤ trow k < 64: rows come in order, and row `i` holds the `i + 1` entries (i, 0) … (i, i), so the
  entries before row `i` number i(i+1)/2 and entry (i, j) is position `tpos i j = i(i+1)/2 + j`.
  Its flat row-major address in the full 64 × 64 matrix is `tflat k = 64 · trow k + tcol k`.
-/
import Mathlib.Tactic

namespace Cert.Tril

/-- The number of lower-triangular entries in the rows before row `i`, plus `j`: the position of entry (i, j). -/
def tpos (i j : Nat) : Nat := i * (i + 1) / 2 + j

/-- The largest `i ≤ fuel` with i(i+1)/2 ≤ k. -/
def trowAux : Nat → Nat → Nat
  | 0, _ => 0
  | i + 1, k => if (i + 1) * (i + 2) / 2 ≤ k then i + 1 else trowAux i k

/-- The row of position `k`. -/
def trow (k : Nat) : Nat := trowAux 63 k

/-- The column of position `k`. -/
def tcol (k : Nat) : Nat := k - trow k * (trow k + 1) / 2

/-- The flat address of position `k` in the 64 × 64 matrix. -/
def tflat (k : Nat) : Nat := 64 * trow k + tcol k

theorem trow_lt : ∀ k : Fin 2080, trow k.val < 64 := by decide +kernel

theorem tcol_le_trow : ∀ k : Fin 2080, tcol k.val ≤ trow k.val := by decide +kernel

theorem tpos_trow_tcol : ∀ k : Fin 2080, tpos (trow k.val) (tcol k.val) = k.val := by decide +kernel

theorem tpos_lt : ∀ i j : Fin 64, j.val ≤ i.val → tpos i.val j.val < 2080 := by decide +kernel

theorem trow_tpos : ∀ i j : Fin 64, j.val ≤ i.val → trow (tpos i.val j.val) = i.val := by decide +kernel

theorem tcol_tpos : ∀ i j : Fin 64, j.val ≤ i.val → tcol (tpos i.val j.val) = j.val := by decide +kernel

theorem tflat_lt : ∀ k : Fin 2080, tflat k.val < 4096 := by decide +kernel

/-- Two positions with the same row and column are one position. -/
theorem pos_ext {k k' : Fin 2080} (hr : trow k.val = trow k'.val) (hc : tcol k.val = tcol k'.val) : k = k' := by
  apply Fin.ext
  rw [← tpos_trow_tcol k, ← tpos_trow_tcol k', hr, hc]

/-- Two positions with the same flat address are one position. -/
theorem tflat_inj {k k' : Fin 2080} (h : tflat k.val = tflat k'.val) : k = k' := by
  have h1 := trow_lt k; have h2 := trow_lt k'
  have h3 := tcol_le_trow k; have h4 := tcol_le_trow k'
  unfold tflat at h
  exact pos_ext (by omega) (by omega)

/-- The flat address `64 i + j` holds a lower-triangular position exactly when `j ≤ i`, and then it is `tpos i j`. -/
theorem tflat_eq_iff (k : Fin 2080) (i j : Fin 64) :
    tflat k.val = 64 * i.val + j.val ↔ (j.val ≤ i.val ∧ k.val = tpos i.val j.val) := by
  have h1 := trow_lt k
  have h3 := tcol_le_trow k
  constructor
  · intro h
    unfold tflat at h
    have hr : trow k.val = i.val := by omega
    have hc : tcol k.val = j.val := by omega
    refine ⟨by omega, ?_⟩
    rw [← tpos_trow_tcol k, hr, hc]
  · rintro ⟨hle, hk⟩
    unfold tflat
    rw [hk, trow_tpos i j hle, tcol_tpos i j hle]

end Cert.Tril
-- ==== Proof.Spec.lean ====
/-
  The function both programs compute, index by index on the extended reals.

  From x : [16384, 128], W1 : [128, 128], b1 : [128], W2 : [2080, 128], b2 : [2080]:
    pre b k   = Σ_d x(b,d) · W1(k,d) + b1(k)                       (first layer, before the activation)
    hid b k   = softplus (pre b k),  softplus z = max z 0 + log(1 + exp(−|z|)),  |z| = max z (−z)
    elem b n  = Σ_k hid(b,k) · W2(n,k) + b2(n)                      (second layer: 2080 numbers per sample)
    low b i j = elem b (i(i+1)/2 + j) if j ≤ i, else 0              (the numbers laid out as a lower-triangular 64 × 64 matrix)
    out b i j = Σ_k low(b,i,k) · low(b,j,k) + ε · [i = j]           (the matrix times its transpose, plus ε on the diagonal)
  with ε the single-precision word 0x358637BD read as its exact value.
-/
import Idealize.ShloMosaic.PureOps.Ideal
import Idealize.ShloMosaic.Lib.ValueIdx
import proofs.«162534_j14963666059944_2_alg».proof.Proof.TrilIndex

noncomputable section

open scoped BigOperators

namespace Cert.Spec

open Idealize.ShloMosaic Idealize.ShloMosaic.ValueIdx Cert.Tril

/-- softplus on the extended reals, in the numerically stable arrangement both programs use. -/
def softplus (z : EReal) : EReal := max z 0 + Ideal.log1p (Ideal.exp (-(max z (-z))))

section
variable (x : FVec Ideal ⟨2, ![16384, 128]⟩ .f32) (W1 : FVec Ideal ⟨2, ![128, 128]⟩ .f32) (b1 : FVec Ideal ⟨1, ![128]⟩ .f32)
  (W2 : FVec Ideal ⟨2, ![2080, 128]⟩ .f32) (b2 : FVec Ideal ⟨1, ![2080]⟩ .f32)

/-- The first layer before its activation. -/
def pre (b : Fin 16384) (k : Fin 128) : EReal := (∑ d : Fin 128, x (ix2 b d) * W1 (ix2 k d)) + b1 (ix1 k)

/-- The hidden layer. -/
def hid (b : Fin 16384) (k : Fin 128) : EReal := softplus (pre x W1 b1 b k)

/-- The second layer: entry `n` of sample `b`. -/
def elem (b : Fin 16384) (n : Fin 2080) : EReal := (∑ k : Fin 128, hid x W1 b1 b k * W2 (ix2 n k)) + b2 (ix1 n)

/-- The second layer's entries laid out as a lower-triangular matrix. -/
def low (b : Fin 16384) (i j : Fin 64) : EReal :=
  if h : j.val ≤ i.val then elem x W1 b1 W2 b2 b ⟨tpos i.val j.val, tpos_lt i j h⟩ else 0

/-- The result: the triangular matrix times its transpose plus ε on the diagonal. -/
def out (b : Fin 16384) (i j : Fin 64) : EReal :=
  (∑ k : Fin 64, low x W1 b1 W2 b2 b i k * low x W1 b1 W2 b2 b j k)
    + Ideal.ofBits .f32 0x358637BD#32 * (if i = j then (1 : EReal) else 0)

/-- The result as an array [16384, 64, 64]. -/
def G : FVec Ideal ⟨3, ![16384, 64, 64]⟩ .f32 := fun q => out x W1 b1 W2 b2 (q 0) (q 1) (q 2)

end

end Cert.Spec

end
-- ==== Proof.KValueBlock.lean ====
/-
  One block of rows of the kernel, read against the specification.

  The kernel works on 256 rows of x at a time.  From the block x0 of those rows, the transposed first-layer
  weights x1(d,k) = W1(k,d), the bias row x2, the zero-padded transposed second-layer weights
  x3(k, 64 i + j) = W2(i(i+1)/2 + j, k) for j ≤ i and 0 otherwise, and the zero-padded bias row x4 likewise,
  it forms  L(r, p) = Σ_k softplus(Σ_d x0(r,d) · x1(d,k) + x2(k)) · x3(k,p) + x4(p)  and then
  Σ_k L(r, 64 i + k) · L(r, 64 j + k) + ε·[i = j].

  For j ≤ i the number L(r, 64 i + j) is the specification's second-layer entry i(i+1)/2 + j of that row.  For
  j > i every product in the sum is (something) · 0, which is 0 for EVERY extended real, infinite or not, and the
  bias is 0: so L(r, 64 i + j) = 0, and L is the specification's lower-triangular layout.  The block of the output
  is therefore the specification's result on those rows, laid out flat: row b, column 64 i + j holds out(b, i, j).
-/
import Idealize.ShloMosaic.PureOps.Ideal
import Idealize.ShloMosaic.Lib.ValueIdx
import proofs.«162534_j14963666059944_2_alg».proof.Proof.Spec

noncomputable section

open scoped BigOperators

namespace Cert.KernelIdeal.KValue

open Idealize.ShloMosaic Idealize.ShloMosaic.ValueIdx Cert.Tril

/-- The flat column of entry (i, j) of a 64 × 64 matrix. -/
abbrev col (i j : Fin 64) : Fin 4096 := ⟨64 * i.val + j.val, by have := i.isLt; have := j.isLt; omega⟩

/-- Every flat column is the column of one entry. -/
theorem exists_col (p : Fin 4096) : ∃ i j : Fin 64, p = col i j :=
  ⟨⟨p.val / 64, by have := p.isLt; omega⟩, ⟨p.val % 64, Nat.mod_lt _ (by decide)⟩, Fin.ext (by show p.val = 64 * (p.val / 64) + p.val % 64; omega)⟩

section
variable (x : FVec Ideal ⟨2, ![16384, 128]⟩ .f32) (W1 : FVec Ideal ⟨2, ![128, 128]⟩ .f32) (b1 : FVec Ideal ⟨1, ![128]⟩ .f32)
  (W2 : FVec Ideal ⟨2, ![2080, 128]⟩ .f32) (b2 : FVec Ideal ⟨1, ![2080]⟩ .f32)

/-- The result laid out flat, as the region's output array [16384, 4096]: row b, column 64 i + j holds out(b, i, j). -/
def Gflat : (⟨2, ![16384, 4096]⟩ : Shape).Idx → EReal := fun q =>
  Cert.Spec.out x W1 b1 W2 b2 (q 0) ⟨(q 1).val / 64, by have := idx2_lt1 q; omega⟩ ⟨(q 1).val % 64, Nat.mod_lt _ (by decide)⟩

/-- At row b and the column of entry (i, j) the flat layout holds out(b, i, j). -/
theorem Gflat_col (b : Fin 16384) (i j : Fin 64) : Gflat x W1 b1 W2 b2 (ix2 b (col i j)) = Cert.Spec.out x W1 b1 W2 b2 b i j := by
  unfold Gflat
  have hi : (⟨(64 * i.val + j.val) / 64, by have := i.isLt; have := j.isLt; omega⟩ : Fin 64) = i := Fin.ext (by show (64 * i.val + j.val) / 64 = i.val; have := j.isLt; omega)
  have hj : (⟨(64 * i.val + j.val) % 64, Nat.mod_lt _ (by decide)⟩ : Fin 64) = j := Fin.ext (by show (64 * i.val + j.val) % 64 = j.val; have := j.isLt; omega)
  show Cert.Spec.out x W1 b1 W2 b2 b ⟨(64 * i.val + j.val) / 64, _⟩ ⟨(64 * i.val + j.val) % 64, _⟩ = _
  rw [hi, hj]

variable (x0 : (⟨2, ![256, 128]⟩ : Shape).Idx → EReal) (x1 : (⟨2, ![128, 128]⟩ : Shape).Idx → EReal)
  (x2 : (⟨2, ![1, 128]⟩ : Shape).Idx → EReal) (x3 : (⟨2, ![128, 4096]⟩ : Shape).Idx → EReal)
  (x4 : (⟨2, ![1, 4096]⟩ : Shape).Idx → EReal)

/-- The kernel's second layer on one row of a block is the specification's lower-triangular layout of that row:
    the second layer's entry where j ≤ i, and 0 where j > i because every term is a product with 0. -/
theorem lowBlock_eq (b : Fin 16384) (r : Fin 256)
    (h0 : ∀ d : Fin 128, x0 (ix2 r d) = x (ix2 b d))
    (h1 : ∀ d k : Fin 128, x1 (ix2 d k) = W1 (ix2 k d))
    (h2 : ∀ k : Fin 128, x2 (ix2 (0 : Fin 1) k) = b1 (ix1 k))
    (h3 : ∀ (k : Fin 128) (i j : Fin 64), x3 (ix2 k (col i j)) = if h : j.val ≤ i.val then W2 (ix2 ⟨tpos i.val j.val, tpos_lt i j h⟩ k) else 0)
    (h4 : ∀ i j : Fin 64, x4 (ix2 (0 : Fin 1) (col i j)) = if h : j.val ≤ i.val then b2 (ix1 ⟨tpos i.val j.val, tpos_lt i j h⟩) else 0)
    (i j : Fin 64) :
    (∑ k : Fin 128, Cert.Spec.softplus ((∑ d : Fin 128, x0 (ix2 r d) * x1 (ix2 d k)) + x2 (ix2 (0 : Fin 1) k)) * x3 (ix2 k (col i j)))
        + x4 (ix2 (0 : Fin 1) (col i j))
      = Cert.Spec.low x W1 b1 W2 b2 b i j := by
  unfold Cert.Spec.low
  simp only [h0, h1, h2, h3, h4]
  by_cases h : j.val ≤ i.val
  · simp only [dif_pos h]
    rfl
  · simp only [dif_neg h, mul_zero, Finset.sum_const_zero, add_zero]

/-- One row of a block of the kernel's output is the specification's result on that row, laid out flat.
    L is the kernel's second layer on the block (hL); o is what the kernel forms from it (ho). -/
theorem outBlock_eq (b : Fin 16384) (r : Fin 256)
    (h0 : ∀ d : Fin 128, x0 (ix2 r d) = x (ix2 b d))
    (h1 : ∀ d k : Fin 128, x1 (ix2 d k) = W1 (ix2 k d))
    (h2 : ∀ k : Fin 128, x2 (ix2 (0 : Fin 1) k) = b1 (ix1 k))
    (h3 : ∀ (k : Fin 128) (i j : Fin 64), x3 (ix2 k (col i j)) = if h : j.val ≤ i.val then W2 (ix2 ⟨tpos i.val j.val, tpos_lt i j h⟩ k) else 0)
    (h4 : ∀ i j : Fin 64, x4 (ix2 (0 : Fin 1) (col i j)) = if h : j.val ≤ i.val then b2 (ix1 ⟨tpos i.val j.val, tpos_lt i j h⟩) else 0)
    (L : Fin 4096 → EReal)
    (hL : ∀ p : Fin 4096, L p = (∑ k : Fin 128, Cert.Spec.softplus ((∑ d : Fin 128, x0 (ix2 r d) * x1 (ix2 d k)) + x2 (ix2 (0 : Fin 1) k)) * x3 (ix2 k p))
        + x4 (ix2 (0 : Fin 1) p))
    (o : Fin 4096 → EReal)
    (ho : ∀ i j : Fin 64, o (col i j) = (∑ k : Fin 64, L (col i k) * L (col j k))
        + Ideal.ofBits .f32 0x358637BD#32 * (if i = j then (1 : EReal) else 0))
    (p : Fin 4096) :
    o p = Gflat x W1 b1 W2 b2 (ix2 b p) := by
  obtain ⟨i, j, rfl⟩ := exists_col p
  have hlow : ∀ i j : Fin 64, L (col i j) = Cert.Spec.low x W1 b1 W2 b2 b i j := fun i j =>
    (hL (col i j)).trans (lowBlock_eq x W1 b1 W2 b2 x0 x1 x2 x3 x4 b r h0 h1 h2 h3 h4 i j)
  rw [ho, Gflat_col]
  simp only [hlow]
  rfl

end

end Cert.KernelIdeal.KValue

end
-- ==== Proof.KValueWin.lean ====
/-
  From the blocks the kernel writes to its result array.

  The kernel runs over 64 blocks of 256 rows.  At block t it reads rows 256 t … 256 t + 255 of x and the whole of
  the four arrays the host prepared (the transposed first-layer weights, the first-layer bias as a row, the zero-padded
  transposed second-layer weights and the zero-padded second-layer bias as a row), and writes rows 256 t … 256 t + 255
  of a [16384, 4096] array.  Given what the host prepared (row by row of the triangular layout) and what the body
  computes from its blocks, the block written at t is the block of ONE array, the specification's result laid out
  flat (row b, column 64 i + j holds out(b, i, j)): every row lies in the block ⌊row / 256⌋, so after the run the array
  is that flat layout, and the final reshape [16384, 4096] → [16384, 64, 64] reads row-major position
  b·4096 + 64 i + j = (b·64 + i)·64 + j, which is the specification's result at (b, i, j).
-/
import proofs.«162534_j14963666059944_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«162534_j14963666059944_2_alg».proof.Proof.KValueBlock

noncomputable section

open scoped BigOperators

namespace Cert.KernelIdeal.KValue

open Cert.KernelIdeal Cert.KernelIdeal.Gen Cert.KernelIdeal.Facts₀ Cert.KernelIdeal.Facts
open Idealize.ShloMosaic Idealize.ShloMosaic.TcCoe Idealize.SL.Sem Idealize.ShloMosaic.ValueIdx Cert.Tril
open Idealize.ShloMosaic.Pipeline (Dat)

/-- The kernel's second layer on row r of a block, at flat column p. -/
def lowRow (x0 : Vec Ideal S256x128 .f32) (x1 : Vec Ideal S128x128 .bf16) (x2 : Vec Ideal S1x128 .f32)
    (x3 : Vec Ideal S128x4096 .bf16) (x4 : Vec Ideal S1x4096 .f32) (r : Fin 256) (p : Fin 4096) : EReal :=
  (∑ k : Fin 128, Cert.Spec.softplus ((∑ d : Fin 128, x0 (ix2 r d) * x1 (ix2 d k)) + x2 (ix2 (0 : Fin 1) k)) * x3 (ix2 k p))
    + x4 (ix2 (0 : Fin 1) p)

variable (m : (ℓ : Loc nD τ sig) → Buf (Elt Ideal) ℓ) (ρ : Dev nD → PrngReg)

/-- What is given on core c: the four arrays the host prepared as the region finds them, entry by entry, and the
    body's result on a block from its second layer on that block. -/
structure Given (c : Dev nD) : Prop where
  v1 : ∀ d k : Fin 128, (V (F := Ideal) m c main_v1 : S128x128.Idx → EReal) (ix2 d k)
      = (m ((c : Thread nD τ).loc main_arg1) : S128x128.Idx → EReal) (ix2 k d)
  v2 : ∀ k : Fin 128, (V (F := Ideal) m c main_v2 : S1x128.Idx → EReal) (ix2 (0 : Fin 1) k)
      = (m ((c : Thread nD τ).loc main_arg2) : S128.Idx → EReal) (ix1 k)
  v10 : ∀ (k : Fin 128) (i j : Fin 64), (V (F := Ideal) m c main_v10 : S128x4096.Idx → EReal) (ix2 k (col i j))
      = if h : j.val ≤ i.val then (m ((c : Thread nD τ).loc main_arg3) : S2080x128.Idx → EReal) (ix2 ⟨tpos i.val j.val, tpos_lt i j h⟩ k) else (0 : EReal)
  v17 : ∀ i j : Fin 64, (V (F := Ideal) m c main_v17 : S1x4096.Idx → EReal) (ix2 (0 : Fin 1) (col i j))
      = if h : j.val ≤ i.val then (m ((c : Thread nD τ).loc main_arg4) : S2080.Idx → EReal) (ix1 ⟨tpos i.val j.val, tpos_lt i j h⟩) else (0 : EReal)
  pay : ∀ (x0 : Vec Ideal S256x128 .f32) (x1 : Vec Ideal S128x128 .bf16) (x2 : Vec Ideal S1x128 .f32)
      (x3 : Vec Ideal S128x4096 .bf16) (x4 : Vec Ideal S1x4096 .f32) (r : Fin 256) (i j : Fin 64),
      out0_5 (F := Ideal) x0 x1 x2 x3 x4 (ix2 r (col i j))
        = (∑ k : Fin 64, lowRow x0 x1 x2 x3 x4 r (col i k) * lowRow x0 x1 x2 x3 x4 r (col j k))
          + Ideal.ofBits .f32 0x358637BD#32 * (if i = j then (1 : EReal) else 0)

/-! ## Where each window's block sits -/

/-- The printed index maps over the grid: windows 0 and 5 are at block row t, windows 1–4 at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 256 t … 256 t + 255 of x. -/
theorem iblk0_apply (c : Dev nD) (t : Fin cfg0.N) (y : S256x128.Idx) (k : S16384x128.Idx)
    (hk0 : (k 0).val = 256 * t.val + (y 0).val) (hk1 : (k 1).val = (y 1).val) :
    (iblk (F := Ideal) m c 0 t : Vec Ideal S256x128 .f32) y = (m ((c : Thread nD τ).loc main_arg0) : S16384x128.Idx → EReal) k := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 128 + 1 * (y 1).val = (k 1).val; rw [e1, hk1]; omega

/-- Window 1's block at every point is the whole transposed first-layer weight. -/
theorem iblk1_apply (c : Dev nD) (t : Fin cfg0.N) (y : S128x128.Idx) :
    (iblk (F := Ideal) m c 1 t : Vec Ideal S128x128 .bf16) y = (V (F := Ideal) m c main_v1 : S128x128.Idx → EReal) y := by
  obtain ⟨-, -, e0, e1, -⟩ := idx_facts t
  unfold iblk
  rw [View.read_apply]
  show V m c main_v1 _ = V m c main_v1 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2's block at every point is the whole first-layer bias row. -/
theorem iblk2_apply (c : Dev nD) (t : Fin cfg0.N) (y : S1x128.Idx) :
    (iblk (F := Ideal) m c 2 t : Vec Ideal S1x128 .f32) y = (V (F := Ideal) m c main_v2 : S1x128.Idx → EReal) y := by
  obtain ⟨-, -, -, -, e0, e1, -⟩ := idx_facts t
  unfold iblk
  rw [View.read_apply]
  show V m c main_v2 _ = V m c main_v2 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3's block at every point is the whole padded second-layer weight. -/
theorem iblk3_apply (c : Dev nD) (t : Fin cfg0.N) (y : S128x4096.Idx) :
    (iblk (F := Ideal) m c 3 t : Vec Ideal S128x4096 .bf16) y = (V (F := Ideal) m c main_v10 : S128x4096.Idx → EReal) y := by
  obtain ⟨-, -, -, -, -, -, e0, e1, -⟩ := idx_facts t
  unfold iblk
  rw [View.read_apply]
  show V m c main_v10 _ = V m c main_v10 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 4096 + 1 * (y 1).val = (y 1).val; rw [e1]; omega

/-- Window 4's block at every point is the whole padded second-layer bias row. -/
theorem iblk4_apply (c : Dev nD) (t : Fin cfg0.N) (y : S1x4096.Idx) :
    (iblk (F := Ideal) m c 4 t : Vec Ideal S1x4096 .f32) y = (V (F := Ideal) m c main_v17 : S1x4096.Idx → EReal) y := by
  obtain ⟨-, -, -, -, -, -, -, -, e0, e1, -⟩ := idx_facts t
  unfold iblk
  rw [View.read_apply]
  show V m c main_v17 _ = V m c main_v17 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

end Cert.KernelIdeal.KValue

end
-- ==== Proof.KValue.lean ====
/-
  From the blocks the kernel writes to its result array.

  Given what the region finds in the four arrays the host prepared and what the body computes from its blocks
  (the hypothesis Given of the module on the windows), the block written at point t is rows 256 t … 256 t + 255 of
  ONE array, the specification's result laid out flat (row b, column 64 i + j holds out(b, i, j)).  Every row lies in
  block ⌊row / 256⌋, so after the run the region's output array is that flat layout.  The reshape
  [16384, 4096] → [16384, 64, 64] after the region keeps row-major positions, b·4096 + (64 i + j) = (b·64 + i)·64 + j,
  so the program's result at (b, i, j) is out(b, i, j).
-/
import proofs.«162534_j14963666059944_2_alg».proof.Proof.KValueWin

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx Cert.Tril
open Idealize.ShloMosaic.Pipeline (Dat)

/-! ## One block of the output, over any blocks of the inputs -/

/-- If x0 is rows 256 t … of x, x1 the transposed first-layer weights, x2 the bias row, x3 and x4 the padded
    second-layer weights and bias, and the body's result is formed from its second layer as the payload says, then
    the body's result at block entry y is the flat layout of the specification's result at row 256 t + y₀, column y₁. -/
theorem block_out (x : FVec Ideal ⟨2, ![16384, 128]⟩ .f32) (W1 : FVec Ideal ⟨2, ![128, 128]⟩ .f32) (b1 : FVec Ideal ⟨1, ![128]⟩ .f32)
    (W2 : FVec Ideal ⟨2, ![2080, 128]⟩ .f32) (b2 : FVec Ideal ⟨1, ![2080]⟩ .f32)
    (x0 : Vec Ideal S256x128 .f32) (x1 : Vec Ideal S128x128 .bf16) (x2 : Vec Ideal S1x128 .f32)
    (x3 : Vec Ideal S128x4096 .bf16) (x4 : Vec Ideal S1x4096 .f32) (t : Nat)
    (h0 : ∀ (r : Fin 256) (d : Fin 128) (k : S16384x128.Idx), (k 0).val = 256 * t + r.val → (k 1).val = d.val → x0 (ix2 r d) = x k)
    (h1 : ∀ d k : Fin 128, x1 (ix2 d k) = W1 (ix2 k d))
    (h2 : ∀ k : Fin 128, x2 (ix2 (0 : Fin 1) k) = b1 (ix1 k))
    (h3 : ∀ (k : Fin 128) (i j : Fin 64), x3 (ix2 k (col i j)) = if h : j.val ≤ i.val then W2 (ix2 ⟨tpos i.val j.val, tpos_lt i j h⟩ k) else 0)
    (h4 : ∀ i j : Fin 64, x4 (ix2 (0 : Fin 1) (col i j)) = if h : j.val ≤ i.val then b2 (ix1 ⟨tpos i.val j.val, tpos_lt i j h⟩) else 0)
    (hpay : ∀ (r : Fin 256) (i j : Fin 64), out0_5 (F := Ideal) x0 x1 x2 x3 x4 (ix2 r (col i j))
        = (∑ k : Fin 64, lowRow x0 x1 x2 x3 x4 r (col i k) * lowRow x0 x1 x2 x3 x4 r (col j k))
          + Ideal.ofBits .f32 0x358637BD#32 * (if i = j then (1 : EReal) else 0))
    (y : S256x4096.Idx) (q : S16384x4096.Idx) (hq0 : (q 0).val = 256 * t + (y 0).val) (hq1 : (q 1).val = (y 1).val) :
    out0_5 (F := Ideal) x0 x1 x2 x3 x4 y = Gflat x W1 b1 W2 b2 q := by
  obtain ⟨r, p, rfl⟩ : ∃ (r : Fin 256) (p : Fin 4096), y = ix2 r p := ⟨y 0, y 1, eq_ix2 y⟩
  obtain ⟨b, p', rfl⟩ : ∃ (b : Fin 16384) (p' : Fin 4096), q = ix2 b p' := ⟨q 0, q 1, eq_ix2 q⟩
  obtain rfl : p' = p := Fin.ext hq1
  exact outBlock_eq x W1 b1 W2 b2 x0 x1 x2 x3 x4 b r (fun d => h0 r d (ix2 b d) hq0 rfl) h1 h2 h3 h4
    (fun p => lowRow x0 x1 x2 x3 x4 r p) (fun p => rfl) (fun p => out0_5 (F := Ideal) x0 x1 x2 x3 x4 (ix2 r p))
    (fun i j => hpay r i j) p'

variable (m : (ℓ : Loc nD τ sig) → Buf (Elt Ideal) ℓ) (ρ : Dev nD → PrngReg)

/-- The region's output array after the run, from the program's arguments. -/
abbrev GflatOf (c : Dev nD) : S16384x4096.Idx → EReal :=
  Gflat (m ((c : Thread nD τ).loc main_arg0)) (m ((c : Thread nD τ).loc main_arg1)) (m ((c : Thread nD τ).loc main_arg2))
    (m ((c : Thread nD τ).loc main_arg3)) (m ((c : Thread nD τ).loc main_arg4))

/-! ## What a point writes back -/

/-- WHAT POINT t WRITES BACK is rows 256 t … 256 t + 255 of the flat layout of the specification's result. -/
theorem flushed_eq (c : Dev nD) (hg : Given m c) (t : Fin cfg0.N) :
    (dats m 0 c).flushed 5 t = ((cfg0.win 5).blk t).view.read (Elt Ideal) (GflatOf m c) := by
  show (cfg0.win 5).cut (grid0.coords t) ((dats m 0 c).after 5 t) = _
  rw [after0_5]
  obtain ⟨-, -, -, -, -, -, -, -, -, -, e0, e1⟩ := idx_facts t
  funext y
  show out0_5 (F := Ideal) (iblk m c 0 t) (iblk m c 1 t) (iblk m c 2 t) (iblk m c 3 t) (iblk m c 4 t) (win0_5.xinj (grid0.coords t) y)
    = GflatOf m c (((cfg0.win 5).blk t).view.emb y)
  refine block_out (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) t.val
    (fun r d k hk0 hk1 => iblk0_apply m c t (ix2 r d) k hk0 hk1)
    (fun d k => (iblk1_apply m c t (ix2 d k)).trans (hg.v1 d k))
    (fun k => (iblk2_apply m c t (ix2 (0 : Fin 1) k)).trans (hg.v2 k))
    (fun k i j => (iblk3_apply m c t (ix2 k (col i j))).trans (hg.v10 k i j))
    (fun i j => (iblk4_apply m c t (ix2 (0 : Fin 1) (col i j))).trans (hg.v17 i j))
    (fun r i j => hg.pay (iblk m c 0 t) (iblk m c 1 t) (iblk m c 2 t) (iblk m c 3 t) (iblk m c 4 t) r i j)
    (win0_5.xinj (grid0.coords t) y) (((cfg0.win 5).blk t).view.emb y) ?_ ?_
  · show win0_5.index t (0 : Fin 2) * 256 + 1 * (y 0).val = 256 * t.val + (y 0).val
    rw [e0]; omega
  · show win0_5.index t (1 : Fin 2) * 4096 + 1 * (y 1).val = (y 1).val
    rw [e1]; omega

/-! ## The cover, and the array after the run -/

/-- An index of the output array is in point t's block iff each coordinate is in the block's range on its axis. -/
theorem mem_blk5 (t : Fin cfg0.N) (i : S16384x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v18).slice (win0_5.rect t)).set ↔ _
  rw [View.set_slice_whole, Rect.mem_set_unit]
  exact Iff.rfl

/-- Every index of the output array is in a block that is written back: row b is in the block of point ⌊b / 256⌋. -/
theorem cover5 (i : S16384x4096.Idx) :
    ∃ t : Fin cfg0.N, (cfg0.win 5).flush t = true ∧ i ∈ ((cfg0.win 5).blk t).view.set := by
  have hi0 : (i 0).val < 16384 := idx2_lt0 i
  have hi1 : (i 1).val < 4096 := idx2_lt1 i
  have hN : cfg0.N = 64 := N_0
  have ht : (i 0).val / 256 < cfg0.N := by rw [hN]; omega
  obtain ⟨-, -, -, -, -, -, -, -, -, -, e0, e1⟩ := idx_facts ⟨(i 0).val / 256, ht⟩
  refine ⟨⟨(i 0).val / 256, ht⟩, flush0_5 _, ?_⟩
  rw [mem_blk5]
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 4096 ≤ (i 1).val
      ∧ (i 1).val < win0_5.index ⟨(i 0).val / 256, ht⟩ (1 : Fin 2) * 4096 + 4096
    rw [e1]; omega

/-- THE REGION'S OUTPUT ARRAY after the run is the flat layout of the specification's result. -/
theorem final (c : Dev nD) (hg : Given m c) : (dats m 0 c).arrAt 5 cfg0.N = GflatOf m c :=
  (dats m 0 c).arrAt_eq_of_cover 5 (GflatOf m c) (fun t _ => flushed_eq m c hg t) cover5

/-! ## The reshape after the region -/

/-- The program's result: the reshape [16384, 4096] → [16384, 64, 64] of the region's output array is the
    specification's result. -/
theorem tail_eq (c : Dev nD) (hg : Given m c) :
    Pipeline.afterTail₀ cfgs (dats m) 0 (V0 m) [hostOps1] c main_v19
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v19) = _
  after_results
  funext q
  show shapeCast S16384x64x64 (Pipeline.withArrays spec0 c (V0 m c) (fun w => (dats m 0 c).arrAt w cfg0.N)
    (Proc.devRef .tc (Pipeline.arrRef spec0 5))) _ q = _
  rw [Pipeline.withArrays_arr spec0 launch0.win.arr_inj c _ _ 5, final m c hg]
  obtain ⟨b, i, j, rfl⟩ : ∃ (b : Fin 16384) (i j : Fin 64), q = ix3 b i j := ⟨q 0, q 1, q 2, eq_ix3 q⟩
  rw [shapeCast_apply _ _ _ (ix2 b (col i j)) (by
    rw [Shape.rowMajor_val_two, Shape.rowMajor_val_three]
    show b.val * 4096 + (64 * i.val + j.val) = (b.val * 64 + i.val) * 64 + j.val
    omega)]
  exact Gflat_col _ _ _ _ _ b i j

/-! ## The run -/

/-- At the compiled mesh, from any memory with zero counters: the program runs, its result is the specification's
    function of its arguments, and its arguments end unchanged. -/
theorem run_of (hg : ∀ c : Dev nD, Given m c) :
    θ_run (defs (F := Ideal)) (onTc (τ := τ) (main (F := Ideal))) ⟨m, fun _ => 0, ρ⟩ (fun r => ∀ c : Dev nD,
      r.2.mem ((c.tc : Thread nD τ).loc main_v19)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v19 (Pipeline.mem_restRefs_of main_v19 (by decide) (by decide))).trans (tail_eq m c (hg c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.LibScatterSet.lean ====
/-
  A scatter whose body returns the update (`x.at[idx].set(u)`), read at an index.

  The host scatter applies the updates one after another in row-major order of the update index: update `j` lands on
  the operand index `resultIdx? j` (start index read signed, not clamped, plus the window coordinate) when that is inside
  the operand, and is dropped when it is not. When at most one update lands on an index `i`, the order does not
  matter there: the result at `i` is that update, and where no update lands it is the operand.

  Three instances: a flat operand [N] with indices [E,1] and updates [E]; a matrix [N,C] with indices [E,1] and row
  updates [E,C]; and a rank-3 operand [B,N1,N2] with index pairs [E,2] addressing the last two axes and updates [B,E]
  (what `x.at[:, r, c].set(u)` with index vectors r, c lowers to).
-/
import Idealize.ShloMosaic.PureOps.Ideal
import Idealize.ShloMosaic.Lib.ValueIdx
import proofs.«162534_j14963666059944_2_alg».proof.Proof.LibScatterGather

noncomputable section

namespace Cert.Lib.ScatterSet

open Idealize.ShloMosaic Idealize.ShloMosaic.ValueIdx Cert.Lib.ScatterGather

/-! ## The fold -/

section Fold
variable {N ι α : Type} [DecidableEq ι]

/-- Where no update of the list lands on `i`, the fold leaves the operand's value at `i`. The step function is
    described by what it does when the update lands somewhere (`hs`) and when it is dropped (`hn`). -/
theorem foldl_miss (g : N → Option ι) (f : α → α → α) (v : N → α) (step : (ι → α) → N → (ι → α))
    (hs : ∀ r n i₀, g n = some i₀ → step r n = fun i' => if i' = i₀ then f (r i₀) (v n) else r i')
    (hn : ∀ r n, g n = none → step r n = r) (i : ι) :
    ∀ (l : List N) (x : ι → α), (∀ n ∈ l, g n ≠ some i) → (l.foldl step x) i = x i := by
  intro l
  induction l with
  | nil => intro x _; rfl
  | cons a t ih =>
    intro x h
    rw [List.foldl_cons, ih _ (fun n hn' => h n (List.mem_cons_of_mem _ hn'))]
    have ha := h a List.mem_cons_self
    cases hg : g a with
    | none => rw [hn _ _ hg]
    | some i₀ =>
      have hne : i ≠ i₀ := fun e => ha (by rw [hg, e])
      rw [hs _ _ _ hg]
      exact if_neg hne

/-- Where exactly one update `n₀` of a duplicate-free list lands on `i` and the body returns the update, the fold
    leaves that update at `i`. -/
theorem foldl_set_hit (g : N → Option ι) (v : N → α) (step : (ι → α) → N → (ι → α))
    (hs : ∀ r n i₀, g n = some i₀ → step r n = fun i' => if i' = i₀ then v n else r i')
    (hn : ∀ r n, g n = none → step r n = r) (i : ι) (n₀ : N) (h₀ : g n₀ = some i) :
    ∀ (l : List N) (x : ι → α), l.Nodup → n₀ ∈ l → (∀ n ∈ l, g n = some i → n = n₀) → (l.foldl step x) i = v n₀ := by
  intro l
  induction l with
  | nil => intro x _ hm; exact absurd hm List.not_mem_nil
  | cons a t ih =>
    intro x hnd hm hu
    rw [List.foldl_cons]
    by_cases ha : a = n₀
    · subst ha
      have hnot : a ∉ t := (List.nodup_cons.mp hnd).1
      rw [foldl_miss g (fun _ b => b) v step hs hn i t _
        (fun n hn' e => hnot (hu n (List.mem_cons_of_mem _ hn') e ▸ hn')), hs _ _ _ h₀]
      exact if_pos rfl
    · have hm' : n₀ ∈ t := by
        rcases List.mem_cons.mp hm with e | e
        · exact absurd e.symm ha
        · exact e
      exact ih _ (List.nodup_cons.mp hnd).2 hm' (fun n hn' => hu n (List.mem_cons_of_mem _ hn'))

end Fold

/-! ## The scatter -/

section Scatter
variable {s si u : Shape} {w : Nat} {α : Type}

/-- No update lands on `i`: the scatter leaves the operand there. -/
theorem scatter_miss (d : ScatterDims s si u) (f : α → α → α) (x : s.Idx → α) (idx : IVec si w) (upd : u.Idx → α) (i : s.Idx)
    (h : ∀ j, d.resultIdx? j idx ≠ some i) : Host.scatter d f x idx upd i = x i := by
  unfold Host.scatter
  refine foldl_miss (fun n => d.resultIdx? (u.rowMajor.symm n) idx) f (fun n => upd (u.rowMajor.symm n)) _ ?_ ?_ i _ x
    (fun n _ => h _)
  · intro r n i₀ hg; simp only [hg]
  · intro r n hg; simp only [hg]

/-- Exactly one update `j₀` lands on `i`: the update-returning scatter leaves it there. -/
theorem scatter_set_hit (d : ScatterDims s si u) (x : s.Idx → α) (idx : IVec si w) (upd : u.Idx → α) (i : s.Idx) (j₀ : u.Idx)
    (h₀ : d.resultIdx? j₀ idx = some i) (hu : ∀ j, d.resultIdx? j idx = some i → j = j₀) :
    Host.scatter d (fun _ b => b) x idx upd i = upd j₀ := by
  unfold Host.scatter
  have key := foldl_set_hit (fun n => d.resultIdx? (u.rowMajor.symm n) idx) (fun n => upd (u.rowMajor.symm n))
    (fun r n => match d.resultIdx? (u.rowMajor.symm n) idx with
      | some i => fun i' => if i' = i then (fun _ b => b) (r i) (upd (u.rowMajor.symm n)) else r i'
      | none => r)
    (by intro r n i₀ hg; simp only [hg]) (by intro r n hg; simp only [hg]) i (u.rowMajor j₀)
    (by rw [Equiv.symm_apply_apply]; exact h₀) (List.finRange u.numel) x (List.nodup_finRange _) (List.mem_finRange _)
    (fun n _ hg => by rw [← hu _ hg, Equiv.apply_symm_apply])
  rw [Equiv.symm_apply_apply] at key
  exact key

end Scatter

/-! ## A flat operand and a matrix of rows -/

section Instances
variable {α : Type}

/-- The flat scatter at `n` when update `e` is the one whose index word is `n`. -/
theorem set1_hit {N E w : Nat} (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α) (n : Fin N) (e : Fin E)
    (he : (idx (ix2 e (0 : Fin 1))).toInt = (n.val : Int))
    (hu : ∀ e' : Fin E, (idx (ix2 e' (0 : Fin 1))).toInt = (n.val : Int) → e' = e) :
    Host.scatter (scat1Dims N E wf) (fun _ b => b) x idx upd (ix1 n) = upd (ix1 e) := by
  refine scatter_set_hit _ x idx upd (ix1 n) (ix1 e) ((scat1_resultIdx?_eq_some_iff wf idx e n).2 he) (fun j hj => ?_)
  rw [eq_ix1 j] at hj
  exact (eq_ix1 j).trans (congrArg ix1 (hu _ ((scat1_resultIdx?_eq_some_iff wf idx _ n).1 hj)))

/-- The flat scatter at `n` when no update's index word is `n`. -/
theorem set1_miss {N E w : Nat} (wf : ScatterDims.WF ⟨1, ![N]⟩ ⟨2, ![E, 1]⟩ ⟨1, ![E]⟩ [] [0] [0] 1) (f : α → α → α)
    (x : (⟨1, ![N]⟩ : Shape).Idx → α) (idx : IVec ⟨2, ![E, 1]⟩ w) (upd : (⟨1, ![E]⟩ : Shape).Idx → α) (n : Fin N)
    (hu : ∀ e' : Fin E, (idx (ix2 e' (0 : Fin 1))).toInt ≠ (n.val : Int)) :
    Host.scatter (scat1Dims N E wf) f x idx upd (ix1 n) = x (ix1 n) := by
  refine scatter_miss _ f x idx upd (ix1 n) (fun j hj => ?_)
  rw [eq_ix1 j] at hj
  exact hu _ ((scat1_resultIdx?_eq_some_iff wf idx _ n).1 hj)

/-- The row scatter at `(n, g)` when update row `e` is the one whose index word is `n`. -/
theorem setRows_hit {N C E w : Nat} (wf : ScatterDims.WF ⟨2, ![N, C]⟩ ⟨2, ![E, 1]⟩ ⟨2, ![E, C]⟩ [1] [0] [0] 1)
    (x : (⟨2, ![N, C]⟩ : Shape).Idx → α) (idx : IVec ⟨2, ![E, 1]⟩ w) (upd : (⟨2, ![E, C]⟩ : Shape).Idx → α)
    (n : Fin N) (g : Fin C) (e : Fin E) (he : (idx (ix2 e (0 : Fin 1))).toInt = (n.val : Int))
    (hu : ∀ e' : Fin E, (idx (ix2 e' (0 : Fin 1))).toInt = (n.val : Int) → e' = e) :
    Host.scatter (scatRowsDims N C E wf) (fun _ b => b) x idx upd (ix2 n g) = upd (ix2 e g) := by
  refine scatter_set_hit _ x idx upd (ix2 n g) (ix2 e g) ((scatRows_resultIdx?_eq_some_iff wf idx e g n g).2 ⟨he, rfl⟩)
    (fun j hj => ?_)
  rw [eq_ix2 j] at hj
  obtain ⟨h1, h2⟩ := (scatRows_resultIdx?_eq_some_iff wf idx _ _ n g).1 hj
  have h3 := hu _ h1
  subst h2 h3
  exact eq_ix2 j

/-- The row scatter at `(n, g)` when no update's index word is `n`. -/
theorem setRows_miss {N C E w : Nat} (wf : ScatterDims.WF ⟨2, ![N, C]⟩ ⟨2, ![E, 1]⟩ ⟨2, ![E, C]⟩ [1] [0] [0] 1) (f : α → α → α)
    (x : (⟨2, ![N, C]⟩ : Shape).Idx → α) (idx : IVec ⟨2, ![E, 1]⟩ w) (upd : (⟨2, ![E, C]⟩ : Shape).Idx → α)
    (n : Fin N) (g : Fin C) (hu : ∀ e' : Fin E, (idx (ix2 e' (0 : Fin 1))).toInt ≠ (n.val : Int)) :
    Host.scatter (scatRowsDims N C E wf) f x idx upd (ix2 n g) = x (ix2 n g) := by
  refine scatter_miss _ f x idx upd (ix2 n g) (fun j hj => ?_)
  rw [eq_ix2 j] at hj
  exact hu _ ((scatRows_resultIdx?_eq_some_iff wf idx _ _ n g).1 hj).1

end Instances

end Cert.Lib.ScatterSet

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KHost.lean ====
/-
  What the kernel's host-side preparation leaves in the arrays the region reads, index by index.

  Before the region the program transposes W1, views b1 as one row, and builds a zero-padded second-layer weight
  W2L : [4096, 128] and bias b2L : [4096] by writing row `n` of W2 (entry `n` of b2) at the flat address
  64·row + column of the n-th lower-triangular position of a 64 × 64 matrix; the region then reads W2Lᵀ and b2L as one row.
  The flat addresses are a table of 2080 literal words; entry `n` is `tflat n`. Distinct positions have distinct
  addresses, so each address receives at most one row, and the address 64·i + j receives one exactly when j ≤ i.
-/
import proofs.«162534_j14963666059944_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws
import proofs.«162534_j14963666059944_2_alg».proof.Proof.TrilIndex
import proofs.«162534_j14963666059944_2_alg».proof.Proof.LibScatterSet
import proofs.«162534_j14963666059944_2_alg».proof.Proof.LibMatmul

noncomputable section

namespace Cert.KernelIdeal.KHost

open Idealize.ShloMosaic Idealize.ShloMosaic.TcCoe Idealize.SL.Sem Idealize.ShloMosaic.ValueIdx
open Cert.KernelIdeal Cert.Tril

/-- The flat address of entry (i, j) of a 64 × 64 matrix. -/
abbrev flat64 (i j : Fin 64) : Fin 4096 := ⟨64 * i.val + j.val, by have := i.isLt; have := j.isLt; omega⟩

/-- Entry `n` of the literal address table, read as a signed integer, is the flat address of position `n`. -/
theorem lit_toInt : ∀ e : Fin 2080, (lit0t e.val).toInt = (tflat e.val : Int) := by decide +kernel

/-- A vector [a] viewed as one row [1, a], read at an index. -/
theorem row_view_apply {α : Type} {a : Nat} (x : (⟨1, ![a]⟩ : Shape).Idx → α) (h : (⟨1, ![a]⟩ : Shape).ShapeCasts ⟨2, ![1, a]⟩)
    (u : Fin 1) (p : Fin a) : shapeCast ⟨2, ![1, a]⟩ x h (ix2 u p) = x (ix1 p) :=
  shapeCast_apply x h _ _ (by
    have hu : u.val = 0 := by omega
    rw [Shape.rowMajor_val_two, Shape.rowMajor_val_one]
    show p.val = u.val * a + p.val
    rw [hu]; omega)

/-- The index column the two scatters read: entry `(e, 0)` is entry `e` of the literal table. -/
def idxCol : IVec S2080x1 32 :=
  broadcastInDim S2080x1 ![0] Gen.bcast_S2080_S2080x1_0
    (select (constantI S2080 1 0#1)
      (addi (fun i => lit0 (S2080.rowMajor i)) (broadcastInDim S2080 ![] Gen.bcast_S_S2080 (constantI S_ 32 4096#32)))
      fun i => lit0 (S2080.rowMajor i))

theorem idxCol_toInt (e : Fin 2080) : (idxCol (ix2 e (0 : Fin 1))).toInt = (tflat e.val : Int) := by
  unfold idxCol
  rw [broadcastInDim_apply _ _ _ (ix2 e (0 : Fin 1)) (ix1 e) (fun a => by
    match a with
    | ⟨0, _⟩ => rfl)]
  rw [select_apply]
  show (Scalar.select 0#1 _ (lit0 (S2080.rowMajor (ix1 e)))).toInt = _
  rw [select_zero]
  have hv : (S2080.rowMajor (ix1 e)).val = e.val := Shape.rowMajor_val_one _
  have : lit0 (S2080.rowMajor (ix1 e)) = lit0t e.val := by
    show lit0t (S2080.rowMajor (ix1 e)).val = _
    rw [hv]
  rw [this]
  exact lit_toInt e

/-- The address 64·i + j receives position `tpos i j` when j ≤ i … -/
theorem idxCol_hit (i j : Fin 64) (h : j.val ≤ i.val) :
    (idxCol (ix2 (⟨tpos i.val j.val, tpos_lt i j h⟩ : Fin 2080) (0 : Fin 1))).toInt = ((flat64 i j).val : Int) := by
  rw [idxCol_toInt]
  have := (tflat_eq_iff ⟨tpos i.val j.val, tpos_lt i j h⟩ i j).2 ⟨h, rfl⟩
  show (tflat (tpos i.val j.val) : Int) = ((64 * i.val + j.val : Nat) : Int)
  exact_mod_cast this

/-- … from that position only … -/
theorem idxCol_unique (i j : Fin 64) (h : j.val ≤ i.val) (e' : Fin 2080)
    (he : (idxCol (ix2 e' (0 : Fin 1))).toInt = ((flat64 i j).val : Int)) : e' = ⟨tpos i.val j.val, tpos_lt i j h⟩ := by
  rw [idxCol_toInt] at he
  have he' : tflat e'.val = 64 * i.val + j.val := by exact_mod_cast he
  exact Fin.ext ((tflat_eq_iff e' i j).1 he').2

/-- … and nothing when i < j. -/
theorem idxCol_miss (i j : Fin 64) (h : ¬ j.val ≤ i.val) (e' : Fin 2080) :
    (idxCol (ix2 e' (0 : Fin 1))).toInt ≠ ((flat64 i j).val : Int) := by
  intro he
  rw [idxCol_toInt] at he
  have he' : tflat e'.val = 64 * i.val + j.val := by exact_mod_cast he
  exact h ((tflat_eq_iff e' i j).1 he').1

section Values
variable (m : (ℓ : Loc nD τ sig) → Buf (Elt Ideal) ℓ) (c : Dev nD)

/-- The transposed first-layer weight as the region finds it. -/
theorem V_v1 (d k : Fin 128) :
    (Gen.V (F := Ideal) m c main_v1 : S128x128.Idx → EReal) (ix2 d k) = (m ((c : Thread nD τ).loc main_arg1) : S128x128.Idx → EReal) (ix2 k d) := by
  have e : @Eq (S128x128.Idx → EReal) (Gen.V (F := Ideal) m c main_v1)
      (truncf (F := Ideal) .bf16 (transpose S128x128 [1, 0] (m (c, Proc.tc.devRef main_arg1) : S128x128.Idx → EReal) Gen.transposes_S128x128_S128x128_1_0) Gen.bitsLt_bf16_f32) := by
    show StableHlo.after Gen.hostOps0 (fun b => m (c, b)) (Proc.devRef .tc main_v1) = _
    after_results
  rw [e, truncf_apply]
  exact Cert.MatOps.transpose10_apply _ _ d k

/-- The first-layer bias as one row. -/
theorem V_v2 (k : Fin 128) :
    (Gen.V (F := Ideal) m c main_v2 : S1x128.Idx → EReal) (ix2 (0 : Fin 1) k) = (m ((c : Thread nD τ).loc main_arg2) : S128.Idx → EReal) (ix1 k) := by
  have e : @Eq (S1x128.Idx → EReal) (Gen.V (F := Ideal) m c main_v2)
      (shapeCast S1x128 (m (c, Proc.tc.devRef main_arg2) : S128.Idx → EReal) Gen.shapeCasts_S128_S1x128) := by
    show StableHlo.after Gen.hostOps0 (fun b => m (c, b)) (Proc.devRef .tc main_v2) = _
    after_results
    rfl
  rw [e]
  exact row_view_apply _ _ _ k

/-- The padded, transposed second-layer weight: column 64·i + j is row `tpos i j` of W2 when j ≤ i, and zero otherwise. -/
theorem V_v10 (k : Fin 128) (i j : Fin 64) :
    (Gen.V (F := Ideal) m c main_v10 : S128x4096.Idx → EReal) (ix2 k (flat64 i j))
      = (if h : j.val ≤ i.val then (m ((c : Thread nD τ).loc main_arg3) : S2080x128.Idx → EReal) (ix2 ⟨tpos i.val j.val, tpos_lt i j h⟩ k) else 0 : EReal) := by
  have e : @Eq (S128x4096.Idx → EReal) (Gen.V (F := Ideal) m c main_v10)
      (truncf (F := Ideal) .bf16 (transpose S128x4096 [1, 0]
          (Host.scatter scatter_S4096x128_S2080x1_S2080x128_1_0_0_1 (fun _ b => b)
            (broadcastInDim S4096x128 ![] Gen.bcast_S_S4096x128 (constant (F := Ideal) S_ .f32 0x00000000#32))
            idxCol (m (c, Proc.tc.devRef main_arg3) : S2080x128.Idx → EReal))
          Gen.transposes_S4096x128_S128x4096_1_0) Gen.bitsLt_bf16_f32) := by
    show StableHlo.after Gen.hostOps0 (fun b => m (c, b)) (Proc.devRef .tc main_v10) = _
    after_results
    rfl
  rw [e, truncf_apply, Cert.MatOps.transpose10_apply]
  by_cases h : j.val ≤ i.val
  · rw [dif_pos h]
    exact Cert.Lib.ScatterSet.setRows_hit (N := 4096) (C := 128) (E := 2080) _ _ idxCol _ (flat64 i j) k
      ⟨tpos i.val j.val, tpos_lt i j h⟩ (idxCol_hit i j h) (fun e' he => idxCol_unique i j h e' he)
  · rw [dif_neg h]
    refine (Cert.Lib.ScatterSet.setRows_miss (N := 4096) (C := 128) (E := 2080) _ _ _ idxCol _ (flat64 i j) k
      (idxCol_miss i j h)).trans ?_
    rw [broadcastInDim_apply _ _ _ _ ix0 (fun a => a.elim0), constant_apply]
    exact Ideal.ofBits_zero_f32

/-- The padded second-layer bias as one row: entry 64·i + j is entry `tpos i j` of b2 when j ≤ i, and zero otherwise. -/
theorem V_v17 (i j : Fin 64) :
    (Gen.V (F := Ideal) m c main_v17 : S1x4096.Idx → EReal) (ix2 (0 : Fin 1) (flat64 i j))
      = (if h : j.val ≤ i.val then (m ((c : Thread nD τ).loc main_arg4) : S2080.Idx → EReal) (ix1 ⟨tpos i.val j.val, tpos_lt i j h⟩) else 0 : EReal) := by
  have e : @Eq (S1x4096.Idx → EReal) (Gen.V (F := Ideal) m c main_v17)
      (shapeCast S1x4096
          (Host.scatter scatter_S4096_S2080x1_S2080_n_0_0_1 (fun _ b => b)
            (broadcastInDim S4096 ![] Gen.bcast_S_S4096 (constant (F := Ideal) S_ .f32 0x00000000#32))
            idxCol (m (c, Proc.tc.devRef main_arg4) : S2080.Idx → EReal))
          Gen.shapeCasts_S4096_S1x4096) := by
    show StableHlo.after Gen.hostOps0 (fun b => m (c, b)) (Proc.devRef .tc main_v17) = _
    after_results
    rfl
  rw [e, row_view_apply]
  by_cases h : j.val ≤ i.val
  · rw [dif_pos h]
    exact Cert.Lib.ScatterSet.set1_hit (N := 4096) (E := 2080) _ _ idxCol _ (flat64 i j)
      ⟨tpos i.val j.val, tpos_lt i j h⟩ (idxCol_hit i j h) (fun e' he => idxCol_unique i j h e' he)
  · rw [dif_neg h]
    refine (Cert.Lib.ScatterSet.set1_miss (N := 4096) (E := 2080) _ _ _ idxCol _ (flat64 i j) (idxCol_miss i j h)).trans ?_
    rw [broadcastInDim_apply _ _ _ _ ix0 (fun a => a.elim0), constant_apply]
    exact Ideal.ofBits_zero_f32

end Values

end Cert.KernelIdeal.KHost

end
-- ==== Proof.LibOneHot.lean ====
/-
  One-hot selection on the extended reals.

  A row of a one-hot matrix is `1` at one column and `0` elsewhere, and on the extended reals `0 * x = 0`
  for EVERY `x` (also for the infinities) and `x + 0 = x`. So the product of a one-hot row with a column is
  the selected entry, with no finiteness hypothesis; the product of an all-zero row is `0`; and the product of
  a one-hot COLUMN pattern with a column is the sum of the entries the pattern selects. A 0/1 word converted to
  a float is such a `0` or `1`.
-/
import Idealize.ShloMosaic.PureOps.Ideal
import Idealize.ShloMosaic.PureOps.Vector

noncomputable section

namespace Cert.Lib.OneHot

open Idealize.ShloMosaic

/-- A one-hot row against a column: the selected entry. -/
theorem sum_ite_eq_mul {ι : Type} [Fintype ι] [DecidableEq ι] (a : ι) (x : ι → EReal) :
    ∑ k, (if a = k then (1 : EReal) else 0) * x k = x a := by
  simp only [ite_mul, one_mul, zero_mul, Finset.sum_ite_eq, Finset.mem_univ, if_true]

/-- A row that matches no column, against any column: zero. -/
theorem sum_ite_false_mul {ι : Type} [Fintype ι] (p : ι → Prop) [DecidablePred p] (x : ι → EReal)
    (h : ∀ k, ¬ p k) : ∑ k, (if p k then (1 : EReal) else 0) * x k = 0 := by
  refine Finset.sum_eq_zero fun k _ => ?_
  rw [if_neg (h k), zero_mul]

/-- A 0/1 pattern against a column: the sum of the selected entries. -/
theorem sum_ite_mul_eq_sum_filter {ι : Type} [Fintype ι] (p : ι → Prop) [DecidablePred p] (x : ι → EReal) :
    ∑ e, (if p e then (1 : EReal) else 0) * x e = ∑ e ∈ Finset.univ.filter p, x e := by
  rw [Finset.sum_filter]
  refine Finset.sum_congr rfl fun e _ => ?_
  by_cases h : p e
  · rw [if_pos h, if_pos h, one_mul]
  · rw [if_neg h, if_neg h, zero_mul]

/-- The one-bit word of a comparison, zero-extended to 32 bits and read as a signed integer, as an extended
    real: `1` when the bit is set, else `0`. -/
theorem sitofp_extui_bit (b : BitVec 1) :
    (((BitVec.zeroExtend 32 b).toInt : ℝ) : EReal) = if b = 1#1 then (1 : EReal) else 0 := by
  rcases BitVec.eq_zero_or_eq_one b with h | h <;> subst h <;> simp <;> decide

end Cert.Lib.OneHot

end
-- ==== Proof.KPayOps.lean ====
/-
  The operations of the kernel's body that are not pointwise, each read at explicit coordinates on the extended reals.

  A [256, 4096] row-major array and its view as 256 matrices of 64 × 64 hold the same numbers: entry (r, i, j) of the
  view is column 64 i + j of row r. A [1, n] row broadcast over 256 rows reads the row; one 64 × 64 matrix broadcast
  over 256 samples reads the matrix. The batched product contracts the LAST axis of both operands, sample by sample:
  at (r, i, j) it is Σ_k l(r, i, k) · q(r, j, k), a matrix times the transpose of a matrix.
  The activation is softplus in its stable arrangement max z 0 + log1p (exp (−|z|)); the guard in front of it compares
  a number with itself for "different", which never holds on the extended reals, so the guarded branch is never taken.
  The diagonal term is ε · [i = j]: the comparison of the row number with the column number, widened and read as a
  number, is 1 on the diagonal and 0 off it.
-/
import proofs.«162534_j14963666059944_2_alg».proof.Proof.Gen.KernelIdeal.Skeleton
import proofs.«162534_j14963666059944_2_alg».proof.Proof.Spec
import proofs.«162534_j14963666059944_2_alg».proof.Proof.LibOneHot
import Idealize.ShloMosaic.Lib.ValueLayout
import Idealize.ShloMosaic.Lib.Pipeline.Value
import Idealize.ShloMosaic.PureOps.Ideal.Laws

open scoped BigOperators
noncomputable section
namespace Cert.KernelIdeal.KPay
open Idealize.ShloMosaic Idealize.ShloMosaic.ValueIdx Cert.KernelIdeal Cert.KernelIdeal.Gen

/-- The flat column of entry (i, j) of a 64 × 64 matrix stored row by row. -/
abbrev flat (i j : Fin 64) : Fin 4096 := ⟨64 * i.val + j.val, by omega⟩

/-! ## Layout operations at explicit coordinates -/

/-- A [256, 4096] array viewed as [256, 64, 64]: entry (r, i, j) is column 64 i + j of row r. -/
theorem cast23_apply {α : Type} (v : S256x4096.Idx → α) (h : S256x4096.ShapeCasts S256x64x64) (r : Fin 256) (i j : Fin 64) :
    shapeCast S256x64x64 v h (ix3 r i j) = v (ix2 r (flat i j)) :=
  shapeCast_apply v h _ _ (by
    rw [Shape.rowMajor_val_three, Shape.rowMajor_val_two]
    show r.val * 4096 + (64 * i.val + j.val) = (r.val * 64 + i.val) * 64 + j.val
    omega)

/-- The way back: column 64 i + j of row r of the flattened array is entry (r, i, j). -/
theorem cast32_apply {α : Type} (v : S256x64x64.Idx → α) (h : S256x64x64.ShapeCasts S256x4096) (r : Fin 256) (i j : Fin 64) :
    shapeCast S256x4096 v h (ix2 r (flat i j)) = v (ix3 r i j) :=
  shapeCast_apply v h _ _ (by
    rw [Shape.rowMajor_val_three, Shape.rowMajor_val_two]
    show (r.val * 64 + i.val) * 64 + j.val = r.val * 4096 + (64 * i.val + j.val)
    omega)

/-- One 64 × 64 matrix repeated over 256 samples. -/
theorem bcast3_apply {α : Type} (v : S1x64x64.Idx → α) (h : S1x64x64.Broadcasts S256x64x64) (r : Fin 256) (i j : Fin 64) :
    broadcastTo S256x64x64 v h (ix3 r i j) = v (ix3 (0 : Fin 1) i j) :=
  broadcastTo_apply v h _ _ (fun a => by
    match a with
    | ⟨0, _⟩ => rfl
    | ⟨1, _⟩ => rfl
    | ⟨2, _⟩ => rfl)

theorem cast_add1_apply {α : Type} (v : S64x64.Idx → α) (h : S64x64.ShapeCasts S1x64x64) (u : Fin 1) (i j : Fin 64) :
    shapeCast S1x64x64 v h (ix3 u i j) = v (ix2 i j) := shapeCast_ab_1ab_apply v h u i j

theorem brow128_apply {α : Type} (v : S1x128.Idx → α) (h : S1x128.Broadcasts S256x128) (r : Fin 256) (k : Fin 128) :
    broadcastTo S256x128 v h (ix2 r k) = v (ix2 (0 : Fin 1) k) := broadcastTo_1b_ab_apply v h r k

theorem brow4096_apply {α : Type} (v : S1x4096.Idx → α) (h : S1x4096.Broadcasts S256x4096) (r : Fin 256) (p : Fin 4096) :
    broadcastTo S256x4096 v h (ix2 r p) = v (ix2 (0 : Fin 1) p) := broadcastTo_1b_ab_apply v h r p

/-! ## The batched product: per sample, a matrix times the transpose of a matrix -/

abbrev bdot : DotDims S256x64x64 S256x64x64 S256x64x64 := dot_S256x64x64_S256x64x64_S256x64x64_2_2_1_1_0_0

/-- Its contraction index set has one axis of extent 64. -/
abbrev bContr : bdot.contr.Idx ≃ Fin 64 := contrEquiv1 bdot 64 rfl rfl

/-- The left operand at output (r, i, j) and contraction coordinate k is read at (r, i, k). -/
theorem b_lhsIdx (r : Fin 256) (i j k : Fin 64) :
    bdot.lhsIdx (ix3 r i j) (bContr.symm k) = ix3 r i k := by
  have hk := contrEquiv1_symm_val bdot 64 rfl rfl k
  funext a
  refine Fin.ext ?_
  match a with
  | ⟨0, _⟩ => rfl
  | ⟨1, _⟩ => rfl
  | ⟨2, _⟩ => exact (bdot.lhsIdx_val_of_single rfl (ix3 r i j) _).trans hk

/-- The right operand is read at (r, j, k): both operands are contracted along their last axis. -/
theorem b_rhsIdx (r : Fin 256) (i j k : Fin 64) :
    bdot.rhsIdx (ix3 r i j) (bContr.symm k) = ix3 r j k := by
  have hk := contrEquiv1_symm_val bdot 64 rfl rfl k
  funext a
  refine Fin.ext ?_
  match a with
  | ⟨0, _⟩ => rfl
  | ⟨1, _⟩ => rfl
  | ⟨2, _⟩ => exact (bdot.rhsIdx_val_of_single rfl (ix3 r i j) _).trans hk

/-- The batched product into the zero accumulator at (r, i, j): Σ_k l(r, i, k) · q(r, j, k). -/
theorem bmm_apply {φ₁ φ₂ : FTy} (l : FVec Ideal S256x64x64 φ₁) (q : FVec Ideal S256x64x64 φ₂) (r : Fin 256) (i j : Fin 64) :
    matmul (F := Ideal) dot_S256x64x64_S256x64x64_S256x64x64_2_2_1_1_0_0 none l q (constant S256x64x64 .f32 0x00000000#32) (ix3 r i j)
      = ∑ k : Fin 64, l (ix3 r i k) * q (ix3 r j k) := by
  simp only [matmul]
  rw [Ideal.matmul_constant_zero_apply]
  rw [← Equiv.sum_comp bContr.symm]
  refine Finset.sum_congr rfl fun k _ => ?_
  rw [b_lhsIdx, b_rhsIdx]

/-! ## The activation and the diagonal term at one scalar -/

/-- A number is never different from itself on the extended reals, so the "not a number" test is off. -/
theorem cmp_one_self (x : EReal) : Ideal.cmp .one x x = 0#1 := by
  simp [Ideal.cmp]

/-- The activation as the body spells it, with its zero words and the self-comparison guard, is softplus. -/
theorem softplus_kernel (z : EReal) :
    Scalar.select (Ideal.cmp .one (z - Ideal.ofBits .f32 0x00000000#32) (z - Ideal.ofBits .f32 0x00000000#32)) (z + Ideal.ofBits .f32 0x00000000#32)
      (max z (Ideal.ofBits .f32 0x00000000#32) + Ideal.log1p (Ideal.exp (Ideal.ofBits .f32 0x00000000#32 - max (z - Ideal.ofBits .f32 0x00000000#32) (-(z - Ideal.ofBits .f32 0x00000000#32)))))
    = Cert.Spec.softplus z := by
  rw [cmp_one_self, select_zero, Ideal.ofBits_zero_f32, sub_zero, zero_sub]; rfl

/-- Row number equals column number, as a one-bit word. -/
theorem eqbit (i j : Fin 64) : IntOp.cmpi .eq (BitVec.ofNat 32 i.val) (BitVec.ofNat 32 j.val) = if i = j then 1#1 else 0#1 := by
  by_cases h : i = j
  · subst h; simp [IntOp.cmpi]
  · have hne : ¬ (BitVec.ofNat 32 i.val = BitVec.ofNat 32 j.val) := by
      intro e
      have e2 := congrArg BitVec.toNat e
      simp only [BitVec.toNat_ofNat] at e2
      rw [Nat.mod_eq_of_lt (by omega), Nat.mod_eq_of_lt (by omega)] at e2
      exact h (Fin.ext e2)
    have hb : (BitVec.ofNat 32 i.val == BitVec.ofNat 32 j.val) = false := beq_eq_false_iff_ne.mpr hne
    simp [IntOp.cmpi, h, hb]

/-- The diagonal term: ε on the diagonal of every sample's matrix, zero elsewhere. -/
theorem pay3_apply (r : Fin 256) (i j : Fin 64) :
    k0_pay3 (F := Ideal) (ix3 r i j) = Ideal.ofBits .f32 0x358637BD#32 * (if i = j then (1 : EReal) else 0) := by
  unfold k0_pay3
  dsimp only
  rw [bcast3_apply, mulf_apply, broadcast_apply, cast_add1_apply, sitofp_apply, extui_apply]
  show Ideal.ofBits .f32 _ * (((BitVec.setWidth 32 (IntOp.cmpi .eq (iota .tc S64x64 32 [0] iota_S64x64_d0_w32 (ix2 i j)) (iota .tc S64x64 32 [1] iota_S64x64_d1_w32 (ix2 i j)))).toInt : ℝ) : EReal) = _
  rw [iota_single_apply, iota_single_apply]
  show _ * (((BitVec.setWidth 32 (IntOp.cmpi .eq (BitVec.ofNat 32 i.val) (BitVec.ofNat 32 j.val))).toInt : ℝ) : EReal) = _
  rw [eqbit]
  have hbit := Cert.Lib.OneHot.sitofp_extui_bit (if i = j then 1#1 else 0#1)
  refine congrArg (Ideal.ofBits .f32 0x358637BD#32 * ·) (hbit.trans ?_)
  by_cases h : i = j
  · rw [if_pos h, if_pos rfl, if_pos h]
  · rw [if_neg h, if_neg (by decide), if_neg h]

end Cert.KernelIdeal.KPay

end
-- ==== Proof.KPay.lean ====
/-
  What the kernel's body leaves in its output block, entry by entry, as a function of the five input blocks.

  With x0 the block of 256 input rows, x1 the first weight transposed ([d, k]), x2 the first bias as a row, x3 the
  zero-padded second weight transposed ([k, p], p = 64 i + j a flat position of the 64 × 64 matrix) and x4 the padded
  second bias as a row, the body computes
    pre(r, k)  = Σ_d x0(r, d) · x1(d, k) + x2(0, k)
    hid(r, k)  = softplus (pre(r, k))
    lowB(r, p) = Σ_k hid(r, k) · x3(k, p) + x4(0, p)
  views row r of lowB as the 64 × 64 matrix L_r(i, j) = lowB(r, 64 i + j), and stores
    out(r, 64 i + j) = Σ_k L_r(i, k) · L_r(j, k) + ε · [i = j].
  Changes of float format are the identity on the extended reals, and a product into the zero accumulator is the plain
  sum, so each layer is read off at an index by the lemma of its one non-pointwise operation.
-/
import proofs.«162534_j14963666059944_2_alg».proof.Proof.Gen.KernelIdeal.Frame
import proofs.«162534_j14963666059944_2_alg».proof.Proof.Spec
import proofs.«162534_j14963666059944_2_alg».proof.Proof.LibMatmul
import proofs.«162534_j14963666059944_2_alg».proof.Proof.KPayOps

open scoped BigOperators
noncomputable section
namespace Cert.KernelIdeal.KPay
open Idealize.ShloMosaic Idealize.ShloMosaic.ValueIdx Cert.KernelIdeal Cert.KernelIdeal.Gen

/-! ## The body's arithmetic, layer by layer -/

/-- Entry p of row r of the second layer over the zero-padded weights: the activation of the first layer against
    column p of the padded weight, plus the padded bias. -/
def lowB (x0 : Vec Ideal S256x128 .f32) (x1 : Vec Ideal S128x128 .bf16) (x2 : Vec Ideal S1x128 .f32) (x3 : Vec Ideal S128x4096 .bf16) (x4 : Vec Ideal S1x4096 .f32) (r : Fin 256) (p : Fin 4096) : EReal :=
  (∑ k : Fin 128, Cert.Spec.softplus ((∑ d : Fin 128, x0 (ix2 r d) * x1 (ix2 d k)) + x2 (ix2 (0 : Fin 1) k)) * x3 (ix2 k p)) + x4 (ix2 (0 : Fin 1) p)

section
variable (x0 : Vec Ideal S256x128 .f32) (x1 : Vec Ideal S128x128 .bf16) (x2 : Vec Ideal S1x128 .f32) (x3 : Vec Ideal S128x4096 .bf16) (x4 : Vec Ideal S1x4096 .f32)

/-- The first layer before its activation, as the body computes it. -/
def preV : FVec Ideal S256x128 .f32 :=
  have v1 : FVec Ideal S256x128 .bf16 := truncf .bf16 x0 bitsLt_bf16_f32
  have v3 : FVec Ideal S128x128 .bf16 := shapeCast S128x128 x1 shapeCasts_S128x128_S128x128
  have cst : FVec Ideal S256x128 .f32 := constant S256x128 .f32 0x00000000#32
  have v4 : FVec Ideal S256x128 .f32 := matmul dot_S256x128_S128x128_S256x128_1_0_0_1_n_n none v1 v3 cst
  have v6 : FVec Ideal S1x128 .f32 := shapeCast S1x128 x2 shapeCasts_S1x128_S1x128
  have v7 : FVec Ideal S256x128 .f32 := broadcastTo S256x128 v6 broadcasts_S1x128_S256x128
  addf v4 v7

/-- The activation, as the body computes it from the first layer's array. -/
def hidV (v8 : FVec Ideal S256x128 .f32) : FVec Ideal S256x128 .f32 :=
  have cst_5 : Ideal .f32 := Scalar.ofBits .f32 0x00000000#32
  have v9 : FVec Ideal S256x128 .f32 := broadcast S256x128 cst_5
  have v10 : FVec Ideal S256x128 .f32 := maximumf v8 v9
  have v11 : FVec Ideal S256x128 .f32 := broadcast S256x128 cst_5
  have v12 : FVec Ideal S256x128 .f32 := subf v8 v11
  have v13 : IVec S256x128 1 := cmpf .one v12 v12
  have v14 : FVec Ideal S256x128 .f32 := broadcast S256x128 cst_5
  have v15 : FVec Ideal S256x128 .f32 := addf v8 v14
  have v16 : FVec Ideal S256x128 .f32 := absf v12
  have cst_6 : Ideal .f32 := Scalar.ofBits .f32 0x00000000#32
  have v17 : FVec Ideal S256x128 .f32 := broadcast S256x128 cst_6
  have v18 : FVec Ideal S256x128 .f32 := subf v17 v16
  have v19 : FVec Ideal S256x128 .f32 := exp v18
  have v20 : FVec Ideal S256x128 .f32 := log1p v19
  have v21 : FVec Ideal S256x128 .f32 := addf v10 v20
  select v13 v15 v21

/-- The second layer over the padded weights, as the body computes it from the activation's array. -/
def lowV (v22 : FVec Ideal S256x128 .f32) : FVec Ideal S256x4096 .f32 :=
  have v23 : FVec Ideal S256x128 .bf16 := truncf .bf16 v22 bitsLt_bf16_f32
  have v25 : FVec Ideal S128x4096 .bf16 := shapeCast S128x4096 x3 shapeCasts_S128x4096_S128x4096
  have cst_9 : FVec Ideal S256x4096 .f32 := constant S256x4096 .f32 0x00000000#32
  have v26 : FVec Ideal S256x4096 .f32 := matmul dot_S256x128_S128x4096_S256x4096_1_0_0_1_n_n none v23 v25 cst_9
  have v28 : FVec Ideal S1x4096 .f32 := shapeCast S1x4096 x4 shapeCasts_S1x4096_S1x4096
  have v29 : FVec Ideal S256x4096 .f32 := broadcastTo S256x4096 v28 broadcasts_S1x4096_S256x4096
  addf v26 v29

/-- The body's product payload is the batched product of the second layer, viewed as 64 × 64 matrices, with itself. -/
theorem pay2_eq : k0_pay2 x0 x1 x2 x3 x4 =
    matmul dot_S256x64x64_S256x64x64_S256x64x64_2_2_1_1_0_0 none
      (truncf .bf16 (shapeCast S256x64x64 (lowV x3 x4 (hidV (preV x0 x1 x2))) shapeCasts_S256x4096_S256x64x64) bitsLt_bf16_f32)
      (truncf .bf16 (shapeCast S256x64x64 (lowV x3 x4 (hidV (preV x0 x1 x2))) shapeCasts_S256x4096_S256x64x64) bitsLt_bf16_f32)
      (constant S256x64x64 .f32 0x00000000#32) := rfl

theorem preV_apply (r : Fin 256) (k : Fin 128) :
    preV x0 x1 x2 (ix2 r k) = (∑ d : Fin 128, x0 (ix2 r d) * x1 (ix2 d k)) + x2 (ix2 (0 : Fin 1) k) := by
  unfold preV
  rw [shapeCast_self x1, shapeCast_self x2, addf_apply, brow128_apply]
  exact congrArg (· + x2 (ix2 (0 : Fin 1) k)) (Cert.MatOps.matmul_plain_zero_apply none (truncf .bf16 x0 bitsLt_bf16_f32) x1 r k)

theorem hidV_apply (v8 : FVec Ideal S256x128 .f32) (r : Fin 256) (k : Fin 128) :
    hidV v8 (ix2 r k) = Cert.Spec.softplus (v8 (ix2 r k)) := softplus_kernel (v8 (ix2 r k))

theorem lowV_apply (v22 : FVec Ideal S256x128 .f32) (r : Fin 256) (p : Fin 4096) :
    lowV x3 x4 v22 (ix2 r p) = (∑ k : Fin 128, v22 (ix2 r k) * x3 (ix2 k p)) + x4 (ix2 (0 : Fin 1) p) := by
  unfold lowV
  rw [shapeCast_self x3, shapeCast_self x4, addf_apply, brow4096_apply]
  exact congrArg (· + x4 (ix2 (0 : Fin 1) p)) (Cert.MatOps.matmul_plain_zero_apply none (truncf .bf16 v22 bitsLt_bf16_f32) x3 r p)

theorem low_eq (r : Fin 256) (p : Fin 4096) :
    lowV x3 x4 (hidV (preV x0 x1 x2)) (ix2 r p) = lowB x0 x1 x2 x3 x4 r p := by
  rw [lowV_apply]
  unfold lowB
  refine congrArg (· + x4 (ix2 (0 : Fin 1) p)) (Finset.sum_congr rfl fun k _ => ?_)
  rw [hidV_apply, preV_apply]

/-- The product payload at (r, i, j): row i of sample r's matrix against row j. -/
theorem pay2_apply (r : Fin 256) (i j : Fin 64) :
    k0_pay2 x0 x1 x2 x3 x4 (ix3 r i j) = ∑ k : Fin 64, lowB x0 x1 x2 x3 x4 r (flat i k) * lowB x0 x1 x2 x3 x4 r (flat j k) := by
  rw [pay2_eq, bmm_apply]
  refine Finset.sum_congr rfl fun k _ => ?_
  rw [truncf_apply, truncf_apply, cast23_apply, cast23_apply, low_eq, low_eq]

theorem hz : (![0, 0] : Fin 2 → Nat) = fun _ => 0 := funext fun a => by fin_cases a <;> rfl

/-- What the body leaves in the output block, entry by entry: sample r's lower-triangular-layout matrix times its
    transpose, plus ε on the diagonal. -/
theorem out_apply (r : Fin 256) (i j : Fin 64) :
    Cert.KernelIdeal.Gen.out0_5 (F := Ideal) x0 x1 x2 x3 x4 (ix2 r ⟨64 * i.val + j.val, by omega⟩)
      = (∑ k : Fin 64, lowB x0 x1 x2 x3 x4 r ⟨64 * i.val + k.val, by omega⟩ * lowB x0 x1 x2 x3 x4 r ⟨64 * j.val + k.val, by omega⟩)
        + Ideal.ofBits .f32 0x358637BD#32 * (if i = j then (1 : EReal) else 0) := by
  unfold out0_5
  rw [View.canon_unit_zero hz]
  simp only [View.ld_unit_zero (S := S256x128) hz, View.ld_unit_zero (S := S128x128) hz, View.ld_unit_zero (S := S1x128) hz,
    View.ld_unit_zero (S := S128x4096) hz, View.ld_unit_zero (S := S1x4096) hz]
  unfold k0_pay1
  show shapeCast S256x4096 _ shapeCasts_S256x64x64_S256x4096 (ix2 r (flat i j)) = _
  rw [cast32_apply, addf_apply, pay2_apply, pay3_apply]
end

end Cert.KernelIdeal.KPay

end
-- ==== Proof.KValueRun.lean ====
/-
  The kernel's result array is the specification's function of its arguments.

  The module on the blocks proves this given what the region finds in the four arrays the host prepared and what
  the body computes from its blocks.  Both are proved elsewhere: the host's scatter of the second-layer weights and
  bias at the flat addresses 64 i + j of the lower-triangular positions (zero elsewhere) and its transposes and
  row views, and the body's two layers and product with the transpose on one block.  Here they are put together.
-/
import proofs.«162534_j14963666059944_2_alg».proof.Proof.KValue
import proofs.«162534_j14963666059944_2_alg».proof.Proof.KHost
import proofs.«162534_j14963666059944_2_alg».proof.Proof.KPay

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx Cert.Tril

variable (m : (ℓ : Loc nD τ sig) → Buf (Elt Ideal) ℓ) (g : Dev nD → PrngReg)

/-- What the blocks' module takes as given holds on every core. -/
theorem given (c : Dev nD) : Given m c where
  v1 := Cert.KernelIdeal.KHost.V_v1 m c
  v2 := Cert.KernelIdeal.KHost.V_v2 m c
  v10 := Cert.KernelIdeal.KHost.V_v10 m c
  v17 := Cert.KernelIdeal.KHost.V_v17 m c
  pay := fun x0 x1 x2 x3 x4 r i j => Cert.KernelIdeal.KPay.out_apply x0 x1 x2 x3 x4 r i j

/-- THE KERNEL'S RUN: at the compiled mesh, from any memory with zero counters, the program terminates, its
    result array [16384, 64, 64] is the specification's function of its five arguments, and the arguments end
    unchanged. -/
theorem run :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v19)
        = Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  run_of m g (given m)

/-- info: 'Cert.KernelIdeal.KValue.run' depends on axioms: [propext, Classical.choice, Quot.sound] -/
#guard_msgs in #print axioms run

end Cert.KernelIdeal.KValue

end
-- ==== Proof.RefRun.lean ====
import proofs.«162534_j14963666059944_2_alg».proof.Proof.Gen.ReferenceIdeal
import Idealize.ShloMosaic.Lib.StableHlo.Run

/-!
# The reference's run

The reference function is a straight line of host operations: its own, and those of the functions it
calls, which run in place at the call over the call's own buffers. This module lists the operations in
program order (`ops`), proves that the function IS that line (`main_eq`), and concludes that every weakly
fair execution terminates with each buffer holding the fold of the operations' results over the launch
contents (`run_after`).
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The first window's operations (159: the function's own and its callees', in place), in order. -/
abbrev ops0 : List (HloOp τ sig (Elt F)) :=
  [ StableHlo.unary main_arg1 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg2 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S16384x128 ![0, 1] bcast_S1x128_S16384x128_0_1 : (⟨S1x128, .f32⟩ : BufTy).Contents (Elt F) → (⟨S16384x128, .f32⟩ : BufTy).Contents (Elt F)),
    StableHlo.binary main_v1 main_v3 main_v4 (addf : (⟨S16384x128, .f32⟩ : BufTy).Contents (Elt F) → (⟨S16384x128, .f32⟩ : BufTy).Contents (Elt F) → (⟨S16384x128, .f32⟩ : BufTy).Contents (Elt F)),
    StableHlo.TRef.nullary main_call0.cst (constant S_ .f32 0x00000000#32),
    StableHlo.TRef.unary main_call0.cst main_call0.v0 (broadcastInDim S16384x128 ![] bcast_S_S16384x128),
    StableHlo.TRef.binary (.of main_v4 : StableHlo.TRef sig ⟨S16384x128, .f32⟩) main_call0.v0 main_call0.v1 maximumf,
    StableHlo.TRef.unary main_call0.cst main_call0.v2 (broadcastInDim S16384x128 ![] bcast_S_S16384x128),
    StableHlo.TRef.binary (.of main_v4 : StableHlo.TRef sig ⟨S16384x128, .f32⟩) main_call0.v2 main_call0.v3 subf,
    StableHlo.TRef.binary main_call0.v3 main_call0.v3 main_call0.v4 (cmpf .une),
    StableHlo.TRef.unary main_call0.cst main_call0.v5 (broadcastInDim S16384x128 ![] bcast_S_S16384x128),
    StableHlo.TRef.binary (.of main_v4 : StableHlo.TRef sig ⟨S16384x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.unary main_arg3 main_v6 ((transpose S128x2080 [1, 0] · transposes_S2080x128_S128x2080_1_0) : (⟨S2080x128, .f32⟩ : BufTy).Contents (Elt F) → (⟨S128x2080, .f32⟩ : BufTy).Contents (Elt F)),
    StableHlo.binary main_v5 main_v6 main_v7 ((fun l r => Host.dotGeneral dot_S16384x128_S128x2080_S16384x2080_1_0_0_1_n_n none l r) : (⟨S16384x128, .f32⟩ : BufTy).Contents (Elt F) → (⟨S128x2080, .f32⟩ : BufTy).Contents (Elt F) → (⟨S16384x2080, .f32⟩ : BufTy).Contents (Elt F)),
    StableHlo.unary main_arg4 main_v8 (broadcastInDim S1x2080 ![1] bcast_S2080_S1x2080_1 : (⟨S2080, .f32⟩ : BufTy).Contents (Elt F) → (⟨S1x2080, .f32⟩ : BufTy).Contents (Elt F)),
    StableHlo.unary main_v8 main_v9 (broadcastInDim S16384x2080 ![0, 1] bcast_S1x2080_S16384x2080_0_1 : (⟨S1x2080, .f32⟩ : BufTy).Contents (Elt F) → (⟨S16384x2080, .f32⟩ : BufTy).Contents (Elt F)),
    StableHlo.binary main_v7 main_v9 main_v10 (addf : (⟨S16384x2080, .f32⟩ : BufTy).Contents (Elt F) → (⟨S16384x2080, .f32⟩ : BufTy).Contents (Elt F) → (⟨S16384x2080, .f32⟩ : BufTy).Contents (Elt F)),
    StableHlo.nullary main_cst (constant S_ .f32 0x3F800000#32),
    StableHlo.unary main_cst main_v11 (broadcastInDim S64x64 ![] bcast_S_S64x64 : (⟨S_, .f32⟩ : BufTy).Contents (Elt F) → (⟨S64x64, .f32⟩ : BufTy).Contents (Elt F)),
    StableHlo.TRef.nullary main_call1.v0 (iotaInDim S64x64 32 0),
    StableHlo.TRef.nullary main_call1.c (constantI S_ 32 0#32),
    StableHlo.TRef.unary main_call1.c main_call1.v1 (broadcastInDim S64x64 ![] bcast_S_S64x64),
    StableHlo.TRef.binary main_call1.v0 main_call1.v1 main_call1.v2 addi,
    StableHlo.TRef.nullary main_call1.v3 (iotaInDim S64x64 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S64x64 ![] bcast_S_S64x64),
    StableHlo.TRef.ternary main_call1.v4 (.of main_v11 : StableHlo.TRef sig ⟨S64x64, .f32⟩) main_call1.v5 main_call1.v6 select,
    StableHlo.nullary main_cst_0 (constant S_ .f32 0x00000000#32),
    StableHlo.unary main_cst_0 main_v13 (broadcastInDim S64x64 ![] bcast_S_S64x64 : (⟨S_, .f32⟩ : BufTy).Contents (Elt F) → (⟨S64x64, .f32⟩ : BufTy).Contents (Elt F)),
    StableHlo.binary main_v12 main_v13 main_v14 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v14 : StableHlo.TRef sig ⟨S64x64, .i1⟩) main_call2.v0 rfl shapeCasts_S64x64_S4096,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![4096] ![1] ![4095] ![0] x v reduceWindows_S4096_S4096_w4096s1p4095_0 h_S_),
    StableHlo.nullary main_c (constantI S_ 32 0#32),
    StableHlo.unary main_c main_v16 (broadcastInDim S2080 ![] bcast_S_S2080 : (⟨S_, .i32⟩ : BufTy).Contents (Elt F) → (⟨S2080, .i32⟩ : BufTy).Contents (Elt F)),
    StableHlo.nullary main_c_1 (constantI S_ 32 0#32),
    StableHlo.TRef.unary (.of main_c_1 : StableHlo.TRef sig ⟨S_, .i32⟩) main_call3.v0 id,
    StableHlo.TRef.unary main_call3.v0 main_call3.v1 (broadcastInDim S4096 ![] bcast_S_S4096),
    StableHlo.TRef.binary main_call3.v1 (.of main_v15 : StableHlo.TRef sig ⟨S4096, .i32⟩) main_call3.v2 maxsi,
    StableHlo.nullary main_c_2 (constantI S_ 32 0#32),
    StableHlo.unary main_c_2 main_v18 (broadcastInDim S4096 ![] bcast_S_S4096 : (⟨S_, .i32⟩ : BufTy).Contents (Elt F) → (⟨S4096, .i32⟩ : BufTy).Contents (Elt F)),
    StableHlo.binary main_v17 main_v18 main_v19 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2080#32),
    StableHlo.unary main_c_3 main_v20 (broadcastInDim S4096 ![] bcast_S_S4096 : (⟨S_, .i32⟩ : BufTy).Contents (Elt F) → (⟨S4096, .i32⟩ : BufTy).Contents (Elt F)),
    StableHlo.binary main_v17 main_v20 main_v21 (addi : (⟨S4096, .i32⟩ : BufTy).Contents (Elt F) → (⟨S4096, .i32⟩ : BufTy).Contents (Elt F) → (⟨S4096, .i32⟩ : BufTy).Contents (Elt F)),
    StableHlo.ternary main_v19 main_v21 main_v17 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v22 main_v23 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v24 (broadcastInDim S4096 ![] bcast_S_S4096 : (⟨S_, .i32⟩ : BufTy).Contents (Elt F) → (⟨S4096, .i32⟩ : BufTy).Contents (Elt F)),
    StableHlo.ternary main_v16 main_v23 main_v24 main_v25 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v25 : StableHlo.TRef sig ⟨S2080, .i32⟩) main_call4.call0.v0 main_call4.call0.v1 (fun x v => Host.reduceWindow IntOp.addi ![2080] ![1] ![2079] ![0] x v reduceWindows_S2080_S2080_w2080s1p2079_0 h_S_),
    StableHlo.nullary main_c_5 (constantI S_ 32 64#32),
    StableHlo.TRef.unary (.of main_c_5 : StableHlo.TRef sig ⟨S_, .i32⟩) main_call5.v0 (broadcastInDim S2080 ![] bcast_S_S2080),
    StableHlo.TRef.binary (.of main_v26 : StableHlo.TRef sig ⟨S2080, .i32⟩) main_call5.v0 main_call5.v1 Host.divsi,
    StableHlo.TRef.unary (.of main_v26 : StableHlo.TRef sig ⟨S2080, .i32⟩) main_call5.v2 signi,
    StableHlo.TRef.unary (.of main_c_5 : StableHlo.TRef sig ⟨S_, .i32⟩) main_call5.v3 signi,
    StableHlo.TRef.unary main_call5.v3 main_call5.v4 (broadcastInDim S2080 ![] bcast_S_S2080),
    StableHlo.TRef.binary main_call5.v2 main_call5.v4 main_call5.v5 (cmpi .ne),
    StableHlo.TRef.unary (.of main_c_5 : StableHlo.TRef sig ⟨S_, .i32⟩) main_call5.v6 (broadcastInDim S2080 ![] bcast_S_S2080),
    StableHlo.TRef.binary (.of main_v26 : StableHlo.TRef sig ⟨S2080, .i32⟩) main_call5.v6 main_call5.v7 Host.remsi,
    StableHlo.TRef.nullary main_call5.c (constantI S_ 32 0#32),
    StableHlo.TRef.unary main_call5.c main_call5.v8 (broadcastInDim S2080 ![] bcast_S_S2080),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S2080 ![] bcast_S_S2080),
    StableHlo.TRef.binary main_call5.v1 main_call5.v11 main_call5.v12 subi,
    StableHlo.TRef.ternary main_call5.v10 main_call5.v12 main_call5.v1 main_call5.call0.v0 select,
    StableHlo.nullary main_c_6 (constantI S_ 32 64#32),
    StableHlo.TRef.unary (.of main_c_6 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S2080 ![] bcast_S_S2080),
    StableHlo.TRef.binary (.of main_v27 : StableHlo.TRef sig ⟨S2080, .i32⟩) main_call6.v3 main_call6.v4 Host.remsi,
    StableHlo.TRef.nullary main_call6.c_1 (constantI S_ 32 0#32),
    StableHlo.TRef.unary main_call6.c_1 main_call6.v5 (broadcastInDim S2080 ![] bcast_S_S2080),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S2080 ![] bcast_S_S2080),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S2080 ![] bcast_S_S2080),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S2080 ![] bcast_S_S2080),
    StableHlo.TRef.binary main_call6.v4 main_call6.v13 main_call6.v14 addi,
    StableHlo.TRef.ternary main_call6.v12 main_call6.v14 main_call6.v4 main_call6.v15 select,
    StableHlo.nullary main_c_7 (constantI S_ 32 1#32),
    StableHlo.TRef.unary (.of main_c_7 : StableHlo.TRef sig ⟨S_, .i32⟩) main_call7.v0 (broadcastInDim S2080 ![] bcast_S_S2080),
    StableHlo.TRef.binary (.of main_v26 : StableHlo.TRef sig ⟨S2080, .i32⟩) main_call7.v0 main_call7.v1 Host.divsi,
    StableHlo.TRef.unary (.of main_v26 : StableHlo.TRef sig ⟨S2080, .i32⟩) main_call7.v2 signi,
    StableHlo.TRef.unary (.of main_c_7 : StableHlo.TRef sig ⟨S_, .i32⟩) main_call7.v3 signi,
    StableHlo.TRef.unary main_call7.v3 main_call7.v4 (broadcastInDim S2080 ![] bcast_S_S2080),
    StableHlo.TRef.binary main_call7.v2 main_call7.v4 main_call7.v5 (cmpi .ne),
    StableHlo.TRef.unary (.of main_c_7 : StableHlo.TRef sig ⟨S_, .i32⟩) main_call7.v6 (broadcastInDim S2080 ![] bcast_S_S2080),
    StableHlo.TRef.binary (.of main_v26 : StableHlo.TRef sig ⟨S2080, .i32⟩) main_call7.v6 main_call7.v7 Host.remsi,
    StableHlo.TRef.nullary main_call7.c (constantI S_ 32 0#32),
    StableHlo.TRef.unary main_call7.c main_call7.v8 (broadcastInDim S2080 ![] bcast_S_S2080),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S2080 ![] bcast_S_S2080),
    StableHlo.TRef.binary main_call7.v1 main_call7.v11 main_call7.v12 subi,
    StableHlo.TRef.ternary main_call7.v10 main_call7.v12 main_call7.v1 main_call7.call0.v0 select,
    StableHlo.nullary main_c_8 (constantI S_ 32 64#32),
    StableHlo.TRef.unary (.of main_c_8 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S2080 ![] bcast_S_S2080),
    StableHlo.TRef.binary (.of main_v29 : StableHlo.TRef sig ⟨S2080, .i32⟩) main_call8.v3 main_call8.v4 Host.remsi,
    StableHlo.TRef.nullary main_call8.c_1 (constantI S_ 32 0#32),
    StableHlo.TRef.unary main_call8.c_1 main_call8.v5 (broadcastInDim S2080 ![] bcast_S_S2080),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S2080 ![] bcast_S_S2080),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S2080 ![] bcast_S_S2080),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S2080 ![] bcast_S_S2080),
    StableHlo.TRef.binary main_call8.v4 main_call8.v13 main_call8.v14 addi,
    StableHlo.TRef.ternary main_call8.v12 main_call8.v14 main_call8.v4 main_call8.v15 select,
    StableHlo.nullary main_cst_9 (constant S_ .f32 0x00000000#32),
    StableHlo.unary main_cst_9 main_v31 (broadcastInDim S16384x64x64 ![] bcast_S_S16384x64x64 : (⟨S_, .f32⟩ : BufTy).Contents (Elt F) → (⟨S16384x64x64, .f32⟩ : BufTy).Contents (Elt F)),
    StableHlo.nullary main_c_10 (constantI S_ 32 0#32),
    StableHlo.unary main_c_10 main_v32 (broadcastInDim S2080 ![] bcast_S_S2080 : (⟨S_, .i32⟩ : BufTy).Contents (Elt F) → (⟨S2080, .i32⟩ : BufTy).Contents (Elt F)),
    StableHlo.binary main_v28 main_v32 main_v33 (cmpi .slt : (⟨S2080, .i32⟩ : BufTy).Contents (Elt F) → (⟨S2080, .i32⟩ : BufTy).Contents (Elt F) → (⟨S2080, .i1⟩ : BufTy).Contents (Elt F)),
    StableHlo.nullary main_c_11 (constantI S_ 32 64#32),
    StableHlo.unary main_c_11 main_v34 (broadcastInDim S2080 ![] bcast_S_S2080 : (⟨S_, .i32⟩ : BufTy).Contents (Elt F) → (⟨S2080, .i32⟩ : BufTy).Contents (Elt F)),
    StableHlo.binary main_v28 main_v34 main_v35 (addi : (⟨S2080, .i32⟩ : BufTy).Contents (Elt F) → (⟨S2080, .i32⟩ : BufTy).Contents (Elt F) → (⟨S2080, .i32⟩ : BufTy).Contents (Elt F)),
    StableHlo.ternary main_v33 main_v35 main_v28 main_v36 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.nullary main_c_12 (constantI S_ 32 0#32),
    StableHlo.unary main_c_12 main_v37 (broadcastInDim S2080 ![] bcast_S_S2080 : (⟨S_, .i32⟩ : BufTy).Contents (Elt F) → (⟨S2080, .i32⟩ : BufTy).Contents (Elt F)),
    StableHlo.binary main_v30 main_v37 main_v38 (cmpi .slt : (⟨S2080, .i32⟩ : BufTy).Contents (Elt F) → (⟨S2080, .i32⟩ : BufTy).Contents (Elt F) → (⟨S2080, .i1⟩ : BufTy).Contents (Elt F)),
    StableHlo.nullary main_c_13 (constantI S_ 32 64#32),
    StableHlo.unary main_c_13 main_v39 (broadcastInDim S2080 ![] bcast_S_S2080 : (⟨S_, .i32⟩ : BufTy).Contents (Elt F) → (⟨S2080, .i32⟩ : BufTy).Contents (Elt F)),
    StableHlo.binary main_v30 main_v39 main_v40 (addi : (⟨S2080, .i32⟩ : BufTy).Contents (Elt F) → (⟨S2080, .i32⟩ : BufTy).Contents (Elt F) → (⟨S2080, .i32⟩ : BufTy).Contents (Elt F)),
    StableHlo.ternary main_v38 main_v40 main_v30 main_v41 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v36 main_v42 (broadcastInDim S2080x1 ![0] bcast_S2080_S2080x1_0 : (⟨S2080, .i32⟩ : BufTy).Contents (Elt F) → (⟨S2080x1, .i32⟩ : BufTy).Contents (Elt F)),
    StableHlo.unary main_v41 main_v43 (broadcastInDim S2080x1 ![0] bcast_S2080_S2080x1_0 : (⟨S2080, .i32⟩ : BufTy).Contents (Elt F) → (⟨S2080x1, .i32⟩ : BufTy).Contents (Elt F)) ]

/-- The second window's 17 operations, in order. -/
abbrev ops1 : List (HloOp τ sig (Elt F)) :=
  [ StableHlo.binary main_v42 main_v43 main_v44 ((fun a b => concatenate S2080x2 1 [⟨S2080x1, a⟩, ⟨S2080x1, b⟩] concatenates_S2080x1_S2080x1_S2080x2_d1) : (⟨S2080x1, .i32⟩ : BufTy).Contents (Elt F) → (⟨S2080x1, .i32⟩ : BufTy).Contents (Elt F) → (⟨S2080x2, .i32⟩ : BufTy).Contents (Elt F)),
    StableHlo.ternary main_v31 main_v44 main_v10 main_v45 ((fun x i u => Host.scatter scatter_S16384x64x64_S2080x2_S16384x2080_0_12_12_1 (fun _ b => b) x i u) : (⟨S16384x64x64, .f32⟩ : BufTy).Contents (Elt F) → (⟨S2080x2, .i32⟩ : BufTy).Contents (Elt F) → (⟨S16384x2080, .f32⟩ : BufTy).Contents (Elt F) → (⟨S16384x64x64, .f32⟩ : BufTy).Contents (Elt F)),
    StableHlo.unary main_v45 main_v46 ((transpose S16384x64x64 [0, 2, 1] · transposes_S16384x64x64_S16384x64x64_0_2_1) : (⟨S16384x64x64, .f32⟩ : BufTy).Contents (Elt F) → (⟨S16384x64x64, .f32⟩ : BufTy).Contents (Elt F)),
    StableHlo.binary main_v45 main_v46 main_v47 ((fun l r => Host.dotGeneral dot_S16384x64x64_S16384x64x64_S16384x64x64_2_1_1_2_0_0 none l r) : (⟨S16384x64x64, .f32⟩ : BufTy).Contents (Elt F) → (⟨S16384x64x64, .f32⟩ : BufTy).Contents (Elt F) → (⟨S16384x64x64, .f32⟩ : BufTy).Contents (Elt F)),
    StableHlo.nullary main_v48 (iotaInDim S64x64 32 0),
    StableHlo.nullary main_v49 (iotaInDim S64x64 32 1),
    StableHlo.nullary main_c_14 (constantI S_ 32 0#32),
    StableHlo.unary main_c_14 main_v50 (broadcastInDim S64x64 ![] bcast_S_S64x64 : (⟨S_, .i32⟩ : BufTy).Contents (Elt F) → (⟨S64x64, .i32⟩ : BufTy).Contents (Elt F)),
    StableHlo.binary main_v48 main_v50 main_v51 (addi : (⟨S64x64, .i32⟩ : BufTy).Contents (Elt F) → (⟨S64x64, .i32⟩ : BufTy).Contents (Elt F) → (⟨S64x64, .i32⟩ : BufTy).Contents (Elt F)),
    StableHlo.binary main_v51 main_v49 main_v52 (cmpi .eq : (⟨S64x64, .i32⟩ : BufTy).Contents (Elt F) → (⟨S64x64, .i32⟩ : BufTy).Contents (Elt F) → (⟨S64x64, .i1⟩ : BufTy).Contents (Elt F)),
    StableHlo.unary main_v52 main_v53 (uitofp .f32 : (⟨S64x64, .i1⟩ : BufTy).Contents (Elt F) → (⟨S64x64, .f32⟩ : BufTy).Contents (Elt F)),
    StableHlo.nullary main_cst_15 (constant S_ .f32 0x358637BD#32),
    StableHlo.unary main_cst_15 main_v54 (broadcastInDim S64x64 ![] bcast_S_S64x64 : (⟨S_, .f32⟩ : BufTy).Contents (Elt F) → (⟨S64x64, .f32⟩ : BufTy).Contents (Elt F)),
    StableHlo.binary main_v54 main_v53 main_v55 (mulf : (⟨S64x64, .f32⟩ : BufTy).Contents (Elt F) → (⟨S64x64, .f32⟩ : BufTy).Contents (Elt F) → (⟨S64x64, .f32⟩ : BufTy).Contents (Elt F)),
    StableHlo.unary main_v55 main_v56 (broadcastInDim S1x64x64 ![1, 2] bcast_S64x64_S1x64x64_1_2 : (⟨S64x64, .f32⟩ : BufTy).Contents (Elt F) → (⟨S1x64x64, .f32⟩ : BufTy).Contents (Elt F)),
    StableHlo.unary main_v56 main_v57 (broadcastInDim S16384x64x64 ![0, 1, 2] bcast_S1x64x64_S16384x64x64_0_1_2 : (⟨S1x64x64, .f32⟩ : BufTy).Contents (Elt F) → (⟨S16384x64x64, .f32⟩ : BufTy).Contents (Elt F)),
    StableHlo.binary main_v47 main_v57 main_v58 (addf : (⟨S16384x64x64, .f32⟩ : BufTy).Contents (Elt F) → (⟨S16384x64x64, .f32⟩ : BufTy).Contents (Elt F) → (⟨S16384x64x64, .f32⟩ : BufTy).Contents (Elt F)) ]

set_option maxRecDepth 100000 in
set_option maxHeartbeats 4000000 in
/-- The second window is its line. -/
theorem part1_eq (c : Dev nD) : main_part1 (F := F) c = seq ops1 := rfl

set_option maxRecDepth 100000 in
set_option maxHeartbeats 4000000 in
/-- The first window is its line: the called functions' definitions unfolded at their calls, sequencing reassociated. -/
theorem part0_eq (c : Dev nD) : main_part0 (F := F) c = seq ops0 := by
  simp only [main_part0, fn_softplus.body, fn_tril.body, fn_cumsum_0.body, fn_cumsum.body, fn_clip.body, fn_cumsum_2.body,
    fn_cumsum_1.body, fn_where.body, fn_floor_divide.body, fn_where_3.body, fn_remainder.body, bind_assoc, pure_bind]
  rfl

/-- The whole function's 176 operations, in order. -/
abbrev ops : List (HloOp τ sig (Elt F)) := ops0 ++ ops1

/-- The reference function is the straight line of its operations. -/
theorem main_eq (c : Dev nD) : main (F := F) c = seq ops := by
  rw [show (ops : List (HloOp τ sig (Elt F))) = ops0 ++ ops1 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops0_sub : (ops0 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub ..⟩
theorem ops1_sub : (ops1 : List (HloOp τ sig (Elt F))).Forall fun op => op.bufs ⊆ tcRefs τ sig :=
  ⟨binary_bufs_sub .., ternary_bufs_sub .., unary_bufs_sub .., binary_bufs_sub .., nullary_bufs_sub .., nullary_bufs_sub ..,
    nullary_bufs_sub .., unary_bufs_sub .., binary_bufs_sub .., binary_bufs_sub .., unary_bufs_sub .., nullary_bufs_sub ..,
    unary_bufs_sub .., binary_bufs_sub .., unary_bufs_sub .., unary_bufs_sub .., binary_bufs_sub ..⟩
theorem ops_sub : (ops : List (HloOp τ sig (Elt F))).Forall fun op => op.bufs ⊆ tcRefs τ sig :=
  List.forall_append.mpr ⟨ops0_sub, ops1_sub⟩

/-- Every operation determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (List.forall_append.mpr ⟨ops0_fresh, ops1_fresh⟩)

/-- On every device, for any float values, from any memory with zero counters: every weakly fair execution of the
    reference terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference program's stages as plain functions on the extended reals and on 32-bit words:
  each definition is the composition of exactly the functions the printed operations apply, in the
  program's order and argument order, so that the program's run reads back into them by unfolding.

    z         the first layer before its activation            x · W1ᵀ + b1
    h         softplus, in the arrangement the program uses
    elements  the second layer                                  h · W2ᵀ + b2
    mask … table   the integer computation of the (row, column) pairs of the lower-triangular
              positions of a 64 × 64 matrix: the mask j ≤ i, its running count, the scatter-add
              that counts addresses per running count, the second running count (the flat address
              of each position), and the quotient / remainder by 64
    scattered the second layer written into a zero matrix at those pairs
    gram      the matrix times its transpose
    eyeEps    ε on the diagonal
-/
import Idealize.ShloMosaic.PureOps.Ideal
import proofs.«162534_j14963666059944_2_alg».proof.ReferenceIdeal

noncomputable section

namespace Cert.ReferenceIdeal.RefStages

open Idealize.ShloMosaic Cert.ReferenceIdeal Cert.ReferenceIdeal.Facts₀ Cert.ReferenceIdeal.Facts

variable [Cert.ReferenceIdeal.Facts]

/-- The first layer before its activation: x · W1ᵀ + b1 (the bias broadcast along the rows). -/
def z (x : FVec Ideal S16384x128 .f32) (W1 : FVec Ideal S128x128 .f32) (b1 : FVec Ideal S128 .f32) :
    FVec Ideal S16384x128 .f32 :=
  addf
    (Host.dotGeneral dot_S16384x128_S128x128_S16384x128_1_0_0_1_n_n none x
      (transpose S128x128 [1, 0] W1 transposes_S128x128_S128x128_1_0))
    (broadcastInDim S16384x128 ![0, 1] bcast_S1x128_S16384x128_0_1
      (broadcastInDim S1x128 ![1] bcast_S128_S1x128_1 b1))

/-- The zero the activation compares and adds with, as an array. -/
def zeros128 : FVec Ideal S16384x128 .f32 :=
  broadcastInDim S16384x128 ![] bcast_S_S16384x128 (constant (F := Ideal) S_ .f32 0x00000000#32)

/-- softplus as the program computes it: where z − 0 is not itself, z + 0; elsewhere
    max z 0 + log1p (exp (−|z − 0|)). -/
def h (zz : FVec Ideal S16384x128 .f32) : FVec Ideal S16384x128 .f32 :=
  select (cmpf .une (subf zz zeros128) (subf zz zeros128))
    (addf zz zeros128)
    (addf (maximumf zz zeros128)
      (Host.log1p (Host.exp (Host.negf (Host.absf (subf zz zeros128))))))

/-- The second layer: h · W2ᵀ + b2. -/
def elements (hh : FVec Ideal S16384x128 .f32) (W2 : FVec Ideal S2080x128 .f32) (b2 : FVec Ideal S2080 .f32) :
    FVec Ideal S16384x2080 .f32 :=
  addf
    (Host.dotGeneral dot_S16384x128_S128x2080_S16384x2080_1_0_0_1_n_n none hh
      (transpose S128x2080 [1, 0] W2 transposes_S2080x128_S128x2080_1_0))
    (broadcastInDim S16384x2080 ![0, 1] bcast_S1x2080_S16384x2080_0_1
      (broadcastInDim S1x2080 ![1] bcast_S2080_S1x2080_1 b2))

/-- The lower triangle of an array: entry (i, j) kept where i + 0 ≥ j, zero elsewhere. -/
def tril (a : FVec Ideal S64x64 .f32) : FVec Ideal S64x64 .f32 :=
  select
    (cmpi .sge
      (addi (iotaInDim S64x64 32 0) (broadcastInDim S64x64 ![] bcast_S_S64x64 (constantI S_ 32 0#32)))
      (iotaInDim S64x64 32 1))
    a
    (broadcastInDim S64x64 ![] bcast_S_S64x64 (constant (F := Ideal) S_ .f32 0x00000000#32))

/-- The mask of the lower triangle: where the lower triangle of the all-ones array differs from zero. -/
def mask : IVec S64x64 1 :=
  cmpf .une
    (tril (broadcastInDim S64x64 ![] bcast_S_S64x64 (constant (F := Ideal) S_ .f32 0x3F800000#32)))
    (broadcastInDim S64x64 ![] bcast_S_S64x64 (constant (F := Ideal) S_ .f32 0x00000000#32))

/-- The running count of the mask along the flat addresses: a window of 4096 padded 4095 low, summed. -/
def cum1 : IVec S4096 32 :=
  Host.reduceWindow IntOp.addi ![4096] ![1] ![4095] ![0]
    (extui 32 (shapeCast S4096 mask shapeCasts_S64x64_S4096) natLt_1_32)
    (broadcastInDim S_ ![] bcast_S_S_ (constantI S_ 32 0#32))
    reduceWindows_S4096_S4096_w4096s1p4095_0 h_S_

/-- The running count clipped below at zero. -/
def clipped : IVec S4096 32 :=
  maxsi (broadcastInDim S4096 ![] bcast_S_S4096 (id (constantI S_ 32 0#32))) cum1

/-- The scatter indices: the clipped running count, a negative one wrapped by 2080. -/
def idx1 : IVec S4096 32 :=
  select
    (cmpi .slt clipped (broadcastInDim S4096 ![] bcast_S_S4096 (constantI S_ 32 0#32)))
    (addi clipped (broadcastInDim S4096 ![] bcast_S_S4096 (constantI S_ 32 2080#32)))
    clipped

/-- How many flat addresses carry each running count: ones added at the scatter indices. -/
def counts : IVec S2080 32 :=
  Host.scatter scatter_S2080_S4096x1_S4096_n_0_0_1 IntOp.addi
    (broadcastInDim S2080 ![] bcast_S_S2080 (constantI S_ 32 0#32))
    (broadcastInDim S4096x1 ![0] bcast_S4096_S4096x1_0 idx1)
    (broadcastInDim S4096 ![] bcast_S_S4096 (constantI S_ 32 1#32))

/-- The running count of `counts`: the flat address of each lower-triangular position. -/
def cum2 : IVec S2080 32 :=
  Host.reduceWindow IntOp.addi ![2080] ![1] ![2079] ![0] counts
    (broadcastInDim S_ ![] bcast_S_S_ (constantI S_ 32 0#32))
    reduceWindows_S2080_S2080_w2080s1p2079_0 h_S_

/-- The floored quotient of signed words: the truncated quotient, less one where the signs differ
    and the remainder is not zero. -/
def floorDivide (a : IVec S2080 32) (d : IVec S_ 32) : IVec S2080 32 :=
  select
    (andi
      (cmpi .ne (signi a) (broadcastInDim S2080 ![] bcast_S_S2080 (signi d)))
      (cmpi .ne (Host.remsi a (broadcastInDim S2080 ![] bcast_S_S2080 d))
        (broadcastInDim S2080 ![] bcast_S_S2080 (constantI S_ 32 0#32))))
    (subi (Host.divsi a (broadcastInDim S2080 ![] bcast_S_S2080 d))
      (broadcastInDim S2080 ![] bcast_S_S2080 (constantI S_ 32 1#32)))
    (Host.divsi a (broadcastInDim S2080 ![] bcast_S_S2080 d))

/-- The divisor the remainder uses: one in place of zero. -/
def safeDivisor (d : IVec S_ 32) : IVec S_ 32 :=
  select (cmpi .eq (id d) (constantI S_ 32 0#32)) (constantI S_ 32 1#32) (id d)

/-- The remainder with the divisor's sign: the truncated remainder, plus the divisor where it is not
    zero and its sign differs from the divisor's. -/
def remainder (a : IVec S2080 32) (d : IVec S_ 32) : IVec S2080 32 :=
  select
    (andi
      (cmpi .ne
        (cmpi .slt (Host.remsi a (broadcastInDim S2080 ![] bcast_S_S2080 (safeDivisor d)))
          (broadcastInDim S2080 ![] bcast_S_S2080 (constantI S_ 32 0#32)))
        (broadcastInDim S2080 ![] bcast_S_S2080 (cmpi .slt (safeDivisor d) (constantI S_ 32 0#32))))
      (cmpi .ne (Host.remsi a (broadcastInDim S2080 ![] bcast_S_S2080 (safeDivisor d)))
        (broadcastInDim S2080 ![] bcast_S_S2080 (constantI S_ 32 0#32))))
    (addi (Host.remsi a (broadcastInDim S2080 ![] bcast_S_S2080 (safeDivisor d)))
      (broadcastInDim S2080 ![] bcast_S_S2080 (safeDivisor d)))
    (Host.remsi a (broadcastInDim S2080 ![] bcast_S_S2080 (safeDivisor d)))

/-- A negative index wrapped by 64. -/
def wrap64 (r : IVec S2080 32) : IVec S2080 32 :=
  select
    (cmpi .slt r (broadcastInDim S2080 ![] bcast_S_S2080 (constantI S_ 32 0#32)))
    (addi r (broadcastInDim S2080 ![] bcast_S_S2080 (constantI S_ 32 64#32)))
    r

/-- The row of each position: the flat address floor-divided by 64, modulo 64. -/
def rows : IVec S2080 32 :=
  wrap64 (remainder (floorDivide cum2 (constantI S_ 32 64#32)) (constantI S_ 32 64#32))

/-- The column of each position: the flat address floor-divided by 1, modulo 64. -/
def cols : IVec S2080 32 :=
  wrap64 (remainder (floorDivide cum2 (constantI S_ 32 1#32)) (constantI S_ 32 64#32))

/-- The table of (row, column) pairs. -/
def table : IVec S2080x2 32 :=
  concatenate S2080x2 1
    [⟨S2080x1, broadcastInDim S2080x1 ![0] bcast_S2080_S2080x1_0 rows⟩,
     ⟨S2080x1, broadcastInDim S2080x1 ![0] bcast_S2080_S2080x1_0 cols⟩]
    concatenates_S2080x1_S2080x1_S2080x2_d1

/-- The second layer written into a zero [16384, 64, 64] array at the table's pairs. -/
def scattered (e : FVec Ideal S16384x2080 .f32) : FVec Ideal S16384x64x64 .f32 :=
  Host.scatter scatter_S16384x64x64_S2080x2_S16384x2080_0_12_12_1 (fun _ b => b)
    (broadcastInDim S16384x64x64 ![] bcast_S_S16384x64x64 (constant (F := Ideal) S_ .f32 0x00000000#32))
    table e

/-- The batched product of a matrix with its transpose. -/
def gram (L : FVec Ideal S16384x64x64 .f32) : FVec Ideal S16384x64x64 .f32 :=
  Host.dotGeneral dot_S16384x64x64_S16384x64x64_S16384x64x64_2_1_1_2_0_0 none L
    (transpose S16384x64x64 [0, 2, 1] L transposes_S16384x64x64_S16384x64x64_0_2_1)

/-- ε times the identity, for every sample. -/
def eyeEps : FVec Ideal S16384x64x64 .f32 :=
  broadcastInDim S16384x64x64 ![0, 1, 2] bcast_S1x64x64_S16384x64x64_0_1_2
    (broadcastInDim S1x64x64 ![1, 2] bcast_S64x64_S1x64x64_1_2
      (mulf
        (broadcastInDim S64x64 ![] bcast_S_S64x64 (constant (F := Ideal) S_ .f32 0x358637BD#32))
        (uitofp (F := Ideal) .f32
          (cmpi .eq
            (addi (iotaInDim S64x64 32 0) (broadcastInDim S64x64 ![] bcast_S_S64x64 (constantI S_ 32 0#32)))
            (iotaInDim S64x64 32 1)))))

/-- The whole reference. -/
def result (x : FVec Ideal S16384x128 .f32) (W1 : FVec Ideal S128x128 .f32) (b1 : FVec Ideal S128 .f32)
    (W2 : FVec Ideal S2080x128 .f32) (b2 : FVec Ideal S2080 .f32) : FVec Ideal S16384x64x64 .f32 :=
  addf (gram (scattered (elements (h (z x W1 b1)) W2 b2))) eyeEps

end Cert.ReferenceIdeal.RefStages

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.LibAfterSegment.lean ====
import proofs.«162534_j14963666059944_2_alg».proof.Proof.LibAfterAssign

/-!
# Reading a long straight line of operations one SEGMENT at a time

A line of operations in single-assignment form (`WritesAre ops ws`: the `k`-th operation writes exactly the `k`-th
reference of `ws`) is cut at positions `k` and `k + n`. If no operation from position `k + n` on writes the reference
`y`, the whole line leaves at `y` what the `n` operations from position `k` leave there, run from the contents after the
first `k` operations (`after_segment`). Together with `after_take_at_unwritten` — a reference that no operation from
position `k` on writes holds after the first `k` operations what it holds at the end — a segment's own reading, "its
result is this function of what it found at these references", becomes an equation between the FINAL contents of its
result and the FINAL contents of the references it reads. The segments' equations can then be used in program order,
and no contents at an intermediate position are ever named.
-/

namespace Cert.Lib.AfterAssign

open Idealize.ShloMosaic Idealize.ShloMosaic.StableHlo

variable {τ : Topo} {sig : RefSig} {Val : EltTy → Type}

/-- If no operation from position `k + n` on writes `y`, the whole line leaves at `y` what the segment of `n`
    operations from position `k` leaves there, from the contents after the first `k` operations. -/
theorem after_segment {ops : List (HloOp τ sig Val)} {ws : List (Ref sig .tc)} (h : WritesAre ops ws)
    (k n : Nat) (V : Valuation τ sig Val) {y : Ref sig .tc} (hy : y ∉ ws.drop (k + n)) :
    after ops V (Proc.devRef .tc y)
      = after ((ops.drop k).take n) (after (ops.take k) V) (Proc.devRef .tc y) := by
  have e : after ops V = after (ops.drop (k + n)) (after ((ops.drop k).take n) (after (ops.take k) V)) := by
    rw [after_take_drop k ops V, after_take_drop n (ops.drop k) (after (ops.take k) V), List.drop_drop]
  rw [e]
  exact after_of_not_written (WritesAre.drop (k + n) h) _ hy

end Cert.Lib.AfterAssign
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.RefSegs.lean ====
import proofs.«162534_j14963666059944_2_alg».proof.Proof.RefRun
import proofs.«162534_j14963666059944_2_alg».proof.Proof.RefStages
import proofs.«162534_j14963666059944_2_alg».proof.Proof.LibAfterSegment
import proofs.«162534_j14963666059944_2_alg».proof.Proof.LibTypedRef

/-!
# The reference's line is in single-assignment form

Each of the 176 operations writes one buffer, and no two write the same one (`ws`, `writesAre`). The line can
therefore be read segment by segment: what a buffer holds at the end is what the segment that writes it leaves
there, computed from what the buffers it reads hold at the end.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.Lib.AfterAssign

variable {F : FTy → Type} [FloatOps F]

/-- The buffer each operation writes, in program order. -/
abbrev ws : List (Ref sig .tc) :=
  [ main_v0, main_v1, main_v2, main_v3, main_v4, main_call0_cst, main_call0_v0, main_call0_v1,
    main_call0_v2, main_call0_v3, main_call0_v4, main_call0_v5, main_call0_v6, main_call0_v7, main_call0_v8, main_call0_v9,
    main_call0_v10, main_call0_v11, main_v5, main_v6, main_v7, main_v8, main_v9, main_v10,
    main_cst, main_v11, main_call1_v0, main_call1_c, main_call1_v1, main_call1_v2, main_call1_v3, main_call1_v4,
    main_call1_cst, main_call1_v5, main_v12, main_cst_0, main_v13, main_v14, main_call2_v0, main_call2_v1,
    main_call2_call0_c, main_call2_call0_v0, main_v15, main_c, main_v16, main_c_1, main_call3_v0, main_call3_v1,
    main_v17, main_c_2, main_v18, main_v19, main_c_3, main_v20, main_v21, main_v22,
    main_v23, main_c_4, main_v24, main_v25, main_call4_call0_c, main_call4_call0_v0, main_v26, main_c_5,
    main_call5_v0, main_call5_v1, main_call5_v2, main_call5_v3, main_call5_v4, main_call5_v5, main_call5_v6, main_call5_v7,
    main_call5_c, main_call5_v8, main_call5_v9, main_call5_v10, main_call5_c_0, main_call5_v11, main_call5_v12, main_v27,
    main_c_6, main_call6_v0, main_call6_c, main_call6_v1, main_call6_c_0, main_call6_v2, main_call6_v3, main_call6_v4,
    main_call6_c_1, main_call6_v5, main_call6_v6, main_call6_c_2, main_call6_v7, main_call6_v8, main_call6_c_3, main_call6_v9,
    main_call6_v10, main_call6_v11, main_call6_v12, main_call6_v13, main_call6_v14, main_v28, main_c_7, main_call7_v0,
    main_call7_v1, main_call7_v2, main_call7_v3, main_call7_v4, main_call7_v5, main_call7_v6, main_call7_v7, main_call7_c,
    main_call7_v8, main_call7_v9, main_call7_v10, main_call7_c_0, main_call7_v11, main_call7_v12, main_v29, main_c_8,
    main_call8_v0, main_call8_c, main_call8_v1, main_call8_c_0, main_call8_v2, main_call8_v3, main_call8_v4, main_call8_c_1,
    main_call8_v5, main_call8_v6, main_call8_c_2, main_call8_v7, main_call8_v8, main_call8_c_3, main_call8_v9, main_call8_v10,
    main_call8_v11, main_call8_v12, main_call8_v13, main_call8_v14, main_v30, main_cst_9, main_v31, main_c_10,
    main_v32, main_v33, main_c_11, main_v34, main_v35, main_v36, main_c_12, main_v37,
    main_v38, main_c_13, main_v39, main_v40, main_v41, main_v42, main_v43, main_v44,
    main_v45, main_v46, main_v47, main_v48, main_v49, main_c_14, main_v50, main_v51,
    main_v52, main_v53, main_cst_15, main_v54, main_v55, main_v56, main_v57, main_v58 ]

/-- Operation `k` writes exactly buffer `k` of `ws`. -/
theorem writesAre : WritesAre (ops (F := F)) ws :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, trivial⟩

/-- Operations 0 … 4. -/
abbrev seg_z : List (HloOp τ sig (Elt F)) :=
  [ StableHlo.unary main_arg1 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg2 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S16384x128 ![0, 1] bcast_S1x128_S16384x128_0_1 : (⟨S1x128, .f32⟩ : BufTy).Contents (Elt F) → (⟨S16384x128, .f32⟩ : BufTy).Contents (Elt F)),
    StableHlo.binary main_v1 main_v3 main_v4 (addf : (⟨S16384x128, .f32⟩ : BufTy).Contents (Elt F) → (⟨S16384x128, .f32⟩ : BufTy).Contents (Elt F) → (⟨S16384x128, .f32⟩ : BufTy).Contents (Elt F)) ]
theorem seg_z_eq : ((ops (F := F)).drop 0).take 5 = seg_z := rfl

/-- Operations 5 … 18. -/
abbrev seg_h : List (HloOp τ sig (Elt F)) :=
  [ StableHlo.TRef.nullary main_call0.cst (constant S_ .f32 0x00000000#32),
    StableHlo.TRef.unary main_call0.cst main_call0.v0 (broadcastInDim S16384x128 ![] bcast_S_S16384x128),
    StableHlo.TRef.binary (.of main_v4 : StableHlo.TRef sig ⟨S16384x128, .f32⟩) main_call0.v0 main_call0.v1 maximumf,
    StableHlo.TRef.unary main_call0.cst main_call0.v2 (broadcastInDim S16384x128 ![] bcast_S_S16384x128),
    StableHlo.TRef.binary (.of main_v4 : StableHlo.TRef sig ⟨S16384x128, .f32⟩) main_call0.v2 main_call0.v3 subf,
    StableHlo.TRef.binary main_call0.v3 main_call0.v3 main_call0.v4 (cmpf .une),
    StableHlo.TRef.unary main_call0.cst main_call0.v5 (broadcastInDim S16384x128 ![] bcast_S_S16384x128),
    StableHlo.TRef.binary (.of main_v4 : StableHlo.TRef sig ⟨S16384x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select ]
theorem seg_h_eq : ((ops (F := F)).drop 5).take 14 = seg_h := rfl

/-- Operations 19 … 23. -/
abbrev seg_elements : List (HloOp τ sig (Elt F)) :=
  [ StableHlo.unary main_arg3 main_v6 ((transpose S128x2080 [1, 0] · transposes_S2080x128_S128x2080_1_0) : (⟨S2080x128, .f32⟩ : BufTy).Contents (Elt F) → (⟨S128x2080, .f32⟩ : BufTy).Contents (Elt F)),
    StableHlo.binary main_v5 main_v6 main_v7 ((fun l r => Host.dotGeneral dot_S16384x128_S128x2080_S16384x2080_1_0_0_1_n_n none l r) : (⟨S16384x128, .f32⟩ : BufTy).Contents (Elt F) → (⟨S128x2080, .f32⟩ : BufTy).Contents (Elt F) → (⟨S16384x2080, .f32⟩ : BufTy).Contents (Elt F)),
    StableHlo.unary main_arg4 main_v8 (broadcastInDim S1x2080 ![1] bcast_S2080_S1x2080_1 : (⟨S2080, .f32⟩ : BufTy).Contents (Elt F) → (⟨S1x2080, .f32⟩ : BufTy).Contents (Elt F)),
    StableHlo.unary main_v8 main_v9 (broadcastInDim S16384x2080 ![0, 1] bcast_S1x2080_S16384x2080_0_1 : (⟨S1x2080, .f32⟩ : BufTy).Contents (Elt F) → (⟨S16384x2080, .f32⟩ : BufTy).Contents (Elt F)),
    StableHlo.binary main_v7 main_v9 main_v10 (addf : (⟨S16384x2080, .f32⟩ : BufTy).Contents (Elt F) → (⟨S16384x2080, .f32⟩ : BufTy).Contents (Elt F) → (⟨S16384x2080, .f32⟩ : BufTy).Contents (Elt F)) ]
theorem seg_elements_eq : ((ops (F := F)).drop 19).take 5 = seg_elements := rfl

/-- Operations 24 … 37. -/
abbrev seg_mask : List (HloOp τ sig (Elt F)) :=
  [ StableHlo.nullary main_cst (constant S_ .f32 0x3F800000#32),
    StableHlo.unary main_cst main_v11 (broadcastInDim S64x64 ![] bcast_S_S64x64 : (⟨S_, .f32⟩ : BufTy).Contents (Elt F) → (⟨S64x64, .f32⟩ : BufTy).Contents (Elt F)),
    StableHlo.TRef.nullary main_call1.v0 (iotaInDim S64x64 32 0),
    StableHlo.TRef.nullary main_call1.c (constantI S_ 32 0#32),
    StableHlo.TRef.unary main_call1.c main_call1.v1 (broadcastInDim S64x64 ![] bcast_S_S64x64),
    StableHlo.TRef.binary main_call1.v0 main_call1.v1 main_call1.v2 addi,
    StableHlo.TRef.nullary main_call1.v3 (iotaInDim S64x64 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S64x64 ![] bcast_S_S64x64),
    StableHlo.TRef.ternary main_call1.v4 (.of main_v11 : StableHlo.TRef sig ⟨S64x64, .f32⟩) main_call1.v5 main_call1.v6 select,
    StableHlo.nullary main_cst_0 (constant S_ .f32 0x00000000#32),
    StableHlo.unary main_cst_0 main_v13 (broadcastInDim S64x64 ![] bcast_S_S64x64 : (⟨S_, .f32⟩ : BufTy).Contents (Elt F) → (⟨S64x64, .f32⟩ : BufTy).Contents (Elt F)),
    StableHlo.binary main_v12 main_v13 main_v14 (cmpf .une : (⟨S64x64, .f32⟩ : BufTy).Contents (Elt F) → (⟨S64x64, .f32⟩ : BufTy).Contents (Elt F) → (⟨S64x64, .i1⟩ : BufTy).Contents (Elt F)) ]
theorem seg_mask_eq : ((ops (F := F)).drop 24).take 14 = seg_mask := rfl

/-- Operations 38 … 42. -/
abbrev seg_cum1 : List (HloOp τ sig (Elt F)) :=
  [ StableHlo.TRef.reshape (.of main_v14 : StableHlo.TRef sig ⟨S64x64, .i1⟩) main_call2.v0 rfl shapeCasts_S64x64_S4096,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![4096] ![1] ![4095] ![0] x v reduceWindows_S4096_S4096_w4096s1p4095_0 h_S_) ]
theorem seg_cum1_eq : ((ops (F := F)).drop 38).take 5 = seg_cum1 := rfl

/-- Operations 43 … 59. -/
abbrev seg_counts : List (HloOp τ sig (Elt F)) :=
  [ StableHlo.nullary main_c (constantI S_ 32 0#32),
    StableHlo.unary main_c main_v16 (broadcastInDim S2080 ![] bcast_S_S2080 : (⟨S_, .i32⟩ : BufTy).Contents (Elt F) → (⟨S2080, .i32⟩ : BufTy).Contents (Elt F)),
    StableHlo.nullary main_c_1 (constantI S_ 32 0#32),
    StableHlo.TRef.unary (.of main_c_1 : StableHlo.TRef sig ⟨S_, .i32⟩) main_call3.v0 id,
    StableHlo.TRef.unary main_call3.v0 main_call3.v1 (broadcastInDim S4096 ![] bcast_S_S4096),
    StableHlo.TRef.binary main_call3.v1 (.of main_v15 : StableHlo.TRef sig ⟨S4096, .i32⟩) main_call3.v2 maxsi,
    StableHlo.nullary main_c_2 (constantI S_ 32 0#32),
    StableHlo.unary main_c_2 main_v18 (broadcastInDim S4096 ![] bcast_S_S4096 : (⟨S_, .i32⟩ : BufTy).Contents (Elt F) → (⟨S4096, .i32⟩ : BufTy).Contents (Elt F)),
    StableHlo.binary main_v17 main_v18 main_v19 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2080#32),
    StableHlo.unary main_c_3 main_v20 (broadcastInDim S4096 ![] bcast_S_S4096 : (⟨S_, .i32⟩ : BufTy).Contents (Elt F) → (⟨S4096, .i32⟩ : BufTy).Contents (Elt F)),
    StableHlo.binary main_v17 main_v20 main_v21 (addi : (⟨S4096, .i32⟩ : BufTy).Contents (Elt F) → (⟨S4096, .i32⟩ : BufTy).Contents (Elt F) → (⟨S4096, .i32⟩ : BufTy).Contents (Elt F)),
    StableHlo.ternary main_v19 main_v21 main_v17 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v22 main_v23 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v24 (broadcastInDim S4096 ![] bcast_S_S4096 : (⟨S_, .i32⟩ : BufTy).Contents (Elt F) → (⟨S4096, .i32⟩ : BufTy).Contents (Elt F)),
    StableHlo.ternary main_v16 main_v23 main_v24 main_v25 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)) ]
theorem seg_counts_eq : ((ops (F := F)).drop 43).take 17 = seg_counts := rfl

/-- Operations 60 … 62. -/
abbrev seg_cum2 : List (HloOp τ sig (Elt F)) :=
  [ StableHlo.TRef.nullary main_call4.call0.c (constantI S_ 32 0#32),
    StableHlo.TRef.unary main_call4.call0.c main_call4.call0.v0 (broadcastInDim S_ ![] bcast_S_S_),
    StableHlo.TRef.binary (.of main_v25 : StableHlo.TRef sig ⟨S2080, .i32⟩) main_call4.call0.v0 main_call4.call0.v1 (fun x v => Host.reduceWindow IntOp.addi ![2080] ![1] ![2079] ![0] x v reduceWindows_S2080_S2080_w2080s1p2079_0 h_S_) ]
theorem seg_cum2_eq : ((ops (F := F)).drop 60).take 3 = seg_cum2 := rfl

/-- Operations 63 … 79. -/
abbrev seg_fd1 : List (HloOp τ sig (Elt F)) :=
  [ StableHlo.nullary main_c_5 (constantI S_ 32 64#32),
    StableHlo.TRef.unary (.of main_c_5 : StableHlo.TRef sig ⟨S_, .i32⟩) main_call5.v0 (broadcastInDim S2080 ![] bcast_S_S2080),
    StableHlo.TRef.binary (.of main_v26 : StableHlo.TRef sig ⟨S2080, .i32⟩) main_call5.v0 main_call5.v1 Host.divsi,
    StableHlo.TRef.unary (.of main_v26 : StableHlo.TRef sig ⟨S2080, .i32⟩) main_call5.v2 signi,
    StableHlo.TRef.unary (.of main_c_5 : StableHlo.TRef sig ⟨S_, .i32⟩) main_call5.v3 signi,
    StableHlo.TRef.unary main_call5.v3 main_call5.v4 (broadcastInDim S2080 ![] bcast_S_S2080),
    StableHlo.TRef.binary main_call5.v2 main_call5.v4 main_call5.v5 (cmpi .ne),
    StableHlo.TRef.unary (.of main_c_5 : StableHlo.TRef sig ⟨S_, .i32⟩) main_call5.v6 (broadcastInDim S2080 ![] bcast_S_S2080),
    StableHlo.TRef.binary (.of main_v26 : StableHlo.TRef sig ⟨S2080, .i32⟩) main_call5.v6 main_call5.v7 Host.remsi,
    StableHlo.TRef.nullary main_call5.c (constantI S_ 32 0#32),
    StableHlo.TRef.unary main_call5.c main_call5.v8 (broadcastInDim S2080 ![] bcast_S_S2080),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S2080 ![] bcast_S_S2080),
    StableHlo.TRef.binary main_call5.v1 main_call5.v11 main_call5.v12 subi,
    StableHlo.TRef.ternary main_call5.v10 main_call5.v12 main_call5.v1 main_call5.call0.v0 select ]
theorem seg_fd1_eq : ((ops (F := F)).drop 63).take 17 = seg_fd1 := rfl

/-- Operations 80 … 101. -/
abbrev seg_rem1 : List (HloOp τ sig (Elt F)) :=
  [ StableHlo.nullary main_c_6 (constantI S_ 32 64#32),
    StableHlo.TRef.unary (.of main_c_6 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S2080 ![] bcast_S_S2080),
    StableHlo.TRef.binary (.of main_v27 : StableHlo.TRef sig ⟨S2080, .i32⟩) main_call6.v3 main_call6.v4 Host.remsi,
    StableHlo.TRef.nullary main_call6.c_1 (constantI S_ 32 0#32),
    StableHlo.TRef.unary main_call6.c_1 main_call6.v5 (broadcastInDim S2080 ![] bcast_S_S2080),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S2080 ![] bcast_S_S2080),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S2080 ![] bcast_S_S2080),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S2080 ![] bcast_S_S2080),
    StableHlo.TRef.binary main_call6.v4 main_call6.v13 main_call6.v14 addi,
    StableHlo.TRef.ternary main_call6.v12 main_call6.v14 main_call6.v4 main_call6.v15 select ]
theorem seg_rem1_eq : ((ops (F := F)).drop 80).take 22 = seg_rem1 := rfl

/-- Operations 102 … 118. -/
abbrev seg_fd2 : List (HloOp τ sig (Elt F)) :=
  [ StableHlo.nullary main_c_7 (constantI S_ 32 1#32),
    StableHlo.TRef.unary (.of main_c_7 : StableHlo.TRef sig ⟨S_, .i32⟩) main_call7.v0 (broadcastInDim S2080 ![] bcast_S_S2080),
    StableHlo.TRef.binary (.of main_v26 : StableHlo.TRef sig ⟨S2080, .i32⟩) main_call7.v0 main_call7.v1 Host.divsi,
    StableHlo.TRef.unary (.of main_v26 : StableHlo.TRef sig ⟨S2080, .i32⟩) main_call7.v2 signi,
    StableHlo.TRef.unary (.of main_c_7 : StableHlo.TRef sig ⟨S_, .i32⟩) main_call7.v3 signi,
    StableHlo.TRef.unary main_call7.v3 main_call7.v4 (broadcastInDim S2080 ![] bcast_S_S2080),
    StableHlo.TRef.binary main_call7.v2 main_call7.v4 main_call7.v5 (cmpi .ne),
    StableHlo.TRef.unary (.of main_c_7 : StableHlo.TRef sig ⟨S_, .i32⟩) main_call7.v6 (broadcastInDim S2080 ![] bcast_S_S2080),
    StableHlo.TRef.binary (.of main_v26 : StableHlo.TRef sig ⟨S2080, .i32⟩) main_call7.v6 main_call7.v7 Host.remsi,
    StableHlo.TRef.nullary main_call7.c (constantI S_ 32 0#32),
    StableHlo.TRef.unary main_call7.c main_call7.v8 (broadcastInDim S2080 ![] bcast_S_S2080),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S2080 ![] bcast_S_S2080),
    StableHlo.TRef.binary main_call7.v1 main_call7.v11 main_call7.v12 subi,
    StableHlo.TRef.ternary main_call7.v10 main_call7.v12 main_call7.v1 main_call7.call0.v0 select ]
theorem seg_fd2_eq : ((ops (F := F)).drop 102).take 17 = seg_fd2 := rfl

/-- Operations 119 … 140. -/
abbrev seg_rem2 : List (HloOp τ sig (Elt F)) :=
  [ StableHlo.nullary main_c_8 (constantI S_ 32 64#32),
    StableHlo.TRef.unary (.of main_c_8 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S2080 ![] bcast_S_S2080),
    StableHlo.TRef.binary (.of main_v29 : StableHlo.TRef sig ⟨S2080, .i32⟩) main_call8.v3 main_call8.v4 Host.remsi,
    StableHlo.TRef.nullary main_call8.c_1 (constantI S_ 32 0#32),
    StableHlo.TRef.unary main_call8.c_1 main_call8.v5 (broadcastInDim S2080 ![] bcast_S_S2080),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S2080 ![] bcast_S_S2080),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S2080 ![] bcast_S_S2080),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S2080 ![] bcast_S_S2080),
    StableHlo.TRef.binary main_call8.v4 main_call8.v13 main_call8.v14 addi,
    StableHlo.TRef.ternary main_call8.v12 main_call8.v14 main_call8.v4 main_call8.v15 select ]
theorem seg_rem2_eq : ((ops (F := F)).drop 119).take 22 = seg_rem2 := rfl

/-- Operations 141 … 160. -/
abbrev seg_scattered : List (HloOp τ sig (Elt F)) :=
  [ StableHlo.nullary main_cst_9 (constant S_ .f32 0x00000000#32),
    StableHlo.unary main_cst_9 main_v31 (broadcastInDim S16384x64x64 ![] bcast_S_S16384x64x64 : (⟨S_, .f32⟩ : BufTy).Contents (Elt F) → (⟨S16384x64x64, .f32⟩ : BufTy).Contents (Elt F)),
    StableHlo.nullary main_c_10 (constantI S_ 32 0#32),
    StableHlo.unary main_c_10 main_v32 (broadcastInDim S2080 ![] bcast_S_S2080 : (⟨S_, .i32⟩ : BufTy).Contents (Elt F) → (⟨S2080, .i32⟩ : BufTy).Contents (Elt F)),
    StableHlo.binary main_v28 main_v32 main_v33 (cmpi .slt : (⟨S2080, .i32⟩ : BufTy).Contents (Elt F) → (⟨S2080, .i32⟩ : BufTy).Contents (Elt F) → (⟨S2080, .i1⟩ : BufTy).Contents (Elt F)),
    StableHlo.nullary main_c_11 (constantI S_ 32 64#32),
    StableHlo.unary main_c_11 main_v34 (broadcastInDim S2080 ![] bcast_S_S2080 : (⟨S_, .i32⟩ : BufTy).Contents (Elt F) → (⟨S2080, .i32⟩ : BufTy).Contents (Elt F)),
    StableHlo.binary main_v28 main_v34 main_v35 (addi : (⟨S2080, .i32⟩ : BufTy).Contents (Elt F) → (⟨S2080, .i32⟩ : BufTy).Contents (Elt F) → (⟨S2080, .i32⟩ : BufTy).Contents (Elt F)),
    StableHlo.ternary main_v33 main_v35 main_v28 main_v36 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.nullary main_c_12 (constantI S_ 32 0#32),
    StableHlo.unary main_c_12 main_v37 (broadcastInDim S2080 ![] bcast_S_S2080 : (⟨S_, .i32⟩ : BufTy).Contents (Elt F) → (⟨S2080, .i32⟩ : BufTy).Contents (Elt F)),
    StableHlo.binary main_v30 main_v37 main_v38 (cmpi .slt : (⟨S2080, .i32⟩ : BufTy).Contents (Elt F) → (⟨S2080, .i32⟩ : BufTy).Contents (Elt F) → (⟨S2080, .i1⟩ : BufTy).Contents (Elt F)),
    StableHlo.nullary main_c_13 (constantI S_ 32 64#32),
    StableHlo.unary main_c_13 main_v39 (broadcastInDim S2080 ![] bcast_S_S2080 : (⟨S_, .i32⟩ : BufTy).Contents (Elt F) → (⟨S2080, .i32⟩ : BufTy).Contents (Elt F)),
    StableHlo.binary main_v30 main_v39 main_v40 (addi : (⟨S2080, .i32⟩ : BufTy).Contents (Elt F) → (⟨S2080, .i32⟩ : BufTy).Contents (Elt F) → (⟨S2080, .i32⟩ : BufTy).Contents (Elt F)),
    StableHlo.ternary main_v38 main_v40 main_v30 main_v41 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v36 main_v42 (broadcastInDim S2080x1 ![0] bcast_S2080_S2080x1_0 : (⟨S2080, .i32⟩ : BufTy).Contents (Elt F) → (⟨S2080x1, .i32⟩ : BufTy).Contents (Elt F)),
    StableHlo.unary main_v41 main_v43 (broadcastInDim S2080x1 ![0] bcast_S2080_S2080x1_0 : (⟨S2080, .i32⟩ : BufTy).Contents (Elt F) → (⟨S2080x1, .i32⟩ : BufTy).Contents (Elt F)),
    StableHlo.binary main_v42 main_v43 main_v44 ((fun a b => concatenate S2080x2 1 [⟨S2080x1, a⟩, ⟨S2080x1, b⟩] concatenates_S2080x1_S2080x1_S2080x2_d1) : (⟨S2080x1, .i32⟩ : BufTy).Contents (Elt F) → (⟨S2080x1, .i32⟩ : BufTy).Contents (Elt F) → (⟨S2080x2, .i32⟩ : BufTy).Contents (Elt F)),
    StableHlo.ternary main_v31 main_v44 main_v10 main_v45 ((fun x i u => Host.scatter scatter_S16384x64x64_S2080x2_S16384x2080_0_12_12_1 (fun _ b => b) x i u) : (⟨S16384x64x64, .f32⟩ : BufTy).Contents (Elt F) → (⟨S2080x2, .i32⟩ : BufTy).Contents (Elt F) → (⟨S16384x2080, .f32⟩ : BufTy).Contents (Elt F) → (⟨S16384x64x64, .f32⟩ : BufTy).Contents (Elt F)) ]
theorem seg_scattered_eq : ((ops (F := F)).drop 141).take 20 = seg_scattered := rfl

/-- Operations 161 … 175. -/
abbrev seg_result : List (HloOp τ sig (Elt F)) :=
  [ StableHlo.unary main_v45 main_v46 ((transpose S16384x64x64 [0, 2, 1] · transposes_S16384x64x64_S16384x64x64_0_2_1) : (⟨S16384x64x64, .f32⟩ : BufTy).Contents (Elt F) → (⟨S16384x64x64, .f32⟩ : BufTy).Contents (Elt F)),
    StableHlo.binary main_v45 main_v46 main_v47 ((fun l r => Host.dotGeneral dot_S16384x64x64_S16384x64x64_S16384x64x64_2_1_1_2_0_0 none l r) : (⟨S16384x64x64, .f32⟩ : BufTy).Contents (Elt F) → (⟨S16384x64x64, .f32⟩ : BufTy).Contents (Elt F) → (⟨S16384x64x64, .f32⟩ : BufTy).Contents (Elt F)),
    StableHlo.nullary main_v48 (iotaInDim S64x64 32 0),
    StableHlo.nullary main_v49 (iotaInDim S64x64 32 1),
    StableHlo.nullary main_c_14 (constantI S_ 32 0#32),
    StableHlo.unary main_c_14 main_v50 (broadcastInDim S64x64 ![] bcast_S_S64x64 : (⟨S_, .i32⟩ : BufTy).Contents (Elt F) → (⟨S64x64, .i32⟩ : BufTy).Contents (Elt F)),
    StableHlo.binary main_v48 main_v50 main_v51 (addi : (⟨S64x64, .i32⟩ : BufTy).Contents (Elt F) → (⟨S64x64, .i32⟩ : BufTy).Contents (Elt F) → (⟨S64x64, .i32⟩ : BufTy).Contents (Elt F)),
    StableHlo.binary main_v51 main_v49 main_v52 (cmpi .eq : (⟨S64x64, .i32⟩ : BufTy).Contents (Elt F) → (⟨S64x64, .i32⟩ : BufTy).Contents (Elt F) → (⟨S64x64, .i1⟩ : BufTy).Contents (Elt F)),
    StableHlo.unary main_v52 main_v53 (uitofp .f32 : (⟨S64x64, .i1⟩ : BufTy).Contents (Elt F) → (⟨S64x64, .f32⟩ : BufTy).Contents (Elt F)),
    StableHlo.nullary main_cst_15 (constant S_ .f32 0x358637BD#32),
    StableHlo.unary main_cst_15 main_v54 (broadcastInDim S64x64 ![] bcast_S_S64x64 : (⟨S_, .f32⟩ : BufTy).Contents (Elt F) → (⟨S64x64, .f32⟩ : BufTy).Contents (Elt F)),
    StableHlo.binary main_v54 main_v53 main_v55 (mulf : (⟨S64x64, .f32⟩ : BufTy).Contents (Elt F) → (⟨S64x64, .f32⟩ : BufTy).Contents (Elt F) → (⟨S64x64, .f32⟩ : BufTy).Contents (Elt F)),
    StableHlo.unary main_v55 main_v56 (broadcastInDim S1x64x64 ![1, 2] bcast_S64x64_S1x64x64_1_2 : (⟨S64x64, .f32⟩ : BufTy).Contents (Elt F) → (⟨S1x64x64, .f32⟩ : BufTy).Contents (Elt F)),
    StableHlo.unary main_v56 main_v57 (broadcastInDim S16384x64x64 ![0, 1, 2] bcast_S1x64x64_S16384x64x64_0_1_2 : (⟨S1x64x64, .f32⟩ : BufTy).Contents (Elt F) → (⟨S16384x64x64, .f32⟩ : BufTy).Contents (Elt F)),
    StableHlo.binary main_v47 main_v57 main_v58 (addf : (⟨S16384x64x64, .f32⟩ : BufTy).Contents (Elt F) → (⟨S16384x64x64, .f32⟩ : BufTy).Contents (Elt F) → (⟨S16384x64x64, .f32⟩ : BufTy).Contents (Elt F)) ]
theorem seg_result_eq : ((ops (F := F)).drop 161).take 15 = seg_result := rfl

end Cert.ReferenceIdeal.RefRun

end
-- ==== Proof.RefRead.lean ====
import proofs.«162534_j14963666059944_2_alg».proof.Proof.RefSegs

/-!
# The reference's result, read back stage by stage

What each stage's result buffer holds after the whole line, as that stage's function of what the buffers it reads
hold after the whole line. Each equation is read off the segment of operations that computes the stage: the segment's
fold at its result buffer is rewritten, operation by operation, to the operation's function of its operands' contents,
and the operands the segment does not itself write hold what they hold at the end (single assignment).
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.Lib.AfterAssign

/- The operations' own functions are kept folded while two readings of a stage are compared: the comparison never looks
   inside them (the two sides apply the same functions to the same arguments), and only has to see that a typed
   reference's transport of contents along a proof that the two types are the same is the identity. -/
attribute [local irreducible] Host.reduceWindow Host.scatter Ideal.matmul Host.divsi Host.remsi Host.exp Host.log1p Host.absf
  Host.negf transpose broadcastInDim shapeCast concatenate select cmpi cmpf addi subi andi maxsi signi extui uitofp iotaInDim
  constantI constant addf mulf subf maximumf

/-- The rewriting loop that finishes what one simplification pass leaves unread (an operand placed inside a dependent
    pair, where the pass does not rewrite): each operation's result at its own buffer is its function of its operands'
    contents, and at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- An argument buffer is written by no operation: it holds at the end what it held at the start. -/
theorem read_arg (V : Valuation τ sig (Elt Ideal)) {r : Ref sig .tc} (hr : r ∉ ws) :
    after ops V (Proc.devRef .tc r) = V (Proc.devRef .tc r) :=
  after_of_not_written (writesAre (F := Ideal)) V hr
theorem read_arg0 (V : Valuation τ sig (Elt Ideal)) : after ops V (Proc.devRef .tc main_arg0) = V (Proc.devRef .tc main_arg0) := read_arg V (by decide)
theorem read_arg1 (V : Valuation τ sig (Elt Ideal)) : after ops V (Proc.devRef .tc main_arg1) = V (Proc.devRef .tc main_arg1) := read_arg V (by decide)
theorem read_arg2 (V : Valuation τ sig (Elt Ideal)) : after ops V (Proc.devRef .tc main_arg2) = V (Proc.devRef .tc main_arg2) := read_arg V (by decide)
theorem read_arg3 (V : Valuation τ sig (Elt Ideal)) : after ops V (Proc.devRef .tc main_arg3) = V (Proc.devRef .tc main_arg3) := read_arg V (by decide)
theorem read_arg4 (V : Valuation τ sig (Elt Ideal)) : after ops V (Proc.devRef .tc main_arg4) = V (Proc.devRef .tc main_arg4) := read_arg V (by decide)

/-- The first layer before its activation, of the arguments. -/
theorem read_z (V : Valuation τ sig (Elt Ideal)) :
    after ops V (Proc.devRef .tc main_v4) = RefStages.z (V (Proc.devRef .tc main_arg0)) (V (Proc.devRef .tc main_arg1)) (V (Proc.devRef .tc main_arg2)) := by
  have e := after_segment (writesAre (F := Ideal)) 0 5 V (y := main_v4) (by decide)
  rw [seg_z_eq] at e
  rw [e]
  simp (disch := decide) only [seg_z, after_cons, after_nil, nullary_result', unary_result', binary_result', ternary_result', reshape_result', nullary_result_ne', unary_result_ne', binary_result_ne', ternary_result_ne', reshape_result_ne', Cert.Lib.TypedRef.ofBuf_toBuf]
  rfl

/-- The activation, of the first layer. -/
theorem read_h (V : Valuation τ sig (Elt Ideal)) :
    after ops V (Proc.devRef .tc main_v5) = RefStages.h (after ops V (Proc.devRef .tc main_v4)) := by
  have e := after_segment (writesAre (F := Ideal)) 5 14 V (y := main_v5) (by decide)
  rw [seg_h_eq] at e
  rw [e]
  simp (disch := decide) only [seg_h, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 5 V (a := main_v4) (by decide)]
  rfl

/-- The second layer, of the activation and the arguments. -/
theorem read_elements (V : Valuation τ sig (Elt Ideal)) :
    after ops V (Proc.devRef .tc main_v10) = RefStages.elements (after ops V (Proc.devRef .tc main_v5)) (after ops V (Proc.devRef .tc main_arg3)) (after ops V (Proc.devRef .tc main_arg4)) := by
  have e := after_segment (writesAre (F := Ideal)) 19 5 V (y := main_v10) (by decide)
  rw [seg_elements_eq] at e
  rw [e]
  simp (disch := decide) only [seg_elements, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 19 V (a := main_v5) (by decide),
    after_take_at_unwritten (writesAre (F := Ideal)) 19 V (a := main_arg3) (by decide),
    after_take_at_unwritten (writesAre (F := Ideal)) 19 V (a := main_arg4) (by decide)]
  rfl

/-- The mask of the lower triangle: of no argument. -/
theorem read_mask (V : Valuation τ sig (Elt Ideal)) :
    after ops V (Proc.devRef .tc main_v14) = RefStages.mask := by
  have e := after_segment (writesAre (F := Ideal)) 24 14 V (y := main_v14) (by decide)
  rw [seg_mask_eq] at e
  rw [e]
  simp (disch := decide) only [seg_mask, after_cons, after_nil, nullary_result', unary_result', binary_result', ternary_result', reshape_result', nullary_result_ne', unary_result_ne', binary_result_ne', ternary_result_ne', reshape_result_ne', Cert.Lib.TypedRef.ofBuf_toBuf]
  rfl

/-- The running count of the mask. -/
theorem read_cum1 (V : Valuation τ sig (Elt Ideal)) :
    after ops V (Proc.devRef .tc main_v15) = RefStages.cum1 := by
  have e := after_segment (writesAre (F := Ideal)) 38 5 V (y := main_v15) (by decide)
  rw [seg_cum1_eq] at e
  rw [e]
  simp (disch := decide) only [seg_cum1, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 38 V (a := main_v14) (by decide)]
  rw [read_mask V]
  rfl

/-- The number of flat addresses per running count. -/
theorem read_counts (V : Valuation τ sig (Elt Ideal)) :
    after ops V (Proc.devRef .tc main_v25) = RefStages.counts := by
  have e := after_segment (writesAre (F := Ideal)) 43 17 V (y := main_v25) (by decide)
  rw [seg_counts_eq] at e
  rw [e]
  simp (disch := decide) only [seg_counts, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 43 V (a := main_v15) (by decide)]
  rw [read_cum1 V]
  rfl

/-- The running count of the counts: each position's flat address. -/
theorem read_cum2 (V : Valuation τ sig (Elt Ideal)) :
    after ops V (Proc.devRef .tc main_v26) = RefStages.cum2 := by
  have e := after_segment (writesAre (F := Ideal)) 60 3 V (y := main_v26) (by decide)
  rw [seg_cum2_eq] at e
  rw [e]
  simp (disch := decide) only [seg_cum2, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 60 V (a := main_v25) (by decide)]
  rw [read_counts V]
  rfl

/-- The flat addresses floor-divided by 64. -/
theorem read_fd1 (V : Valuation τ sig (Elt Ideal)) :
    after ops V (Proc.devRef .tc main_v27) = RefStages.floorDivide RefStages.cum2 (constantI S_ 32 64#32) := by
  have e := after_segment (writesAre (F := Ideal)) 63 17 V (y := main_v27) (by decide)
  rw [seg_fd1_eq] at e
  rw [e]
  simp (disch := decide) only [seg_fd1, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 63 V (a := main_v26) (by decide)]
  rw [read_cum2 V]
  rfl

/-- … and then taken modulo 64. -/
theorem read_rem1 (V : Valuation τ sig (Elt Ideal)) :
    after ops V (Proc.devRef .tc main_v28) = RefStages.remainder (RefStages.floorDivide RefStages.cum2 (constantI S_ 32 64#32)) (constantI S_ 32 64#32) := by
  have e := after_segment (writesAre (F := Ideal)) 80 22 V (y := main_v28) (by decide)
  rw [seg_rem1_eq] at e
  rw [e]
  simp (disch := decide) only [seg_rem1, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 80 V (a := main_v27) (by decide)]
  rw [read_fd1 V]
  rfl

/-- The flat addresses floor-divided by 1. -/
theorem read_fd2 (V : Valuation τ sig (Elt Ideal)) :
    after ops V (Proc.devRef .tc main_v29) = RefStages.floorDivide RefStages.cum2 (constantI S_ 32 1#32) := by
  have e := after_segment (writesAre (F := Ideal)) 102 17 V (y := main_v29) (by decide)
  rw [seg_fd2_eq] at e
  rw [e]
  simp (disch := decide) only [seg_fd2, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 102 V (a := main_v26) (by decide)]
  rw [read_cum2 V]
  rfl

/-- … and then taken modulo 64. -/
theorem read_rem2 (V : Valuation τ sig (Elt Ideal)) :
    after ops V (Proc.devRef .tc main_v30) = RefStages.remainder (RefStages.floorDivide RefStages.cum2 (constantI S_ 32 1#32)) (constantI S_ 32 64#32) := by
  have e := after_segment (writesAre (F := Ideal)) 119 22 V (y := main_v30) (by decide)
  rw [seg_rem2_eq] at e
  rw [e]
  simp (disch := decide) only [seg_rem2, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 119 V (a := main_v29) (by decide)]
  rw [read_fd2 V]
  rfl

/-- The second layer written into the zero array at the table's (row, column) pairs. -/
theorem read_scattered (V : Valuation τ sig (Elt Ideal)) :
    after ops V (Proc.devRef .tc main_v45) = RefStages.scattered (after ops V (Proc.devRef .tc main_v10)) := by
  have e := after_segment (writesAre (F := Ideal)) 141 20 V (y := main_v45) (by decide)
  rw [seg_scattered_eq] at e
  rw [e]
  simp (disch := decide) only [seg_scattered, after_cons, after_nil, nullary_result', unary_result', binary_result', ternary_result', reshape_result', nullary_result_ne', unary_result_ne', binary_result_ne', ternary_result_ne', reshape_result_ne', Cert.Lib.TypedRef.ofBuf_toBuf]
  results_rw
  rw [after_take_at_unwritten (writesAre (F := Ideal)) 141 V (a := main_v28) (by decide),
    after_take_at_unwritten (writesAre (F := Ideal)) 141 V (a := main_v30) (by decide),
    after_take_at_unwritten (writesAre (F := Ideal)) 141 V (a := main_v10) (by decide)]
  rw [read_rem1 V, read_rem2 V]
  rfl

/-- The product with the transpose, plus ε on the diagonal. -/
theorem read_result (V : Valuation τ sig (Elt Ideal)) :
    after ops V (Proc.devRef .tc main_v58) = addf (RefStages.gram (after ops V (Proc.devRef .tc main_v45))) RefStages.eyeEps := by
  have e := after_segment (writesAre (F := Ideal)) 161 15 V (y := main_v58) (by decide)
  rw [seg_result_eq] at e
  rw [e]
  simp (disch := decide) only [seg_result, after_cons, after_nil, nullary_result', unary_result', binary_result', ternary_result', reshape_result', nullary_result_ne', unary_result_ne', binary_result_ne', ternary_result_ne', reshape_result_ne', Cert.Lib.TypedRef.ofBuf_toBuf]
  rw [after_take_at_unwritten (writesAre (F := Ideal)) 161 V (a := main_v45) (by decide)]
  rfl

/-- The result buffer holds, after the whole line, the reference's stages composed, of the arguments' contents at the start. -/
theorem result_eq (V : Valuation τ sig (Elt Ideal)) :
    after ops V (Proc.devRef .tc main_v58) = RefStages.result (V (Proc.devRef .tc main_arg0)) (V (Proc.devRef .tc main_arg1)) (V (Proc.devRef .tc main_arg2)) (V (Proc.devRef .tc main_arg3)) (V (Proc.devRef .tc main_arg4)) := by
  rw [read_result, read_scattered, read_elements, read_h, read_z, read_arg3, read_arg4]
  rfl

/-- On every device, from any memory with zero counters: every weakly fair execution of the reference terminates with the
    result buffer at the stages' composition of the arguments' launch contents, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v58)
          = RefStages.result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v58).trans (result_eq _),
      (h c main_arg0).trans (read_arg0 _), (h c main_arg1).trans (read_arg1 _), (h c main_arg2).trans (read_arg2 _),
      (h c main_arg3).trans (read_arg3 _), (h c main_arg4).trans (read_arg4 _)⟩)
    (run_after m g)
-- ==== Proof.LibScatter3.lean ====
/-
  A scatter into the last two axes of a rank-3 array, read at an index.

  `x.at[:, r, c].set(u)` for an operand x : [B, N1, N2], index vectors r, c : [E] and updates u : [B, E] lowers to a
  scatter whose indices are the pairs (r e, c e) laid out [E, 2] (the pair on axis 1), whose one window axis is the
  leading axis of the updates, and whose two scattered axes are the operand's last two. Update (b, e) lands on
  (b, r e, c e), the pair read signed and not clamped, and is dropped when the pair is outside the operand. When the
  in-range pairs are distinct, the result at (b, i, j) is u (b, e) for the one e whose pair is (i, j), and the operand
  where there is none.
-/
import Idealize.ShloMosaic.PureOps.Ideal
import Idealize.ShloMosaic.Lib.ValueIdx
import proofs.«162534_j14963666059944_2_alg».proof.Proof.LibScatterSet

noncomputable section

namespace Cert.Lib.Scatter3

open Idealize.ShloMosaic Idealize.ShloMosaic.ValueIdx Cert.Lib.ScatterSet

variable {α : Type}

/-- The dimension numbers of `x.at[:, r, c].set(u)`. -/
abbrev scat3Dims (B N1 N2 E : Nat)
    (wf : ScatterDims.WF ⟨3, ![B, N1, N2]⟩ ⟨2, ![E, 2]⟩ ⟨2, ![B, E]⟩ [0] [1, 2] [1, 2] 1) :
    ScatterDims ⟨3, ![B, N1, N2]⟩ ⟨2, ![E, 2]⟩ ⟨2, ![B, E]⟩ where
  updateWindowDims := [0]
  insertedWindowDims := [1, 2]
  scatterDimsToOperandDims := [1, 2]
  indexVectorDim := 1
  wf := wf

section
variable {B N1 N2 E w : Nat} (wf : ScatterDims.WF ⟨3, ![B, N1, N2]⟩ ⟨2, ![E, 2]⟩ ⟨2, ![B, E]⟩ [0] [1, 2] [1, 2] 1)
  (idx : IVec ⟨2, ![E, 2]⟩ w) (b : Fin B) (e : Fin E)

theorem start0 : (scat3Dims B N1 N2 E wf).start (ix2 b e) idx (0 : Fin 3) = 0 := by
  unfold ScatterDims.start
  rw [dif_neg (show (0 : Fin 3) ∉ [(1 : Fin 3), (2 : Fin 3)] by decide)]

theorem start1 : (scat3Dims B N1 N2 E wf).start (ix2 b e) idx (1 : Fin 3) = (idx (ix2 e (0 : Fin 2))).toInt := by
  unfold ScatterDims.start
  rw [dif_pos (show (1 : Fin 3) ∈ [(1 : Fin 3), (2 : Fin 3)] by decide)]
  have hsi : (scat3Dims B N1 N2 E wf).siIdx (ix2 b e) ⟨List.idxOf (1 : Fin 3) (scat3Dims B N1 N2 E wf).scatterDimsToOperandDims,
      List.idxOf_lt_length_iff.2 (show (1 : Fin 3) ∈ [(1 : Fin 3), (2 : Fin 3)] by decide)⟩ = ix2 e (0 : Fin 2) := by
    funext a; refine Fin.ext ?_
    match a with
    | ⟨0, _⟩ => rfl
    | ⟨1, _⟩ => rfl
  rw [hsi]

theorem start2 : (scat3Dims B N1 N2 E wf).start (ix2 b e) idx (2 : Fin 3) = (idx (ix2 e (1 : Fin 2))).toInt := by
  unfold ScatterDims.start
  rw [dif_pos (show (2 : Fin 3) ∈ [(1 : Fin 3), (2 : Fin 3)] by decide)]
  have hsi : (scat3Dims B N1 N2 E wf).siIdx (ix2 b e) ⟨List.idxOf (2 : Fin 3) (scat3Dims B N1 N2 E wf).scatterDimsToOperandDims,
      List.idxOf_lt_length_iff.2 (show (2 : Fin 3) ∈ [(1 : Fin 3), (2 : Fin 3)] by decide)⟩ = ix2 e (1 : Fin 2) := by
    funext a; refine Fin.ext ?_
    match a with
    | ⟨0, _⟩ => rfl
    | ⟨1, _⟩ => rfl
  rw [hsi]

theorem window0 : (scat3Dims B N1 N2 E wf).window (ix2 b e) (0 : Fin 3) = b.val := by
  unfold ScatterDims.window
  rw [dif_pos (show (0 : Fin 3) ∈ (scat3Dims B N1 N2 E wf).sKept by simp [ScatterDims.sKept, Shape.kept])]
  rfl

theorem window1 : (scat3Dims B N1 N2 E wf).window (ix2 b e) (1 : Fin 3) = 0 := by
  unfold ScatterDims.window
  rw [dif_neg (show (1 : Fin 3) ∉ (scat3Dims B N1 N2 E wf).sKept by simp [ScatterDims.sKept, Shape.kept])]

theorem window2 : (scat3Dims B N1 N2 E wf).window (ix2 b e) (2 : Fin 3) = 0 := by
  unfold ScatterDims.window
  rw [dif_neg (show (2 : Fin 3) ∉ (scat3Dims B N1 N2 E wf).sKept by simp [ScatterDims.sKept, Shape.kept])]

/-- Update `(b, e)` lands on `(b', i, j)` exactly when b = b' and its index pair, read signed, is (i, j). -/
theorem resultIdx?_eq_some_iff (b' : Fin B) (i : Fin N1) (j : Fin N2) :
    (scat3Dims B N1 N2 E wf).resultIdx? (ix2 b e) idx = some (ix3 b' i j)
      ↔ b = b' ∧ (idx (ix2 e (0 : Fin 2))).toInt = (i.val : Int) ∧ (idx (ix2 e (1 : Fin 2))).toInt = (j.val : Int) := by
  unfold ScatterDims.resultIdx?
  constructor
  · intro h
    split at h
    · rename_i hr
      have hfun := Option.some.inj h
      have hv0 := congrArg Fin.val (congrFun hfun (0 : Fin 3))
      have hv1 := congrArg Fin.val (congrFun hfun (1 : Fin 3))
      have hv2 := congrArg Fin.val (congrFun hfun (2 : Fin 3))
      have hr1 := hr (1 : Fin 3)
      have hr2 := hr (2 : Fin 3)
      rw [start1, window1] at hr1
      rw [start2, window2] at hr2
      simp only [start0, window0] at hv0
      simp only [start1, window1] at hv1
      simp only [start2, window2] at hv2
      change ((0 : Int) + ((b.val : Nat) : Int)).toNat = b'.val at hv0
      change ((idx (ix2 e (0 : Fin 2))).toInt + ((0 : Nat) : Int)).toNat = i.val at hv1
      change ((idx (ix2 e (1 : Fin 2))).toInt + ((0 : Nat) : Int)).toNat = j.val at hv2
      refine ⟨Fin.ext (by omega), by omega, by omega⟩
    · exact absurd h (by simp)
  · rintro ⟨rfl, h1, h2⟩
    have hr : ∀ a, 0 ≤ (scat3Dims B N1 N2 E wf).start (ix2 b e) idx a + ((scat3Dims B N1 N2 E wf).window (ix2 b e) a : Int)
        ∧ (scat3Dims B N1 N2 E wf).start (ix2 b e) idx a + ((scat3Dims B N1 N2 E wf).window (ix2 b e) a : Int)
            < ((⟨3, ![B, N1, N2]⟩ : Shape).size a : Int) := by
      intro a
      match a with
      | ⟨0, _⟩ =>
        have := b.isLt
        change 0 ≤ (scat3Dims B N1 N2 E wf).start (ix2 b e) idx (0 : Fin 3) + ((scat3Dims B N1 N2 E wf).window (ix2 b e) (0 : Fin 3) : Int)
          ∧ (scat3Dims B N1 N2 E wf).start (ix2 b e) idx (0 : Fin 3) + ((scat3Dims B N1 N2 E wf).window (ix2 b e) (0 : Fin 3) : Int) < (B : Int)
        rw [start0, window0]
        omega
      | ⟨1, _⟩ =>
        have := i.isLt
        change 0 ≤ (scat3Dims B N1 N2 E wf).start (ix2 b e) idx (1 : Fin 3) + ((scat3Dims B N1 N2 E wf).window (ix2 b e) (1 : Fin 3) : Int)
          ∧ (scat3Dims B N1 N2 E wf).start (ix2 b e) idx (1 : Fin 3) + ((scat3Dims B N1 N2 E wf).window (ix2 b e) (1 : Fin 3) : Int) < (N1 : Int)
        rw [start1, window1, h1]
        omega
      | ⟨2, _⟩ =>
        have := j.isLt
        change 0 ≤ (scat3Dims B N1 N2 E wf).start (ix2 b e) idx (2 : Fin 3) + ((scat3Dims B N1 N2 E wf).window (ix2 b e) (2 : Fin 3) : Int)
          ∧ (scat3Dims B N1 N2 E wf).start (ix2 b e) idx (2 : Fin 3) + ((scat3Dims B N1 N2 E wf).window (ix2 b e) (2 : Fin 3) : Int) < (N2 : Int)
        rw [start2, window2, h2]
        omega
    rw [dif_pos hr]
    congr 1
    funext a
    refine Fin.ext ?_
    match a with
    | ⟨0, _⟩ =>
      show ((scat3Dims B N1 N2 E wf).start (ix2 b e) idx (0 : Fin 3) + ((scat3Dims B N1 N2 E wf).window (ix2 b e) (0 : Fin 3) : Int)).toNat = b.val
      rw [start0, window0]
      omega
    | ⟨1, _⟩ =>
      show ((scat3Dims B N1 N2 E wf).start (ix2 b e) idx (1 : Fin 3) + ((scat3Dims B N1 N2 E wf).window (ix2 b e) (1 : Fin 3) : Int)).toNat = i.val
      rw [start1, window1, h1]
      omega
    | ⟨2, _⟩ =>
      show ((scat3Dims B N1 N2 E wf).start (ix2 b e) idx (2 : Fin 3) + ((scat3Dims B N1 N2 E wf).window (ix2 b e) (2 : Fin 3) : Int)).toNat = j.val
      rw [start2, window2, h2]
      omega

end

/-- The scatter at `(b, i, j)` when update column `e` is the one whose index pair is (i, j). -/
theorem set3_hit {B N1 N2 E w : Nat} (wf : ScatterDims.WF ⟨3, ![B, N1, N2]⟩ ⟨2, ![E, 2]⟩ ⟨2, ![B, E]⟩ [0] [1, 2] [1, 2] 1)
    (x : (⟨3, ![B, N1, N2]⟩ : Shape).Idx → α) (idx : IVec ⟨2, ![E, 2]⟩ w) (upd : (⟨2, ![B, E]⟩ : Shape).Idx → α)
    (b : Fin B) (i : Fin N1) (j : Fin N2) (e : Fin E)
    (h1 : (idx (ix2 e (0 : Fin 2))).toInt = (i.val : Int)) (h2 : (idx (ix2 e (1 : Fin 2))).toInt = (j.val : Int))
    (hu : ∀ e' : Fin E, (idx (ix2 e' (0 : Fin 2))).toInt = (i.val : Int) → (idx (ix2 e' (1 : Fin 2))).toInt = (j.val : Int) → e' = e) :
    Host.scatter (scat3Dims B N1 N2 E wf) (fun _ b => b) x idx upd (ix3 b i j) = upd (ix2 b e) := by
  refine scatter_set_hit _ x idx upd (ix3 b i j) (ix2 b e) ((resultIdx?_eq_some_iff wf idx b e b i j).2 ⟨rfl, h1, h2⟩)
    (fun q hq => ?_)
  rw [eq_ix2 q] at hq
  obtain ⟨hb, h1', h2'⟩ := (resultIdx?_eq_some_iff wf idx _ _ b i j).1 hq
  have h3 := hu _ h1' h2'
  subst hb h3
  exact eq_ix2 q

/-- The scatter at `(b, i, j)` when no update's index pair is (i, j). -/
theorem set3_miss {B N1 N2 E w : Nat} (wf : ScatterDims.WF ⟨3, ![B, N1, N2]⟩ ⟨2, ![E, 2]⟩ ⟨2, ![B, E]⟩ [0] [1, 2] [1, 2] 1)
    (f : α → α → α) (x : (⟨3, ![B, N1, N2]⟩ : Shape).Idx → α) (idx : IVec ⟨2, ![E, 2]⟩ w) (upd : (⟨2, ![B, E]⟩ : Shape).Idx → α)
    (b : Fin B) (i : Fin N1) (j : Fin N2)
    (hu : ∀ e' : Fin E, ¬ ((idx (ix2 e' (0 : Fin 2))).toInt = (i.val : Int) ∧ (idx (ix2 e' (1 : Fin 2))).toInt = (j.val : Int))) :
    Host.scatter (scat3Dims B N1 N2 E wf) f x idx upd (ix3 b i j) = x (ix3 b i j) := by
  refine scatter_miss _ f x idx upd (ix3 b i j) (fun q hq => ?_)
  rw [eq_ix2 q] at hq
  exact hu _ ((resultIdx?_eq_some_iff wf idx _ _ b i j).1 hq).2

end Cert.Lib.Scatter3

end
-- ==== Proof.RefValue.lean ====
/-
  The reference's stages read at an index, and their composition as the specification.

  Stage by stage: the first layer before its activation is `Spec.pre`; the activation is `Spec.softplus` (the
  comparison of a number with itself is never "different" on the extended reals, so the guarded branch is never taken);
  the second layer is `Spec.elem`; writing it at the (row, column) pairs of the lower-triangular positions gives
  `Spec.low` (each pair is hit by exactly one position, and a pair (i, j) with i < j by none); the batched product with
  the transpose sums over the shared last axis; and ε·identity is ε where i = j.
-/
import Idealize.ShloMosaic.PureOps.Ideal.Laws
import Idealize.ShloMosaic.Lib.ValueIdx
import Idealize.ShloMosaic.Lib.Pipeline.Value
import proofs.«162534_j14963666059944_2_alg».proof.Proof.RefStages
import proofs.«162534_j14963666059944_2_alg».proof.Proof.Gen.ReferenceIdeal
import proofs.«162534_j14963666059944_2_alg».proof.Proof.Spec
import proofs.«162534_j14963666059944_2_alg».proof.Proof.LibScatter3
import proofs.«162534_j14963666059944_2_alg».proof.Proof.LibMatmul

noncomputable section

open scoped BigOperators

namespace Cert.ReferenceIdeal.RefValue

open Idealize.ShloMosaic Idealize.ShloMosaic.ValueIdx Cert.ReferenceIdeal Cert.ReferenceIdeal.RefStages Cert.Tril

attribute [local instance] Cert.ReferenceIdeal.Gen.facts

/-! ## Layout operations at an index -/

/-- A vector [n] broadcast to one row [1, n] and then to [m, n], read at an index. -/
theorem bias_apply {m n : Nat} (v : (⟨1, ![n]⟩ : Shape).Idx → EReal)
    (h1 : (⟨1, ![n]⟩ : Shape).BroadcastsInDim ⟨2, ![1, n]⟩ ![1]) (h2 : (⟨2, ![1, n]⟩ : Shape).BroadcastsInDim ⟨2, ![m, n]⟩ ![0, 1])
    (hn : n ≠ 1) (b : Fin m) (k : Fin n) :
    broadcastInDim ⟨2, ![m, n]⟩ ![0, 1] h2 (broadcastInDim ⟨2, ![1, n]⟩ ![1] h1 v) (ix2 b k) = v (ix1 k) := by
  rw [broadcastInDim_apply _ _ _ (ix2 b k) (ix2 (0 : Fin 1) k) (fun a => by
    match a with
    | ⟨0, _⟩ => rfl
    | ⟨1, _⟩ => exact (if_neg hn).symm)]
  rw [broadcastInDim_apply _ _ _ (ix2 (0 : Fin 1) k) (ix1 k) (fun a => by
    match a with
    | ⟨0, _⟩ => exact (if_neg hn).symm)]

/-! ## The first layer -/

section
variable (x : FVec Ideal S16384x128 .f32) (W1 : FVec Ideal S128x128 .f32) (b1 : FVec Ideal S128 .f32)
  (W2 : FVec Ideal S2080x128 .f32) (b2 : FVec Ideal S2080 .f32)

theorem z_apply (b : Fin 16384) (k : Fin 128) : z x W1 b1 (ix2 b k) = Cert.Spec.pre x W1 b1 b k := by
  unfold z Cert.Spec.pre
  rw [addf_apply, bias_apply _ _ _ (by decide)]
  congr 1
  rw [show dot_S16384x128_S128x128_S16384x128_1_0_0_1_n_n = DotDims.plain 16384 128 128 from rfl,
    Cert.MatOps.dotGeneral_plain_apply]
  refine Finset.sum_congr rfl fun d _ => ?_
  rw [Cert.MatOps.transpose10_apply]

theorem zeros128_apply (q : S16384x128.Idx) : zeros128 q = 0 := by
  unfold zeros128
  rw [broadcastInDim_apply _ _ _ _ ix0 (fun a => a.elim0), constant_apply]
  exact Ideal.ofBits_zero_f32

theorem h_apply (zz : FVec Ideal S16384x128 .f32) (q : S16384x128.Idx) : h zz q = Cert.Spec.softplus (zz q) := by
  unfold h Cert.Spec.softplus
  rw [select_apply, cmpf_apply]
  have hc : FloatOps.cmpf (F := Ideal) .une (subf zz zeros128 q) (subf zz zeros128 q) = 0#1 := by
    show Ideal.cmp .une _ _ = 0#1
    simp [Ideal.cmp]
  rw [hc, select_zero, addf_apply, maximumf_apply, zeros128_apply]
  show max (zz q) 0 + FloatOps.hostUnary (F := Ideal) .log1p (FloatOps.hostUnary (F := Ideal) .exp
    (FloatOps.hostNegf (F := Ideal) (FloatOps.hostAbsf (F := Ideal) (subf zz zeros128 q)))) = _
  rw [subf_apply, zeros128_apply, sub_zero]
  rfl

theorem elements_apply (hh : FVec Ideal S16384x128 .f32) (b : Fin 16384) (n : Fin 2080) :
    elements hh W2 b2 (ix2 b n) = (∑ k : Fin 128, hh (ix2 b k) * W2 (ix2 n k)) + b2 (ix1 n) := by
  unfold elements
  rw [addf_apply, bias_apply _ _ _ (by decide)]
  congr 1
  rw [show dot_S16384x128_S128x2080_S16384x2080_1_0_0_1_n_n = DotDims.plain 16384 128 2080 from rfl,
    Cert.MatOps.dotGeneral_plain_apply]
  refine Finset.sum_congr rfl fun d _ => ?_
  rw [Cert.MatOps.transpose10_apply]

theorem elements_eq (b : Fin 16384) (n : Fin 2080) :
    elements (h (z x W1 b1)) W2 b2 (ix2 b n) = Cert.Spec.elem x W1 b1 W2 b2 b n := by
  rw [elements_apply]
  unfold Cert.Spec.elem Cert.Spec.hid
  congr 1
  refine Finset.sum_congr rfl fun k _ => ?_
  rw [h_apply, z_apply]

end

/-! ## The scatter at the table's pairs -/

/-- A small natural number as a 32-bit word reads back, signed, as itself. -/
theorem toInt_ofNat_small : ∀ v : Fin 64, (BitVec.ofNat 32 v.val).toInt = (v.val : Int) := by decide +kernel

section Scatter
variable (htab : ∀ n : Fin 2080, table (ix2 n (0 : Fin 2)) = BitVec.ofNat 32 (trow n.val)
  ∧ table (ix2 n (1 : Fin 2)) = BitVec.ofNat 32 (tcol n.val))
include htab

theorem table_row (n : Fin 2080) : (table (ix2 n (0 : Fin 2))).toInt = (trow n.val : Int) := by
  rw [(htab n).1]
  exact toInt_ofNat_small ⟨trow n.val, trow_lt n⟩

theorem table_col (n : Fin 2080) : (table (ix2 n (1 : Fin 2))).toInt = (tcol n.val : Int) := by
  rw [(htab n).2]
  exact toInt_ofNat_small ⟨tcol n.val, lt_of_le_of_lt (tcol_le_trow n) (trow_lt n)⟩

theorem scattered_apply (e : FVec Ideal S16384x2080 .f32) (b : Fin 16384) (i j : Fin 64) :
    scattered e (ix3 b i j) = (if h : j.val ≤ i.val then e (ix2 b ⟨tpos i.val j.val, tpos_lt i j h⟩) else 0 : EReal) := by
  unfold scattered
  by_cases h : j.val ≤ i.val
  · rw [dif_pos h]
    refine Cert.Lib.Scatter3.set3_hit (B := 16384) (N1 := 64) (N2 := 64) (E := 2080) _ _ table e b i j
      ⟨tpos i.val j.val, tpos_lt i j h⟩ ?_ ?_ ?_
    · rw [table_row htab]; show ((trow (tpos i.val j.val) : Nat) : Int) = _; rw [trow_tpos i j h]
    · rw [table_col htab]; show ((tcol (tpos i.val j.val) : Nat) : Int) = _; rw [tcol_tpos i j h]
    · intro e' h1 h2
      rw [table_row htab] at h1
      rw [table_col htab] at h2
      have hr : trow e'.val = i.val := by exact_mod_cast h1
      have hc : tcol e'.val = j.val := by exact_mod_cast h2
      apply Fin.ext
      show e'.val = tpos i.val j.val
      rw [← tpos_trow_tcol e', hr, hc]
  · rw [dif_neg h]
    refine (Cert.Lib.Scatter3.set3_miss (B := 16384) (N1 := 64) (N2 := 64) (E := 2080) _ _ _ table e b i j
      (fun e' ⟨h1, h2⟩ => ?_)).trans ?_
    · rw [table_row htab] at h1
      rw [table_col htab] at h2
      have hr : trow e'.val = i.val := by exact_mod_cast h1
      have hc : tcol e'.val = j.val := by exact_mod_cast h2
      have := tcol_le_trow e'
      omega
    · rw [broadcastInDim_apply _ _ _ _ ix0 (fun a => a.elim0), constant_apply]
      exact Ideal.ofBits_zero_f32

end Scatter

/-! ## The batched product with the transpose -/

/-- The contraction index set of the batched product is `Fin 64`. -/
abbrev gramContr : dot_S16384x64x64_S16384x64x64_S16384x64x64_2_1_1_2_0_0.contr.Idx ≃ Fin 64 :=
  contrEquiv1 dot_S16384x64x64_S16384x64x64_S16384x64x64_2_1_1_2_0_0 64 rfl rfl

theorem gram_lhsIdx (b : Fin 16384) (i j k : Fin 64) :
    dot_S16384x64x64_S16384x64x64_S16384x64x64_2_1_1_2_0_0.lhsIdx (ix3 b i j) (gramContr.symm k) = ix3 b i k := by
  have hk := contrEquiv1_symm_val dot_S16384x64x64_S16384x64x64_S16384x64x64_2_1_1_2_0_0 64 rfl rfl k
  funext a
  refine Fin.ext ?_
  match a with
  | ⟨0, _⟩ => rfl
  | ⟨1, _⟩ => rfl
  | ⟨2, _⟩ => exact (dot_S16384x64x64_S16384x64x64_S16384x64x64_2_1_1_2_0_0.lhsIdx_val_of_single rfl (ix3 b i j) _).trans hk

theorem gram_rhsIdx (b : Fin 16384) (i j k : Fin 64) :
    dot_S16384x64x64_S16384x64x64_S16384x64x64_2_1_1_2_0_0.rhsIdx (ix3 b i j) (gramContr.symm k) = ix3 b k j := by
  have hk := contrEquiv1_symm_val dot_S16384x64x64_S16384x64x64_S16384x64x64_2_1_1_2_0_0 64 rfl rfl k
  funext a
  refine Fin.ext ?_
  match a with
  | ⟨0, _⟩ => rfl
  | ⟨1, _⟩ => exact (dot_S16384x64x64_S16384x64x64_S16384x64x64_2_1_1_2_0_0.rhsIdx_val_of_single rfl (ix3 b i j) _).trans hk
  | ⟨2, _⟩ => rfl

/-- The [0, 2, 1] transpose of a rank-3 array read at an index. -/
theorem transpose021_apply {α : Type} {A B C : Nat} (x : (⟨3, ![A, B, C]⟩ : Shape).Idx → α)
    (h : (⟨3, ![A, B, C]⟩ : Shape).Transposes [0, 2, 1] ⟨3, ![A, C, B]⟩) (a : Fin A) (c : Fin C) (b : Fin B) :
    transpose ⟨3, ![A, C, B]⟩ [0, 2, 1] x h (ix3 a c b) = x (ix3 a b c) :=
  transpose_apply [0, 2, 1] x h (ix3 a c b) (ix3 a b c) (fun d => match d with
    | ⟨0, _⟩ => rfl
    | ⟨1, _⟩ => rfl
    | ⟨2, _⟩ => rfl)

theorem gram_apply (L : FVec Ideal S16384x64x64 .f32) (b : Fin 16384) (i j : Fin 64) :
    gram L (ix3 b i j) = ∑ k : Fin 64, L (ix3 b i k) * L (ix3 b j k) := by
  unfold gram
  simp only [Host.dotGeneral]
  rw [Ideal.dotGeneral_apply, ← Equiv.sum_comp gramContr.symm]
  refine Finset.sum_congr rfl fun k _ => ?_
  rw [gram_lhsIdx, gram_rhsIdx, transpose021_apply]

/-! ## ε on the diagonal -/

theorem eyeEps_apply (b : Fin 16384) (i j : Fin 64) :
    eyeEps (ix3 b i j) = Ideal.ofBits .f32 0x358637BD#32 * (if i = j then (1 : EReal) else 0) := by
  unfold eyeEps
  rw [broadcastInDim_apply _ _ _ (ix3 b i j) (ix3 (0 : Fin 1) i j) (fun a => by
    match a with
    | ⟨0, _⟩ => rfl
    | ⟨1, _⟩ => rfl
    | ⟨2, _⟩ => rfl)]
  rw [broadcastInDim_apply _ _ _ (ix3 (0 : Fin 1) i j) (ix2 i j) (fun a => by
    match a with
    | ⟨0, _⟩ => rfl
    | ⟨1, _⟩ => rfl)]
  rw [mulf_apply, broadcastInDim_apply _ _ _ (ix2 i j) ix0 (fun a => a.elim0), constant_apply]
  congr 1
  show (((IntOp.cmpi .eq (IntOp.addi (BitVec.ofNat 32 i.val) _) (BitVec.ofNat 32 j.val)).toNat : ℝ) : EReal) = _
  rw [broadcastInDim_apply _ _ _ (ix2 i j) ix0 (fun a => a.elim0)]
  show (((IntOp.cmpi .eq (BitVec.ofNat 32 i.val + 0#32) (BitVec.ofNat 32 j.val)).toNat : ℝ) : EReal) = _
  have hw : ∀ i j : Fin 64, (IntOp.cmpi .eq (BitVec.ofNat 32 i.val + 0#32) (BitVec.ofNat 32 j.val)).toNat = if i = j then 1 else 0 := by
    decide +kernel
  rw [hw]
  split <;> simp

/-! ## The whole reference -/

theorem result_eq (htab : ∀ n : Fin 2080, table (ix2 n (0 : Fin 2)) = BitVec.ofNat 32 (trow n.val)
      ∧ table (ix2 n (1 : Fin 2)) = BitVec.ofNat 32 (tcol n.val))
    (x : FVec Ideal S16384x128 .f32) (W1 : FVec Ideal S128x128 .f32) (b1 : FVec Ideal S128 .f32)
    (W2 : FVec Ideal S2080x128 .f32) (b2 : FVec Ideal S2080 .f32) :
    result x W1 b1 W2 b2 = Cert.Spec.G x W1 b1 W2 b2 := by
  funext q
  obtain ⟨b, i, j, rfl⟩ : ∃ (b : Fin 16384) (i j : Fin 64), q = ix3 b i j := ⟨q 0, q 1, q 2, eq_ix3 q⟩
  unfold result
  rw [addf_apply, gram_apply, eyeEps_apply]
  show _ = Cert.Spec.out x W1 b1 W2 b2 b i j
  unfold Cert.Spec.out
  refine congrArg₂ (· + ·) ?_ rfl
  refine Finset.sum_congr rfl fun k _ => ?_
  rw [scattered_apply htab, scattered_apply htab]
  unfold Cert.Spec.low
  refine congrArg₂ (· * ·) ?_ ?_
  · split
    · exact elements_eq x W1 b1 W2 b2 _ _
    · rfl
  · split
    · exact elements_eq x W1 b1 W2 b2 _ _
    · rfl

end Cert.ReferenceIdeal.RefValue

end
-- ==== Proof.RefTableNat.lean ====
/-
  The counting behind jnp.tril_indices(64), on the natural numbers.

  The mask bit at flat address p = 64 i + j of a 64 × 64 matrix is 1 exactly when j ≤ i. Its running
  count c(p) = #{q ≤ p : bit q} has the closed form i(i+1)/2 + min(j, i) + 1: the rows before row i hold
  i(i+1)/2 set bits and row i holds min(j, i) + 1 of them up to column j. The (n+1)-th set bit sits at
  the flat address of lower-triangular position n, so c is n + 1 there and, c being nondecreasing,
  c(p) ≤ n exactly when p lies before that address. Counting the addresses with c(p) = k for each k and
  summing the counts over k ≤ n therefore gives the flat address of position n.
-/
import Mathlib.Tactic
import proofs.«162534_j14963666059944_2_alg».proof.Proof.TrilIndex

open scoped BigOperators

namespace Cert.ReferenceIdeal.RefTable

open Cert.Tril

/-- The mask bit at flat address `p`: 1 when the column `p % 64` is at most the row `p / 64`. -/
def maskN (p : Nat) : Nat := if p % 64 ≤ p / 64 then 1 else 0

/-- The running count of the mask in closed form. -/
def cumC (p : Nat) : Nat := (p / 64) * (p / 64 + 1) / 2 + min (p % 64) (p / 64) + 1

theorem cumC_zero : cumC 0 = maskN 0 := by decide

/-- A property of the naturals below a bound, checked by one linear pass. -/
theorem forall_lt_of_all {P : Nat → Prop} [DecidablePred P] {N : Nat}
    (h : (List.range N).all (fun p => decide (P p)) = true) (p : Nat) (hp : p < N) : P p :=
  of_decide_eq_true (List.all_eq_true.mp h p (List.mem_range.mpr hp))

theorem cumC_succ (p : Nat) (hp : p < 4095) : cumC (p + 1) = cumC p + maskN (p + 1) :=
  forall_lt_of_all (P := fun p => cumC (p + 1) = cumC p + maskN (p + 1)) (N := 4095) (by decide +kernel) p hp

theorem cumC_pos_le (p : Fin 4096) : 1 ≤ cumC p.val ∧ cumC p.val ≤ 2080 :=
  forall_lt_of_all (P := fun p => 1 ≤ cumC p ∧ cumC p ≤ 2080) (N := 4096) (by decide +kernel) p.val p.isLt

theorem cumC_tflat (n : Fin 2080) : cumC (tflat n.val) = n.val + 1 :=
  forall_lt_of_all (P := fun n => cumC (tflat n) = n + 1) (N := 2080) (by decide +kernel) n.val n.isLt

theorem maskN_tflat (n : Fin 2080) : maskN (tflat n.val) = 1 :=
  forall_lt_of_all (P := fun n => maskN (tflat n) = 1) (N := 2080) (by decide +kernel) n.val n.isLt

/-- The running count is the sum of the mask bits up to the address. -/
theorem sum_maskN (p : Nat) (hp : p < 4096) : ∑ q ∈ Finset.range (p + 1), maskN q = cumC p := by
  induction p with
  | zero => simp [cumC_zero]
  | succ p ih =>
    rw [Finset.sum_range_succ, ih (by omega)]
    exact (cumC_succ p (by omega)).symm

/-- The running count is nondecreasing. -/
theorem cumC_mono {p q : Nat} (hpq : p ≤ q) (hq : q < 4096) : cumC p ≤ cumC q := by
  induction q with
  | zero => obtain rfl : p = 0 := by omega
            exact le_rfl
  | succ q ih =>
    rcases Nat.eq_or_lt_of_le hpq with h | h
    · rw [h]
    · have := ih (by omega) (by omega)
      have hs := cumC_succ q (by omega)
      omega

/-- The running count is at most `n` exactly before the flat address of position `n`. -/
theorem cumC_le_iff (p : Nat) (hp : p < 4096) (n : Fin 2080) : cumC p ≤ n.val ↔ p < tflat n.val := by
  have hft := tflat_lt n
  have hc := cumC_tflat n
  constructor
  · intro h
    by_contra hge
    have := cumC_mono (Nat.le_of_not_lt hge) hp
    omega
  · intro h
    -- the address just before position n's carries count n
    have hpos : 0 < tflat n.val := by omega
    obtain ⟨t, ht⟩ : ∃ t, tflat n.val = t + 1 := ⟨tflat n.val - 1, by omega⟩
    have hs := cumC_succ t (by omega)
    have hm := maskN_tflat n
    rw [ht] at hc hm
    have := cumC_mono (show p ≤ t by omega) (by omega)
    omega

/-- Summing, over the counts `k ≤ n`, the number of addresses whose running count is `k` gives the
    flat address of position `n`. -/
theorem sum_card_cumC (n : Fin 2080) :
    ∑ k ∈ Finset.range (n.val + 1), (Finset.univ.filter (fun e : Fin 4096 => cumC e.val = k)).card = tflat n.val := by
  rw [Finset.sum_card_fiberwise_eq_card_filter Finset.univ (Finset.range (n.val + 1)) (fun e : Fin 4096 => cumC e.val)]
  have h2 : (Finset.univ.filter (fun e : Fin 4096 => cumC e.val ∈ Finset.range (n.val + 1)))
      = Finset.univ.filter (fun e : Fin 4096 => e.val < tflat n.val) := by
    ext e
    simp only [Finset.mem_filter, Finset.mem_univ, true_and, Finset.mem_range]
    rw [← cumC_le_iff e.val e.isLt n]
    omega
  rw [h2]
  have hft := tflat_lt n
  rw [Fin.card_filter_val_lt]
  omega

end Cert.ReferenceIdeal.RefTable
-- ==== Proof.RefTableFold.lean ====
/-
  Two folds over 32-bit words read as sums.

  A running sum written as a window reduction (a window as long as the array, padded one short of
  the array's length below, stride one) is, at address p, the sum of the words at the addresses q ≤ p:
  window position a of the output p reads address p + a − L when that is not negative and the initial
  zero otherwise, and the positions that read an address are in bijection with the addresses q ≤ p.
  An accumulating scatter with word addition is, at each element, the operand's word plus the sum of
  the updates whose result index is that element: word addition is commutative and associative, so
  the order in which the fold meets the updates does not matter.
-/
import Mathlib.Data.BitVec
import Idealize.ShloMosaic.PureOps.Ideal
import Idealize.ShloMosaic.Lib.ValueIdx
import proofs.«162534_j14963666059944_2_alg».proof.Proof.LibScatterGather

open scoped BigOperators

namespace Cert.ReferenceIdeal.RefTable

open Idealize.ShloMosaic Idealize.ShloMosaic.ValueIdx Cert.Lib.ScatterGather

/-! ## The running sum -/

/-- The window reduction that computes a running sum, read at address `p`: the sum of the words at the
    addresses up to `p`. -/
theorem cumsum_reduceWindow (N L : Nat) (hL : L + 1 = N) {u : Shape} (x : IVec ⟨1, ![N]⟩ 32) (init : IVec u 32)
    (hinit : ∀ i, init i = 0)
    (h : (⟨1, ![N]⟩ : Shape).ReduceWindows (![N] : Fin 1 → Nat) ![1] ![L] ![0] ⟨1, ![N]⟩) (hu : 0 < u.numel)
    (p : Fin N) :
    Host.reduceWindow IntOp.addi (![N] : Fin 1 → Nat) ![1] ![L] ![0] x init h hu (ix1 p)
      = ∑ q : Fin N, if q.val ≤ p.val then x (ix1 q) else 0 := by
  unfold Host.reduceWindow
  dsimp only
  rw [hinit]
  -- the fold is the sum over the window's positions
  have hfold := sum_idx_eq_foldl (M := BitVec 32) (⟨1, ![N]⟩ : Shape) (fun w : (⟨1, ![N]⟩ : Shape).Idx =>
    if hin : ∀ a : Fin 1, (![L] : Fin 1 → Nat) a ≤ ((ix1 p) (a.cast h.1.symm)).val * (![1] : Fin 1 → Nat) a + (w a).val
        ∧ ((ix1 p) (a.cast h.1.symm)).val * (![1] : Fin 1 → Nat) a + (w a).val - (![L] : Fin 1 → Nat) a < (⟨1, ![N]⟩ : Shape).size a
      then x (fun a => ⟨((ix1 p) (a.cast h.1.symm)).val * (![1] : Fin 1 → Nat) a + (w a).val - (![L] : Fin 1 → Nat) a, (hin a).2⟩)
      else 0)
  refine hfold.symm.trans ?_
  rw [sum_idx1]
  -- each window position reads one address or the initial zero
  have hterm : ∀ a : Fin N,
      (if hin : ∀ a' : Fin 1, (![L] : Fin 1 → Nat) a' ≤ ((ix1 p) (a'.cast h.1.symm)).val * (![1] : Fin 1 → Nat) a' + ((ix1 a) a').val
          ∧ ((ix1 p) (a'.cast h.1.symm)).val * (![1] : Fin 1 → Nat) a' + ((ix1 a) a').val - (![L] : Fin 1 → Nat) a' < (⟨1, ![N]⟩ : Shape).size a'
        then x (fun a' => ⟨((ix1 p) (a'.cast h.1.symm)).val * (![1] : Fin 1 → Nat) a' + ((ix1 a) a').val - (![L] : Fin 1 → Nat) a', (hin a').2⟩)
        else (0 : BitVec 32))
      = if L ≤ p.val + a.val then x (ix1 ⟨p.val + a.val - L, by have := p.isLt; have := a.isLt; omega⟩) else 0 := by
    intro a
    by_cases hc : L ≤ p.val + a.val
    · rw [if_pos hc, dif_pos]
      · congr 1
        funext a'
        refine Fin.ext ?_
        match a' with
        | ⟨0, _⟩ => show p.val * 1 + a.val - L = p.val + a.val - L; omega
      · intro a'
        match a' with
        | ⟨0, _⟩ =>
          have := p.isLt; have := a.isLt
          show L ≤ p.val * 1 + a.val ∧ p.val * 1 + a.val - L < N
          omega
    · rw [if_neg hc, dif_neg]
      intro hin
      have := (hin ⟨0, by decide⟩).1
      change L ≤ p.val * 1 + a.val at this
      omega
  rw [Finset.sum_congr rfl fun a _ => hterm a]
  -- the positions that read an address correspond to the addresses up to p
  rw [← Finset.sum_filter, ← Finset.sum_filter]
  refine Finset.sum_bij (fun a _ => (⟨p.val + a.val - L, by have := p.isLt; have := a.isLt; omega⟩ : Fin N)) ?_ ?_ ?_ ?_
  · intro a ha
    have hc := (Finset.mem_filter.mp ha).2
    have := a.isLt
    exact Finset.mem_filter.mpr ⟨Finset.mem_univ _, by show p.val + a.val - L ≤ p.val; omega⟩
  · intro a1 ha1 a2 ha2 he
    have h1 := (Finset.mem_filter.mp ha1).2
    have h2 := (Finset.mem_filter.mp ha2).2
    have hv := congrArg Fin.val he
    simp only at hv
    exact Fin.ext (by omega)
  · intro q hq
    have hqp := (Finset.mem_filter.mp hq).2
    have := p.isLt; have := q.isLt
    refine ⟨⟨q.val + L - p.val, by omega⟩, Finset.mem_filter.mpr ⟨Finset.mem_univ _, by show L ≤ p.val + (q.val + L - p.val); omega⟩, ?_⟩
    exact Fin.ext (by show p.val + (q.val + L - p.val) - L = q.val; omega)
  · intro a _
    rfl

/-- The same when every word is the word of a natural number: the word of the naturals' sum. -/
theorem cumsum_reduceWindow_ofNat (N L : Nat) (hL : L + 1 = N) {u : Shape} (x : IVec ⟨1, ![N]⟩ 32) (init : IVec u 32)
    (hinit : ∀ i, init i = 0)
    (h : (⟨1, ![N]⟩ : Shape).ReduceWindows (![N] : Fin 1 → Nat) ![1] ![L] ![0] ⟨1, ![N]⟩) (hu : 0 < u.numel)
    (m : Nat → Nat) (hx : ∀ q : Fin N, x (ix1 q) = BitVec.ofNat 32 (m q.val)) (p : Fin N) :
    Host.reduceWindow IntOp.addi (![N] : Fin 1 → Nat) ![1] ![L] ![0] x init h hu (ix1 p)
      = BitVec.ofNat 32 (∑ q ∈ Finset.range (p.val + 1), m q) := by
  rw [cumsum_reduceWindow N L hL x init hinit h hu p]
  have h1 : (∑ q : Fin N, if q.val ≤ p.val then x (ix1 q) else 0)
      = ((∑ q : Fin N, if q.val ≤ p.val then m q.val else 0 : ℕ) : BitVec 32) := by
    rw [Nat.cast_sum]
    refine Finset.sum_congr rfl fun q _ => ?_
    rw [hx q]
    split_ifs
    · rfl
    · exact Nat.cast_zero.symm
  rw [h1]
  show BitVec.ofNat 32 _ = _
  congr 1
  rw [Fin.sum_univ_eq_sum_range (fun q => if q ≤ p.val then m q else 0) N, ← Finset.sum_filter]
  refine Finset.sum_congr ?_ fun _ _ => rfl
  ext q
  have := p.isLt
  simp only [Finset.mem_filter, Finset.mem_range]
  omega

/-! ## The accumulating scatter -/

/-- One step of the scatter's fold and the rest, at an element. -/
theorem scatter_addi_foldl {s si u : Shape} {w : Nat} (d : ScatterDims s si u) (idx : IVec si w) (upd : IVec u 32)
    (i : s.Idx) (l : List (Fin u.numel)) (r0 : IVec s 32) :
    (l.foldl (fun r n =>
        match d.resultIdx? (u.rowMajor.symm n) idx with
        | some i₁ => fun i' => if i' = i₁ then IntOp.addi (r i₁) (upd (u.rowMajor.symm n)) else r i'
        | none => r) r0) i
      = r0 i + (l.map fun n => if d.resultIdx? (u.rowMajor.symm n) idx = some i then upd (u.rowMajor.symm n) else 0).sum := by
  induction l generalizing r0 with
  | nil => simp
  | cons n l ih =>
    rw [List.foldl_cons, ih, List.map_cons, List.sum_cons, ← add_assoc]
    congr 1
    cases hres : d.resultIdx? (u.rowMajor.symm n) idx with
    | none => simp
    | some i₁ =>
      dsimp only
      by_cases hi : i = i₁
      · subst hi
        rw [if_pos rfl, if_pos rfl]
        rfl
      · rw [if_neg hi, if_neg (fun h => hi (Option.some.inj h).symm), add_zero]

/-- The accumulating scatter with word addition at an element: the operand's word plus the updates whose
    result index is that element. -/
theorem scatter_addi_apply {s si u : Shape} {w : Nat} (d : ScatterDims s si u) (x : IVec s 32) (idx : IVec si w)
    (upd : IVec u 32) (i : s.Idx) :
    Host.scatter d IntOp.addi x idx upd i = x i + ∑ j : u.Idx, if d.resultIdx? j idx = some i then upd j else 0 := by
  refine (scatter_addi_foldl d idx upd i (List.finRange u.numel) x).trans ?_
  congr 1
  rw [← Fin.sum_univ_def]
  exact Equiv.sum_comp u.rowMajor.symm (fun j => if d.resultIdx? j idx = some i then upd j else 0)

end Cert.ReferenceIdeal.RefTable
-- ==== Proof.RefTableCount.lean ====
/-
  The reference's integer stages read at an index, up to the flat address of each lower-triangular
  position.

    mask (i, j)     the bit [j ≤ i]: the lower triangle of the all-ones array is 1 where i ≥ j and 0
                    elsewhere, and on the extended reals 1 ≠ 0 while 0 ≠ 0 fails
    cum1 p          the word of c(p), the number of set bits at the flat addresses up to p
    clipped, idx1   the same word: 1 ≤ c(p) ≤ 2080 is neither below 0 nor negative as a signed word
    counts k        the word of #{p : c(p) = k}: the scatter adds a one at index c(p) for every address
                    p, an index outside [0, 2080) being dropped
    cum2 n          the word of Σ_{k ≤ n} #{p : c(p) = k} = #{p : c(p) ≤ n}, the flat address of
                    position n
-/
import Mathlib.Tactic
import Mathlib.Data.BitVec
import Idealize.ShloMosaic.PureOps.Ideal.Laws
import Idealize.ShloMosaic.Lib.ValueIdx
import proofs.«162534_j14963666059944_2_alg».proof.Proof.RefStages
import proofs.«162534_j14963666059944_2_alg».proof.Proof.RefTableNat
import proofs.«162534_j14963666059944_2_alg».proof.Proof.RefTableFold
import proofs.«162534_j14963666059944_2_alg».proof.Proof.LibScatterGather

open scoped BigOperators

namespace Cert.ReferenceIdeal.RefTable

open Idealize.ShloMosaic Idealize.ShloMosaic.ValueIdx Cert.ReferenceIdeal Cert.ReferenceIdeal.Facts₀ Cert.ReferenceIdeal.Facts
open Cert.Tril Cert.Lib.ScatterGather

variable [Cert.ReferenceIdeal.Facts]

/-! ## Words -/

/-- The single-precision word of one reads as one. -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- A natural number up to 2080 as a 32-bit word: not below zero as a signed word, and its signed reading
    is the number. -/
theorem word_small (v : Nat) (hv : v < 2081) :
    IntOp.maxsi 0#32 (BitVec.ofNat 32 v) = BitVec.ofNat 32 v ∧ IntOp.cmpi .slt (BitVec.ofNat 32 v) 0#32 = 0#1
      ∧ (BitVec.ofNat 32 v).toInt = (v : Int) :=
  forall_lt_of_all (P := fun v => IntOp.maxsi 0#32 (BitVec.ofNat 32 v) = BitVec.ofNat 32 v
      ∧ IntOp.cmpi .slt (BitVec.ofNat 32 v) 0#32 = 0#1 ∧ (BitVec.ofNat 32 v).toInt = (v : Int)) (N := 2081)
    (by decide +kernel) v hv

/-- The signed comparison "row plus zero is at least column" on words of numbers below 64. -/
theorem sge_small : ∀ i j : Fin 64, IntOp.cmpi .sge (IntOp.addi (BitVec.ofNat 32 i.val) 0#32) (BitVec.ofNat 32 j.val)
    = if j.val ≤ i.val then 1#1 else 0#1 := by decide +kernel

/-! ## The mask -/

/-- The mask at (i, j) is the bit [j ≤ i]. -/
theorem mask_apply (i j : Fin 64) : RefStages.mask (ix2 i j) = if j.val ≤ i.val then 1#1 else 0#1 := by
  have e : RefStages.mask (ix2 i j)
      = Ideal.cmp .une
          (Scalar.select (IntOp.cmpi .sge (IntOp.addi (BitVec.ofNat 32 i.val) 0#32) (BitVec.ofNat 32 j.val))
            (Ideal.ofBits .f32 0x3F800000#32) (Ideal.ofBits .f32 0x00000000#32))
          (Ideal.ofBits .f32 0x00000000#32) := rfl
  rw [e, sge_small i j, ofBits_one_f32, Ideal.ofBits_zero_f32]
  by_cases hji : j.val ≤ i.val
  · rw [if_pos hji, select_one]
    simp [Ideal.cmp]
  · rw [if_neg hji, select_zero]
    simp [Ideal.cmp]

/-- The mask flattened and widened to 32 bits, at flat address p: the word of the mask bit. -/
theorem maskWord_apply (p : Fin 4096) :
    extui 32 (shapeCast S4096 RefStages.mask shapeCasts_S64x64_S4096) natLt_1_32 (ix1 p) = BitVec.ofNat 32 (maskN p.val) := by
  have hk : shapeCast S4096 RefStages.mask shapeCasts_S64x64_S4096 (ix1 p)
      = RefStages.mask (ix2 (⟨p.val / 64, by have := p.isLt; omega⟩ : Fin 64) (⟨p.val % 64, Nat.mod_lt _ (by decide)⟩ : Fin 64)) := by
    unfold shapeCast
    refine congrArg RefStages.mask (Shape.reshapeEquiv_eq_of_rowMajor _ ?_)
    rw [Shape.rowMajor_val_two, Shape.rowMajor_val_one]
    show p.val / 64 * 64 + p.val % 64 = p.val
    omega
  rw [extui_apply, hk, mask_apply]
  unfold maskN
  show BitVec.setWidth 32 (if p.val % 64 ≤ p.val / 64 then 1#1 else 0#1) = _
  by_cases hc : p.val % 64 ≤ p.val / 64
  · rw [if_pos hc, if_pos hc]; rfl
  · rw [if_neg hc, if_neg hc]; rfl

/-! ## The running count of the mask -/

/-- The running count at flat address p is the word of c(p). -/
theorem cum1_apply (p : Fin 4096) : RefStages.cum1 (ix1 p) = BitVec.ofNat 32 (cumC p.val) := by
  unfold RefStages.cum1
  refine (cumsum_reduceWindow_ofNat 4096 4095 rfl _ (broadcastInDim S_ ![] bcast_S_S_ (constantI S_ 32 0#32))
    (fun _ => rfl) _ _ maskN maskWord_apply p).trans ?_
  rw [sum_maskN p.val p.isLt]

/-- Clipping below at zero leaves it. -/
theorem clipped_apply (p : Fin 4096) : RefStages.clipped (ix1 p) = BitVec.ofNat 32 (cumC p.val) := by
  have e : RefStages.clipped (ix1 p) = IntOp.maxsi 0#32 (RefStages.cum1 (ix1 p)) := rfl
  have hb := cumC_pos_le p
  rw [e, cum1_apply, (word_small _ (by omega)).1]

/-- So does wrapping a negative index. -/
theorem idx1_apply (p : Fin 4096) : RefStages.idx1 (ix1 p) = BitVec.ofNat 32 (cumC p.val) := by
  have e : RefStages.idx1 (ix1 p)
      = Scalar.select (IntOp.cmpi .slt (RefStages.clipped (ix1 p)) 0#32)
          (IntOp.addi (RefStages.clipped (ix1 p)) 2080#32) (RefStages.clipped (ix1 p)) := rfl
  have hb := cumC_pos_le p
  rw [e, clipped_apply, (word_small _ (by omega)).2.1, select_zero]

/-! ## The counts -/

/-- The number of flat addresses whose running count is k, as a function of k. -/
def cnt (k : Nat) : Nat := (Finset.univ.filter (fun e : Fin 4096 => cumC e.val = k)).card

/-- The scatter-add of ones at the running counts, at k: the word of the number of addresses with count k. -/
theorem counts_apply (k : Fin 2080) : RefStages.counts (ix1 k) = BitVec.ofNat 32 (cnt k.val) := by
  unfold RefStages.counts
  rw [scatter_addi_apply, sum_idx1]
  have hd : scatter_S2080_S4096x1_S4096_n_0_0_1 = scat1Dims 2080 4096 scatter_S2080_S4096x1_S4096_n_0_0_1_wf := rfl
  have hterm : ∀ e : Fin 4096,
      (if scatter_S2080_S4096x1_S4096_n_0_0_1.resultIdx? (ix1 e) (broadcastInDim S4096x1 ![0] bcast_S4096_S4096x1_0 RefStages.idx1)
          = some (ix1 k)
        then (broadcastInDim S4096 ![] bcast_S_S4096 (constantI S_ 32 1#32)) (ix1 e) else (0 : BitVec 32))
      = if cumC e.val = k.val then 1 else 0 := by
    intro e
    have hidx : (broadcastInDim S4096x1 ![0] bcast_S4096_S4096x1_0 RefStages.idx1) (ix2 e (0 : Fin 1)) = RefStages.idx1 (ix1 e) := by
      unfold broadcastInDim
      refine congrArg RefStages.idx1 ?_
      funext a
      match a with
      | ⟨0, _⟩ => rfl
    have hb := cumC_pos_le e
    have hiff : scatter_S2080_S4096x1_S4096_n_0_0_1.resultIdx? (ix1 e) (broadcastInDim S4096x1 ![0] bcast_S4096_S4096x1_0 RefStages.idx1)
        = some (ix1 k) ↔ cumC e.val = k.val := by
      rw [hd, scat1_resultIdx?_eq_some_iff, hidx, idx1_apply, (word_small _ (by omega)).2.2]
      exact Nat.cast_inj
    by_cases hc : cumC e.val = k.val
    · rw [if_pos (hiff.mpr hc), if_pos hc]; rfl
    · rw [if_neg (fun h => hc (hiff.mp h)), if_neg hc]
  rw [Finset.sum_congr rfl fun e _ => hterm e, Finset.sum_boole]
  show (0 : BitVec 32) + _ = _
  rw [zero_add]
  rfl

/-! ## The flat addresses -/

/-- The running count of the counts at n is the word of the flat address of position n. -/
theorem cum2_apply (n : Fin 2080) : RefStages.cum2 (ix1 n) = BitVec.ofNat 32 (tflat n.val) := by
  unfold RefStages.cum2
  refine (cumsum_reduceWindow_ofNat 2080 2079 rfl _ (broadcastInDim S_ ![] bcast_S_S_ (constantI S_ 32 0#32))
    (fun _ => rfl) _ _ cnt counts_apply n).trans ?_
  exact congrArg (BitVec.ofNat 32) (sum_card_cumC n)

end Cert.ReferenceIdeal.RefTable
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.RefTableWordFns.lean ====
/-
  The reference's floored quotient, sign-following remainder and index wrap, at one 32-bit word.

  The floored quotient of signed words is the truncated quotient, less one where the operands' signs differ and the truncated
  remainder is not zero; the remainder that goes with it is the truncated remainder, plus the divisor where that remainder is not zero and
  its sign differs from the divisor's (a zero divisor replaced by one); an index is wrapped by adding 64 where it is
  negative. On a flat address v < 4096 = 64 · 64 all the corrections are idle: the quotient by 64 then taken modulo 64
  is v / 64, and the quotient by 1 taken modulo 64 is v mod 64. Both facts are finite checks over the 4096 addresses.
-/
import Idealize.ShloMosaic.PureOps.Vector

namespace Cert.ReferenceIdeal.RefTable
open Idealize.ShloMosaic

/-- The sign of a signed word: 0, −1 or 1. -/
def sgnW (x : BitVec 32) : BitVec 32 := if x = 0 then 0 else if x.msb then -1 else 1

/-- The floored quotient of two signed words. -/
def fdivW (a d : BitVec 32) : BitVec 32 :=
  Scalar.select (IntOp.andi (IntOp.cmpi .ne (sgnW a) (sgnW d)) (IntOp.cmpi .ne (IntOp.remsi .host a d) 0#32))
    (IntOp.subi (IntOp.divsi .host a d) 1#32) (IntOp.divsi .host a d)

/-- The divisor with one in place of zero. -/
def safeW (d : BitVec 32) : BitVec 32 := Scalar.select (IntOp.cmpi .eq d 0#32) 1#32 d

/-- The remainder that takes the divisor's sign. -/
def remW (a d : BitVec 32) : BitVec 32 :=
  Scalar.select
    (IntOp.andi
      (IntOp.cmpi .ne (IntOp.cmpi .slt (IntOp.remsi .host a (safeW d)) 0#32) (IntOp.cmpi .slt (safeW d) 0#32))
      (IntOp.cmpi .ne (IntOp.remsi .host a (safeW d)) 0#32))
    (IntOp.addi (IntOp.remsi .host a (safeW d)) (safeW d))
    (IntOp.remsi .host a (safeW d))

/-- A negative index wrapped by 64. -/
def wrapW (r : BitVec 32) : BitVec 32 := Scalar.select (IntOp.cmpi .slt r 0#32) (IntOp.addi r 64#32) r

/-- On flat addresses below 4096 the floored quotient by 64, reduced modulo 64 and wrapped, is the quotient. -/
theorem rowW_eq : ∀ v : Fin 4096, wrapW (remW (fdivW (BitVec.ofNat 32 v.val) 64#32) 64#32) = BitVec.ofNat 32 (v.val / 64 % 64) := by
  decide +kernel

/-- On flat addresses below 4096 the floored quotient by 1, reduced modulo 64 and wrapped, is the remainder. -/
theorem colW_eq : ∀ v : Fin 4096, wrapW (remW (fdivW (BitVec.ofNat 32 v.val) 1#32) 64#32) = BitVec.ofNat 32 (v.val % 64) := by
  decide +kernel

end Cert.ReferenceIdeal.RefTable
-- ==== Proof.RefTableWords.lean ====
/-
  The table of (row, column) pairs the reference scatters at, read word by word.

  The table's two columns are the second running count (the flat address 64 · row + column of each of the 2080
  lower-triangular positions) floor-divided by 64 and by 1, each reduced modulo 64 and wrapped. Every stage is
  elementwise over the 2080 positions with its scalars broadcast, so at position n it is a function of the one word
  there; the word is a flat address below 4096, where the quotient is the row and the remainder the column
  (column ≤ row < 64). The two columns laid side by side are read at (n, 0) and (n, 1).
-/
import Idealize.ShloMosaic.Lib.ValueIdx
import Idealize.ShloMosaic.Lib.IdealHost
import Idealize.ShloMosaic.Lib.Pipeline.Value
import proofs.«162534_j14963666059944_2_alg».proof.Proof.RefStages
import proofs.«162534_j14963666059944_2_alg».proof.Proof.Gen.ReferenceIdeal
import proofs.«162534_j14963666059944_2_alg».proof.Proof.TrilIndex
import proofs.«162534_j14963666059944_2_alg».proof.Proof.LibConcatCols
import proofs.«162534_j14963666059944_2_alg».proof.Proof.RefTableWordFns

noncomputable section
namespace Cert.ReferenceIdeal.RefTable
open Idealize.ShloMosaic Idealize.ShloMosaic.ValueIdx Cert.ReferenceIdeal Cert.ReferenceIdeal.Facts₀ Cert.ReferenceIdeal.Facts Cert.ReferenceIdeal.RefStages Cert.Tril
attribute [local instance] Cert.ReferenceIdeal.Gen.facts

/-! ## Each stage at an index is a function of the input word there -/

section
variable {s : Shape} {w : Nat}
theorem andi_at (x y : IVec s w) (i : s.Idx) : andi x y i = IntOp.andi (x i) (y i) := rfl
theorem subi_at (x y : IVec s w) (i : s.Idx) : subi x y i = IntOp.subi (x i) (y i) := rfl
theorem addi_at (x y : IVec s w) (i : s.Idx) : addi x y i = IntOp.addi (x i) (y i) := rfl
theorem cmpi_at (p : CmpIPredicate) (x y : IVec s w) (i : s.Idx) : cmpi p x y i = IntOp.cmpi p (x i) (y i) := rfl
theorem signi_at (x : IVec s 32) (i : s.Idx) : signi x i = sgnW (x i) := rfl
theorem hdivsi_at (x y : IVec s w) (i : s.Idx) : Host.divsi x y i = IntOp.divsi .host (x i) (y i) := rfl
theorem hremsi_at (x y : IVec s w) (i : s.Idx) : Host.remsi x y i = IntOp.remsi .host (x i) (y i) := rfl
theorem constI_at (b : BitVec w) (i : s.Idx) : constantI s w b i = b := rfl
end

/-- A scalar broadcast over the 2080 positions reads the scalar. -/
theorem bscal {α : Type} (x : S_.Idx → α) (n : Fin 2080) : broadcastInDim S2080 ![] bcast_S_S2080 x (ix1 n) = x ix0 :=
  broadcastInDim_scalar_apply _ x _

theorem floorDivide_apply (a : IVec S2080 32) (d : IVec S_ 32) (n : Fin 2080) :
    floorDivide a d (ix1 n) = fdivW (a (ix1 n)) (d ix0) := by
  unfold floorDivide
  simp only [select_apply, andi_at, cmpi_at, signi_at, subi_at, hdivsi_at, hremsi_at]
  rw [bscal, bscal, bscal, bscal]
  rfl

theorem safeDivisor_apply (d : IVec S_ 32) : safeDivisor d ix0 = safeW (d ix0) := rfl

theorem remainder_apply (a : IVec S2080 32) (d : IVec S_ 32) (n : Fin 2080) :
    remainder a d (ix1 n) = remW (a (ix1 n)) (d ix0) := by
  unfold remainder
  simp only [select_apply, andi_at, cmpi_at, addi_at, hremsi_at]
  rw [bscal, bscal, bscal]
  rfl

theorem wrap64_apply (r : IVec S2080 32) (n : Fin 2080) : wrap64 r (ix1 n) = wrapW (r (ix1 n)) := by
  unfold wrap64
  simp only [select_apply, cmpi_at, addi_at]
  rw [bscal, bscal]
  rfl

theorem rows_apply (n : Fin 2080) : rows (ix1 n) = wrapW (remW (fdivW (cum2 (ix1 n)) 64#32) 64#32) := by
  unfold rows
  rw [wrap64_apply, remainder_apply, floorDivide_apply]
  rfl

theorem cols_apply (n : Fin 2080) : cols (ix1 n) = wrapW (remW (fdivW (cum2 (ix1 n)) 1#32) 64#32) := by
  unfold cols
  rw [wrap64_apply, remainder_apply, floorDivide_apply]
  rfl

/-- A vector of 2080 words viewed as one column reads the vector. -/
theorem col_apply (v : IVec S2080 32) (n : Fin 2080) (u : Fin 1) :
    broadcastInDim S2080x1 ![0] bcast_S2080_S2080x1_0 v (ix2 n u) = v (ix1 n) :=
  broadcastInDim_apply _ _ v (ix2 n u) (ix1 n) (fun a => by
    match a with
    | ⟨0, _⟩ => rfl)

/-- The table of pairs: position n's pair is (row of n, column of n), given that the second running count is the flat
    address 64 · row + column of each position. -/
theorem table_of (haddr : ∀ n : Fin 2080, RefStages.cum2 (ValueIdx.ix1 n) = BitVec.ofNat 32 (Cert.Tril.tflat n.val)) (n : Fin 2080) :
    RefStages.table (ValueIdx.ix2 n (0 : Fin 2)) = BitVec.ofNat 32 (Cert.Tril.trow n.val) ∧ RefStages.table (ValueIdx.ix2 n (1 : Fin 2)) = BitVec.ofNat 32 (Cert.Tril.tcol n.val) := by
  have hr := trow_lt n
  have hc := tcol_le_trow n
  have hf := tflat_lt n
  have e1 : tflat n.val / 64 % 64 = trow n.val := by unfold tflat at *; omega
  have e2 : tflat n.val % 64 = tcol n.val := by unfold tflat at *; omega
  constructor
  · unfold table
    rw [Cert.ConcatCols.pair_left (A := 2080) (B0 := 1) (B1 := 1) (T := 2) _ _ _ n (0 : Fin 1) (0 : Fin 2) rfl, col_apply, rows_apply, haddr, rowW_eq ⟨tflat n.val, hf⟩]
    exact congrArg (BitVec.ofNat 32) e1
  · unfold table
    rw [Cert.ConcatCols.pair_right (A := 2080) (B0 := 1) (B1 := 1) (T := 2) _ _ _ n (0 : Fin 1) (1 : Fin 2) rfl, col_apply, cols_apply, haddr, colW_eq ⟨tflat n.val, hf⟩]
    exact congrArg (BitVec.ofNat 32) e2

end Cert.ReferenceIdeal.RefTable

end
-- ==== Proof.lean ====
/-
  The certificate: a two-layer perceptron whose 2080 outputs per sample are laid out as a lower-triangular 64 × 64
  matrix L, and the result L·Lᵀ + ε·I, computed two ways.

  The kernel folds the triangular layout into a zero-padded second-layer weight (row 64·i + j of the padded weight is
  row i(i+1)/2 + j of the given one when j ≤ i, and zero otherwise), so one matrix product yields the flattened L; the
  reference computes the (row, column) pairs of the triangular positions with integer arithmetic and scatters the second
  layer's outputs there. On the extended reals both are the one function `Cert.Spec.G` of the five argument arrays:
  a product with a zero weight is zero whatever the other factor, the activation's self-comparison guard never fires,
  and changes of float format are the identity. No finiteness of the inputs is used.

  The three frames come from the generated frame certificates and from the reference's run; the idealization ledger is
  empty.
-/
import proofs.«162534_j14963666059944_2_alg».proof.Defs
import proofs.«162534_j14963666059944_2_alg».proof.Proof.Gen.Kernel
import proofs.«162534_j14963666059944_2_alg».proof.Proof.Gen.Kernel.Frame
import proofs.«162534_j14963666059944_2_alg».proof.Proof.Gen.KernelIdeal
import proofs.«162534_j14963666059944_2_alg».proof.Proof.Gen.KernelIdeal.Frame
import proofs.«162534_j14963666059944_2_alg».proof.Proof.Gen.ReferenceIdeal
import proofs.«162534_j14963666059944_2_alg».proof.Proof.Gen.Pre_finite_inputs
import proofs.«162534_j14963666059944_2_alg».proof.Proof.KValueRun
import proofs.«162534_j14963666059944_2_alg».proof.Proof.RefRead
import proofs.«162534_j14963666059944_2_alg».proof.Proof.RefValue
import proofs.«162534_j14963666059944_2_alg».proof.Proof.RefTableCount
import proofs.«162534_j14963666059944_2_alg».proof.Proof.RefTableWords
import Idealize.ShloMosaic.Adequacy
import Idealize.ShloMosaic.Init

noncomputable section

namespace Cert.Proof

open Idealize.ShloMosaic Idealize.SL.Sem

/-- The reference's result term is the specification. -/
theorem ref_eq (x : FVec Ideal Cert.ReferenceIdeal.S16384x128 .f32) (W1 : FVec Ideal Cert.ReferenceIdeal.S128x128 .f32)
    (b1 : FVec Ideal Cert.ReferenceIdeal.S128 .f32) (W2 : FVec Ideal Cert.ReferenceIdeal.S2080x128 .f32)
    (b2 : FVec Ideal Cert.ReferenceIdeal.S2080 .f32) :
    Cert.ReferenceIdeal.RefStages.result x W1 b1 W2 b2 = Cert.Spec.G x W1 b1 W2 b2 :=
  Cert.ReferenceIdeal.RefValue.result_eq (Cert.ReferenceIdeal.RefTable.table_of Cert.ReferenceIdeal.RefTable.cum2_apply) x W1 b1 W2 b2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.RefRun.run m ρ),
    trivial,
    fun m ρ m' ρ' _ hagree =>
      ⟨_, Cert.KernelIdeal.KValue.run m ρ,
        (θ_run Cert.ReferenceIdeal.defs _ _).mono
          (fun _ h c => ⟨by
            rw [(h c).1, ref_eq, (hagree c).1, (hagree c).2.1, (hagree c).2.2.1, (hagree c).2.2.2.1, (hagree c).2.2.2.2], (h c).2⟩)
          (Cert.ReferenceIdeal.RefRun.run m' ρ')⟩⟩

end Cert.Proof

end
